-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x2x2 : Shape := ⟨3, ![1048576, 2, 2]⟩
abbrev S1048576 : Shape := ⟨1, ![1048576]⟩
abbrev S2x16 : Shape := ⟨2, ![2, 16]⟩
abbrev S16 : Shape := ⟨1, ![16]⟩
abbrev S16x16 : Shape := ⟨2, ![16, 16]⟩
abbrev S3x16 : Shape := ⟨2, ![3, 16]⟩
abbrev S2x48x16 : Shape := ⟨3, ![2, 48, 16]⟩
abbrev S2x16x16 : Shape := ⟨3, ![2, 16, 16]⟩
abbrev S2x32x16 : Shape := ⟨3, ![2, 32, 16]⟩
abbrev S16x1 : Shape := ⟨2, ![16, 1]⟩
abbrev S1 : Shape := ⟨1, ![1]⟩
abbrev S_ : Shape := ⟨0, ![]⟩

class Facts : Prop where
  bcast_S_S1048576x2x2 : S_.BroadcastsInDim S1048576x2x2 (![] : Fin 0 → Fin S1048576x2x2.rank)
  reducesTo_S1048576x2x2_S_d0_1_2 : S1048576x2x2.ReducesTo [0, 1, 2] S_
  h_S_ : 0 < S_.numel
  bcast_S_S1048576 : S_.BroadcastsInDim S1048576 (![] : Fin 0 → Fin S1048576.rank)
  reducesTo_S1048576_S_d0 : S1048576.ReducesTo [0] S_
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S3x16 : S_.BroadcastsInDim S3x16 (![] : Fin 0 → Fin S3x16.rank)
  reducesTo_S3x16_S_d0_1 : S3x16.ReducesTo [0, 1] S_
  bcast_S_S2x48x16 : S_.BroadcastsInDim S2x48x16 (![] : Fin 0 → Fin S2x48x16.rank)
  reducesTo_S2x48x16_S_d0_1_2 : S2x48x16.ReducesTo [0, 1, 2] S_
  bcast_S_S2x16x16 : S_.BroadcastsInDim S2x16x16 (![] : Fin 0 → Fin S2x16x16.rank)
  reducesTo_S2x16x16_S_d0_1_2 : S2x16x16.ReducesTo [0, 1, 2] S_
  bcast_S_S2x32x16 : S_.BroadcastsInDim S2x32x16 (![] : Fin 0 → Fin S2x32x16.rank)
  reducesTo_S2x32x16_S_d0_1_2 : S2x32x16.ReducesTo [0, 1, 2] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S16 .f32) (main_arg22 : FVec F S16x1 .f32) (main_arg23 : FVec F S1 .f32) (main_v98 : IVec S_ 1) (main_v101 : IVec S16x16 1) (main_c_39 : IVec S_ 1) : IVec S_ 1 :=
  let main_v102 : IVec S_ 1 := (fun x v => Host.reduce IntOp.andi x v reducesTo_S16x16_S_d0_1 h_S_) main_v101 main_c_39
  let main_v103 : IVec S_ 1 := andi main_v98 main_v102
  let main_v104 : FVec F S16 .f32 := Host.absf main_arg21
  let main_cst_40 : FVec F S_ .f32 := constant S_ .f32 0x7F800000#32
  let main_v105 : FVec F S16 .f32 := broadcastInDim S16 ![] bcast_S_S16 main_cst_40
  let main_v106 : IVec S16 1 := cmpf .olt main_v104 main_v105
  let main_c_41 : IVec S_ 1 := constantI S_ 1 1#1
  let main_v107 : IVec S_ 1 := (fun x v => Host.reduce IntOp.andi x v reducesTo_S16_S_d0 h_S_) main_v106 main_c_41
  let main_v108 : IVec S_ 1 := andi main_v103 main_v107
  let main_v109 : FVec F S16x1 .f32 := Host.absf main_arg22
  let main_cst_42 : FVec F S_ .f32 := constant S_ .f32 0x7F800000#32
  let main_v110 : FVec F S16x1 .f32 := broadcastInDim S16x1 ![] bcast_S_S16x1 main_cst_42
  let main_v111 : IVec S16x1 1 := cmpf .olt main_v109 main_v110
  let main_c_43 : IVec S_ 1 := constantI S_ 1 1#1
  let main_v112 : IVec S_ 1 := (fun x v => Host.reduce IntOp.andi x v reducesTo_S16x1_S_d0_1 h_S_) main_v111 main_c_43
  let main_v113 : IVec S_ 1 := andi main_v108 main_v112
  let main_v114 : FVec F S1 .f32 := Host.absf main_arg23
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg18 : FVec F S2x16x16 .f32) (main_arg19 : FVec F S2x16 .f32) (main_arg20 : FVec F S16x16 .f32) (main_arg21 : FVec F S16 .f32) (main_arg22 : FVec F S16x1 .f32) (main_arg23 : FVec F S1 .f32) (main_v83 : IVec S_ 1) (main_v84 : FVec F S2x16 .f32) (main_cst_32 : FVec F S_ .f32) : IVec S_ 1 :=
  let main_v85 : FVec F S2x16 .f32 := broadcastInDim S2x16 ![] bcast_S_S2x16 main_cst_32
  let main_v86 : IVec S2x16 1 := cmpf .olt main_v84 main_v85
  let main_c_33 : IVec S_ 1 := constantI S_ 1 1#1
  let main_v87 : IVec S_ 1 := (fun x v => Host.reduce IntOp.andi x v reducesTo_S2x16_S_d0_1 h_S_) main_v86 main_c_33
  let main_v88 : IVec S_ 1 := andi main_v83 main_v87
  let main_v89 : FVec F S2x16x16 .f32 := Host.absf main_arg18
  let main_cst_34 : FVec F S_ .f32 := constant S_ .f32 0x7F800000#32
  let main_v90 : FVec F S2x16x16 .f32 := broadcastInDim S2x16x16 ![] bcast_S_S2x16x16 main_cst_34
  let main_v91 : IVec S2x16x16 1 := cmpf .olt main_v89 main_v90
  let main_c_35 : IVec S_ 1 := constantI S_ 1 1#1
  let main_v92 : IVec S_ 1 := (fun x v => Host.reduce IntOp.andi x v reducesTo_S2x16x16_S_d0_1_2 h_S_) main_v91 main_c_35
  let main_v93 : IVec S_ 1 := andi main_v88 main_v92
  let main_v94 : FVec F S2x16 .f32 := Host.absf main_arg19
  let main_cst_36 : FVec F S_ .f32 := constant S_ .f32 0x7F800000#32
  let main_v95 : FVec F S2x16 .f32 := broadcastInDim S2x16 ![] bcast_S_S2x16 main_cst_36
  let main_v96 : IVec S2x16 1 := cmpf .olt main_v94 main_v95
  let main_c_37 : IVec S_ 1 := constantI S_ 1 1#1
  let main_v97 : IVec S_ 1 := (fun x v => Host.reduce IntOp.andi x v reducesTo_S2x16_S_d0_1 h_S_) main_v96 main_c_37
  let main_v98 : IVec S_ 1 := andi main_v93 main_v97
  let main_v99 : FVec F S16x16 .f32 := Host.absf main_arg20
  let main_cst_38 : FVec F S_ .f32 := constant S_ .f32 0x7F800000#32
  let main_v100 : FVec F S16x16 .f32 := broadcastInDim S16x16 ![] bcast_S_S16x16 main_cst_38
  let main_v101 : IVec S16x16 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S2x16x16 .f32) (main_arg15 : FVec F S2x16 .f32) (main_arg16 : FVec F S2x32x16 .f32) (main_arg17 : FVec F S2x16 .f32) (main_arg18 : FVec F S2x16x16 .f32) (main_arg19 : FVec F S2x16 .f32) (main_arg20 : FVec F S16x16 .f32) (main_arg21 : FVec F S16 .f32) (main_arg22 : FVec F S16x1 .f32) (main_arg23 : FVec F S1 .f32) (main_v63 : IVec S_ 1) (main_v67 : IVec S_ 1) : IVec S_ 1 :=
  let main_v68 : IVec S_ 1 := andi main_v63 main_v67
  let main_v69 : FVec F S2x16x16 .f32 := Host.absf main_arg14
  let main_cst_26 : FVec F S_ .f32 := constant S_ .f32 0x7F800000#32
  let main_v70 : FVec F S2x16x16 .f32 := broadcastInDim S2x16x16 ![] bcast_S_S2x16x16 main_cst_26
  let main_v71 : IVec S2x16x16 1 := cmpf .olt main_v69 main_v70
  let main_c_27 : IVec S_ 1 := constantI S_ 1 1#1
  let main_v72 : IVec S_ 1 := (fun x v => Host.reduce IntOp.andi x v reducesTo_S2x16x16_S_d0_1_2 h_S_) main_v71 main_c_27
  let main_v73 : IVec S_ 1 := andi main_v68 main_v72
  let main_v74 : FVec F S2x16 .f32 := Host.absf main_arg15
  let main_cst_28 : FVec F S_ .f32 := constant S_ .f32 0x7F800000#32
  let main_v75 : FVec F S2x16 .f32 := broadcastInDim S2x16 ![] bcast_S_S2x16 main_cst_28
  let main_v76 : IVec S2x16 1 := cmpf .olt main_v74 main_v75
  let main_c_29 : IVec S_ 1 := constantI S_ 1 1#1
  let main_v77 : IVec S_ 1 := (fun x v => Host.reduce IntOp.andi x v reducesTo_S2x16_S_d0_1 h_S_) main_v76 main_c_29
  let main_v78 : IVec S_ 1 := andi main_v73 main_v77
  let main_v79 : FVec F S2x32x16 .f32 := Host.absf main_arg16
  let main_cst_30 : FVec F S_ .f32 := constant S_ .f32 0x7F800000#32
  let main_v80 : FVec F S2x32x16 .f32 := broadcastInDim S2x32x16 ![] bcast_S_S2x32x16 main_cst_30
  let main_v81 : IVec S2x32x16 1 := cmpf .olt main_v79 main_v80
  let main_c_31 : IVec S_ 1 := constantI S_ 1 1#1
  let main_v82 : IVec S_ 1 := (fun x v => Host.reduce IntOp.andi x v reducesTo_S2x32x16_S_d0_1_2 h_S_) main_v81 main_c_31
  let main_v83 : IVec S_ 1 := andi main_v78 main_v82
  let main_v84 : FVec F S2x16 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S16 .f32) (main_arg12 : FVec F S2x48x16 .f32) (main_arg13 : FVec F S2x16 .f32) (main_arg14 : FVec F S2x16x16 .f32) (main_arg15 : FVec F S2x16 .f32) (main_arg16 : FVec F S2x32x16 .f32) (main_arg17 : FVec F S2x16 .f32) (main_arg18 : FVec F S2x16x16 .f32) (main_arg19 : FVec F S2x16 .f32) (main_arg20 : FVec F S16x16 .f32) (main_arg21 : FVec F S16 .f32) (main_arg22 : FVec F S16x1 .f32) (main_arg23 : FVec F S1 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S2x48x16 .f32 := Host.absf main_arg12
  let main_cst_22 : FVec F S_ .f32 := constant S_ .f32 0x7F800000#32
  let main_v60 : FVec F S2x48x16 .f32 := broadcastInDim S2x48x16 ![] bcast_S_S2x48x16 main_cst_22
  let main_v61 : IVec S2x48x16 1 := cmpf .olt main_v59 main_v60
  let main_c_23 : IVec S_ 1 := constantI S_ 1 1#1
  let main_v62 : IVec S_ 1 := (fun x v => Host.reduce IntOp.andi x v reducesTo_S2x48x16_S_d0_1_2 h_S_) main_v61 main_c_23
  let main_v63 : IVec S_ 1 := andi main_v58 main_v62
  let main_v64 : FVec F S2x16 .f32 := Host.absf main_arg13
  let main_cst_24 : FVec F S_ .f32 := constant S_ .f32 0x7F800000#32
  let main_v65 : FVec F S2x16 .f32 := broadcastInDim S2x16 ![] bcast_S_S2x16 main_cst_24
  let main_v66 : IVec S2x16 1 := cmpf .olt main_v64 main_v65
  let main_c_25 : IVec S_ 1 := constantI S_ 1 1#1
  let main_v67 : IVec S_ 1 := (fun x v => Host.reduce IntOp.andi x v reducesTo_S2x16_S_d0_1 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S16 .f32) (main_arg8 : FVec F S3x16 .f32) (main_arg9 : FVec F S16 .f32) (main_arg10 : FVec F S16x16 .f32) (main_arg11 : FVec F S16 .f32) (main_arg12 : FVec F S2x48x16 .f32) (main_arg13 : FVec F S2x16 .f32) (main_arg14 : FVec F S2x16x16 .f32) (main_arg15 : FVec F S2x16 .f32) (main_arg16 : FVec F S2x32x16 .f32) (main_arg17 : FVec F S2x16 .f32) (main_arg18 : FVec F S2x16x16 .f32) (main_arg19 : FVec F S2x16 .f32) (main_arg20 : FVec F S16x16 .f32) (main_arg21 : FVec F S16 .f32) (main_arg22 : FVec F S16x1 .f32) (main_arg23 : FVec F S1 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S3x16 .f32 := Host.absf main_arg8
  let main_cst_14 : FVec F S_ .f32 := constant S_ .f32 0x7F800000#32
  let main_v40 : FVec F S3x16 .f32 := broadcastInDim S3x16 ![] bcast_S_S3x16 main_cst_14
  let main_v41 : IVec S3x16 1 := cmpf .olt main_v39 main_v40
  let main_c_15 : IVec S_ 1 := constantI S_ 1 1#1
  let main_v42 : IVec S_ 1 := (fun x v => Host.reduce IntOp.andi x v reducesTo_S3x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x16 .f32 := Host.absf main_arg10
  let main_cst_18 : FVec F S_ .f32 := constant S_ .f32 0x7F800000#32
  let main_v50 : FVec F S16x16 .f32 := broadcastInDim S16x16 ![] bcast_S_S16x16 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S2x16 .f32) (main_arg5 : FVec F S16 .f32) (main_arg6 : FVec F S16x16 .f32) (main_arg7 : FVec F S16 .f32) (main_arg8 : FVec F S3x16 .f32) (main_arg9 : FVec F S16 .f32) (main_arg10 : FVec F S16x16 .f32) (main_arg11 : FVec F S16 .f32) (main_arg12 : FVec F S2x48x16 .f32) (main_arg13 : FVec F S2x16 .f32) (main_arg14 : FVec F S2x16x16 .f32) (main_arg15 : FVec F S2x16 .f32) (main_arg16 : FVec F S2x32x16 .f32) (main_arg17 : FVec F S2x16 .f32) (main_arg18 : FVec F S2x16x16 .f32) (main_arg19 : FVec F S2x16 .f32) (main_arg20 : FVec F S16x16 .f32) (main_arg21 : FVec F S16 .f32) (main_arg22 : FVec F S16x1 .f32) (main_arg23 : FVec F S1 .f32) (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  let main_v19 : FVec F S2x16 .f32 := Host.absf main_arg4
  let main_cst_6 : FVec F S_ .f32 := constant S_ .f32 0x7F800000#32
  let main_v20 : FVec F S2x16 .f32 := broadcastInDim S2x16 ![] bcast_S_S2x16 main_cst_6
  let main_v21 : IVec S2x16 1 := cmpf .olt main_v19 main_v20
  let main_c_7 : IVec S_ 1 := constantI S_ 1 1#1
  let main_v22 : IVec S_ 1 := (fun x v => Host.reduce IntOp.andi x v reducesTo_S2x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S1048576x2x2 .f32) (main_arg1 : FVec F S1048576 .f32) (main_arg2 : FVec F S1048576 .f32) (main_arg3 : FVec F S1048576 .f32) (main_arg4 : FVec F S2x16 .f32) (main_arg5 : FVec F S16 .f32) (main_arg6 : FVec F S16x16 .f32) (main_arg7 : FVec F S16 .f32) (main_arg8 : FVec F S3x16 .f32) (main_arg9 : FVec F S16 .f32) (main_arg10 : FVec F S16x16 .f32) (main_arg11 : FVec F S16 .f32) (main_arg12 : FVec F S2x48x16 .f32) (main_arg13 : FVec F S2x16 .f32) (main_arg14 : FVec F S2x16x16 .f32) (main_arg15 : FVec F S2x16 .f32) (main_arg16 : FVec F S2x32x16 .f32) (main_arg17 : FVec F S2x16 .f32) (main_arg18 : FVec F S2x16x16 .f32) (main_arg19 : FVec F S2x16 .f32) (main_arg20 : FVec F S16x16 .f32) (main_arg21 : FVec F S16 .f32) (main_arg22 : FVec F S16x1 .f32) (main_arg23 : FVec F S1 .f32) : IVec S_ 1 :=
  let main_v0 : FVec F S1048576x2x2 .f32 := Host.absf main_arg0
  let main_cst : FVec F S_ .f32 := constant S_ .f32 0x7F800000#32
  let main_v1 : FVec F S1048576x2x2 .f32 := broadcastInDim S1048576x2x2 ![] bcast_S_S1048576x2x2 main_cst
  let main_v2 : IVec S1048576x2x2 1 := cmpf .olt main_v0 main_v1
  let main_c : IVec S_ 1 := constantI S_ 1 1#1
  let main_v3 : IVec S_ 1 := (fun x v => Host.reduce IntOp.andi x v reducesTo_S1048576x2x2_S_d0_1_2 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S1048576 .f32 := Host.absf main_arg2
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  let main_v14 : FVec F S1048576 .f32 := Host.absf main_arg3
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S1048576x2x2 : Shape := ⟨3, ![1048576, 2, 2]⟩
abbrev S1048576 : Shape := ⟨1, ![1048576]⟩
abbrev S2x16 : Shape := ⟨2, ![2, 16]⟩
abbrev S16 : Shape := ⟨1, ![16]⟩
abbrev S16x16 : Shape := ⟨2, ![16, 16]⟩
abbrev S3x16 : Shape := ⟨2, ![3, 16]⟩
abbrev S2x48x16 : Shape := ⟨3, ![2, 48, 16]⟩
abbrev S2x16x16 : Shape := ⟨3, ![2, 16, 16]⟩
abbrev S2x32x16 : Shape := ⟨3, ![2, 32, 16]⟩
abbrev S16x1 : Shape := ⟨2, ![16, 1]⟩
abbrev S1 : Shape := ⟨1, ![1]⟩
abbrev S1048576x1x2 : Shape := ⟨3, ![1048576, 1, 2]⟩
abbrev S1048576x2 : Shape := ⟨2, ![1048576, 2]⟩
abbrev S2x1048576 : Shape := ⟨2, ![2, 1048576]⟩
abbrev S1x1048576 : Shape := ⟨2, ![1, 1048576]⟩
abbrev S3x1048576 : Shape := ⟨2, ![3, 1048576]⟩
abbrev S16x2 : Shape := ⟨2, ![16, 2]⟩
abbrev S16x3 : Shape := ⟨2, ![16, 3]⟩
abbrev S2x16x48 : Shape := ⟨3, ![2, 16, 48]⟩
abbrev S2x16x32 : Shape := ⟨3, ![2, 16, 32]⟩
abbrev S1x16 : Shape := ⟨2, ![1, 16]⟩
abbrev S2x16x1 : Shape := ⟨3, ![2, 16, 1]⟩
abbrev S1x1 : Shape := ⟨2, ![1, 1]⟩
abbrev S2x8192 : Shape := ⟨2, ![2, 8192]⟩
abbrev S3x8192 : Shape := ⟨2, ![3, 8192]⟩
abbrev S1x8192 : Shape := ⟨2, ![1, 8192]⟩
abbrev S2x16384 : Shape := ⟨2, ![2, 16384]⟩
abbrev S16x16384 : Shape := ⟨2, ![16, 16384]⟩
abbrev S16x8192 : Shape := ⟨2, ![16, 8192]⟩
abbrev S1x16x48 : Shape := ⟨3, ![1, 16, 48]⟩
abbrev S16x48 : Shape := ⟨2, ![16, 48]⟩
abbrev S1x16x1 : Shape := ⟨3, ![1, 16, 1]⟩
abbrev S1x16x16 : Shape := ⟨3, ![1, 16, 16]⟩
abbrev S48x8192 : Shape := ⟨2, ![48, 8192]⟩
abbrev S48x16384 : Shape := ⟨2, ![48, 16384]⟩
abbrev S1x16x32 : Shape := ⟨3, ![1, 16, 32]⟩
abbrev S16x32 : Shape := ⟨2, ![16, 32]⟩
abbrev S32x8192 : Shape := ⟨2, ![32, 8192]⟩
abbrev S32x16384 : Shape := ⟨2, ![32, 16384]⟩

abbrev nBuf : Space → Nat
  | .hbm => 56
  | .vmem => 28
  | .smem => 0
  | _ => 0

abbrev bufTy : (tb : Table) → Fin (tcTables nBuf tb) → BufTy
  | .hbm, ⟨0, _⟩ => ⟨S1048576x2x2, .f32⟩
  | .hbm, ⟨1, _⟩ => ⟨S1048576, .f32⟩
  | .hbm, ⟨2, _⟩ => ⟨S1048576, .f32⟩
  | .hbm, ⟨3, _⟩ => ⟨S1048576, .f32⟩
  | .hbm, ⟨4, _⟩ => ⟨S2x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S3x16, .f32⟩
  | .hbm, ⟨9, _⟩ => ⟨S16, .f32⟩
  | .hbm, ⟨10, _⟩ => ⟨S16x16, .f32⟩
  | .hbm, ⟨11, _⟩ => ⟨S16, .f32⟩
  | .hbm, ⟨12, _⟩ => ⟨S2x48x16, .f32⟩
  | .hbm, ⟨13, _⟩ => ⟨S2x16, .f32⟩
  | .hbm, ⟨14, _⟩ => ⟨S2x16x16, .f32⟩
  | .hbm, ⟨15, _⟩ => ⟨S2x16, .f32⟩
  | .hbm, ⟨16, _⟩ => ⟨S2x32x16, .f32⟩
  | .hbm, ⟨17, _⟩ => ⟨S2x16, .f32⟩
  | .hbm, ⟨18, _⟩ => ⟨S2x16x16, .f32⟩
  | .hbm, ⟨19, _⟩ => ⟨S2x16, .f32⟩
  | .hbm, ⟨20, _⟩ => ⟨S16x16, .f32⟩
  | .hbm, ⟨21, _⟩ => ⟨S16, .f32⟩
  | .hbm, ⟨22, _⟩ => ⟨S16x1, .f32⟩
  | .hbm, ⟨23, _⟩ => ⟨S1, .f32⟩
  | .hbm, ⟨24, _⟩ => ⟨S1048576x1x2, .f32⟩
  | .hbm, ⟨25, _⟩ => ⟨S1048576x2, .f32⟩
  | .hbm, ⟨26, _⟩ => ⟨S2x1048576, .f32⟩
  | .hbm, ⟨27, _⟩ => ⟨S1048576x1x2, .f32⟩
  | .hbm, ⟨28, _⟩ => ⟨S1048576x2, .f32⟩
  | .hbm, ⟨29, _⟩ => ⟨S2x1048576, .f32⟩
  | .hbm, ⟨30, _⟩ => ⟨S1x1048576, .f32⟩
  | .hbm, ⟨31, _⟩ => ⟨S1x1048576, .f32⟩
  | .hbm, ⟨32, _⟩ => ⟨S1x1048576, .f32⟩
  | .hbm, ⟨33, _⟩ => ⟨S3x1048576, .f32⟩
  | .hbm, ⟨34, _⟩ => ⟨S16x2, .f32⟩
  | .hbm, ⟨35, _⟩ => ⟨S16x16, .f32⟩
  | .hbm, ⟨36, _⟩ => ⟨S16x3, .f32⟩
  | .hbm, ⟨37, _⟩ => ⟨S16x16, .f32⟩
  | .hbm, ⟨38, _⟩ => ⟨S2x16x48, .f32⟩
  | .hbm, ⟨39, _⟩ => ⟨S2x16x16, .f32⟩
  | .hbm, ⟨40, _⟩ => ⟨S2x16x32, .f32⟩
  | .hbm, ⟨41, _⟩ => ⟨S2x16x16, .f32⟩
  | .hbm, ⟨42, _⟩ => ⟨S16x16, .f32⟩
  | .hbm, ⟨43, _⟩ => ⟨S1x16, .f32⟩
  | .hbm, ⟨44, _⟩ => ⟨S16x1, .f32⟩
  | .hbm, ⟨45, _⟩ => ⟨S16x1, .f32⟩
  | .hbm, ⟨46, _⟩ => ⟨S16x1, .f32⟩
  | .hbm, ⟨47, _⟩ => ⟨S16x1, .f32⟩
  | .hbm, ⟨48, _⟩ => ⟨S2x16x1, .f32⟩
  | .hbm, ⟨49, _⟩ => ⟨S2x16x1, .f32⟩
  | .hbm, ⟨50, _⟩ => ⟨S2x16x1, .f32⟩
  | .hbm, ⟨51, _⟩ => ⟨S2x16x1, .f32⟩
  | .hbm, ⟨52, _⟩ => ⟨S16x1, .f32⟩
  | .hbm, ⟨53, _⟩ => ⟨S1x1, .f32⟩
  | .hbm, ⟨54, _⟩ => ⟨S1x1048576, .f32⟩
  | .hbm, ⟨55, _⟩ => ⟨S1048576, .f32⟩
  | .local _ .vmem, ⟨0, _⟩ => ⟨S2x8192, .f32⟩
  | .local _ .vmem, ⟨1, _⟩ => ⟨S2x8192, .f32⟩
  | .local _ .vmem, ⟨2, _⟩ => ⟨S2x8192, .f32⟩
  | .local _ .vmem, ⟨3, _⟩ => ⟨S2x8192, .f32⟩
  | .local _ .vmem, ⟨4, _⟩ => ⟨S3x8192, .f32⟩
  | .local _ .vmem, ⟨5, _⟩ => ⟨S3x8192, .f32⟩
  | .local _ .vmem, ⟨6, _⟩ => ⟨S16x2, .f32⟩
  | .local _ .vmem, ⟨7, _⟩ => ⟨S16x1, .f32⟩
  | .local _ .vmem, ⟨8, _⟩ => ⟨S16x16, .f32⟩
  | .local _ .vmem, ⟨9, _⟩ => ⟨S16x1, .f32⟩
  | .local _ .vmem, ⟨10, _⟩ => ⟨S16x3, .f32⟩
  | .local _ .vmem, ⟨11, _⟩ => ⟨S16x1, .f32⟩
  | .local _ .vmem, ⟨12, _⟩ => ⟨S16x16, .f32⟩
  | .local _ .vmem, ⟨13, _⟩ => ⟨S16x1, .f32⟩
  | .local _ .vmem, ⟨14, _⟩ => ⟨S2x16x48, .f32⟩
  | .local _ .vmem, ⟨15, _⟩ => ⟨S2x16x1, .f32⟩
  | .local _ .vmem, ⟨16, _⟩ => ⟨S2x16x16, .f32⟩
  | .local _ .vmem, ⟨17, _⟩ => ⟨S2x16x1, .f32⟩
  | .local _ .vmem, ⟨18, _⟩ => ⟨S2x16x32, .f32⟩
  | .local _ .vmem, ⟨19, _⟩ => ⟨S2x16x1, .f32⟩
  | .local _ .vmem, ⟨20, _⟩ => ⟨S2x16x16, .f32⟩
  | .local _ .vmem, ⟨21, _⟩ => ⟨S2x16x1, .f32⟩
  | .local _ .vmem, ⟨22, _⟩ => ⟨S16x16, .f32⟩
  | .local _ .vmem, ⟨23, _⟩ => ⟨S16x1, .f32⟩
  | .local _ .vmem, ⟨24, _⟩ => ⟨S1x16, .f32⟩
  | .local _ .vmem, ⟨25, _⟩ => ⟨S1x1, .f32⟩
  | .local _ .vmem, ⟨26, _⟩ => ⟨S1x8192, .f32⟩
  | .local _ .vmem, ⟨27, _⟩ => ⟨S1x8192, .f32⟩
  | _, _ => ⟨S1048576x2x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg23_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem23_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x16x48 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x16x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x16x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x16x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x16x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x16x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x16x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S16x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x8192 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  slices_S1048576x2x2_S1048576x1x2_0_0_0 : S1048576x2x2.Slices ![0, 0, 0] S1048576x1x2
  shapeCasts_S1048576x1x2_S1048576x2 : S1048576x1x2.ShapeCasts S1048576x2
  transposes_S1048576x2_S2x1048576_1_0 : S1048576x2.Transposes [1, 0] S2x1048576
  slices_S1048576x2x2_S1048576x1x2_0_1_0 : S1048576x2x2.Slices ![0, 1, 0] S1048576x1x2
  bcast_S1048576_S1x1048576_1 : S1048576.BroadcastsInDim S1x1048576 (![1] : Fin 1 → Fin S1x1048576.rank)
  concatenates_S1x1048576_S1x1048576_S1x1048576_S3x1048576_d0 : Shape.Concatenates [S1x1048576, S1x1048576, S1x1048576] S3x1048576 0
  transposes_S2x16_S16x2_1_0 : S2x16.Transposes [1, 0] S16x2
  transposes_S16x16_S16x16_1_0 : S16x16.Transposes [1, 0] S16x16
  transposes_S3x16_S16x3_1_0 : S3x16.Transposes [1, 0] S16x3
  transposes_S2x48x16_S2x16x48_0_2_1 : S2x48x16.Transposes [0, 2, 1] S2x16x48
  transposes_S2x16x16_S2x16x16_0_2_1 : S2x16x16.Transposes [0, 2, 1] S2x16x16
  transposes_S2x32x16_S2x16x32_0_2_1 : S2x32x16.Transposes [0, 2, 1] S2x16x32
  transposes_S16x1_S1x16_1_0 : S16x1.Transposes [1, 0] S1x16
  shapeCasts_S16_S16x1 : S16.ShapeCasts S16x1
  shapeCasts_S2x16_S2x16x1 : S2x16.ShapeCasts S2x16x1
  shapeCasts_S1_S1x1 : S1.ShapeCasts S1x1
  inb_S2x8192_S2x8192_0_0 : ∀ a, (![0, 0] : Fin 2 → Nat) a + S2x8192.size a ≤ S2x8192.size a
  h_S2x8192 : 0 < S2x8192.numel
  shapeCasts_S2x8192_S2x8192 : S2x8192.ShapeCasts S2x8192
  concatenates_S2x8192_S2x8192_S2x16384_d1 : Shape.Concatenates [S2x8192, S2x8192] S2x16384 1
  inb_S16x2_S16x2_0_0 : ∀ a, (![0, 0] : Fin 2 → Nat) a + S16x2.size a ≤ S16x2.size a
  h_S16x2 : 0 < S16x2.numel
  shapeCasts_S16x2_S16x2 : S16x2.ShapeCasts S16x2
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x16_S16x16_0_0 : ∀ a, (![0, 0] : Fin 2 → Nat) a + S16x16.size a ≤ S16x16.size a
  h_S16x16 : 0 < S16x16.numel
  shapeCasts_S16x16_S16x16 : S16x16.ShapeCasts S16x16
  broadcasts_S16x1_S16x16384 : S16x1.Broadcasts S16x16384
  slices_S16x16384_o0_0_S16x8192 : S16x16384.Slices ![0, 0] S16x8192
  slices_S16x16384_o0_8192_S16x8192 : S16x16384.Slices ![0, 8192] S16x8192
  inb_S3x8192_S3x8192_0_0 : ∀ a, (![0, 0] : Fin 2 → Nat) a + S3x8192.size a ≤ S3x8192.size a
  h_S3x8192 : 0 < S3x8192.numel
  shapeCasts_S3x8192_S3x8192 : S3x8192.ShapeCasts S3x8192
  inb_S16x3_S16x3_0_0 : ∀ a, (![0, 0] : Fin 2 → Nat) a + S16x3.size a ≤ S16x3.size a
  h_S16x3 : 0 < S16x3.numel
  shapeCasts_S16x3_S16x3 : S16x3.ShapeCasts S16x3
  broadcasts_S16x1_S16x8192 : S16x1.Broadcasts S16x8192
  inb_S2x16x48_S1x16x48_0_0_0 : ∀ a, (![0, 0, 0] : Fin 3 → Nat) a + S1x16x48.size a ≤ S2x16x48.size a
  h_S1x16x48 : 0 < S1x16x48.numel
  shapeCasts_S1x16x48_S16x48 : S1x16x48.ShapeCasts S16x48
  inb_S2x16x1_S1x16x1_0_0_0 : ∀ a, (![0, 0, 0] : Fin 3 → Nat) a + S1x16x1.size a ≤ S2x16x1.size a
  h_S1x16x1 : 0 < S1x16x1.numel
  shapeCasts_S1x16x1_S16x1 : S1x16x1.ShapeCasts S16x1
  inb_S2x16x16_S1x16x16_0_0_0 : ∀ a, (![0, 0, 0] : Fin 3 → Nat) a + S1x16x16.size a ≤ S2x16x16.size a
  h_S1x16x16 : 0 < S1x16x16.numel
  shapeCasts_S1x16x16_S16x16 : S1x16x16.ShapeCasts S16x16
  concatenates_S16x8192_S16x8192_S16x8192_S48x8192_d0 : Shape.Concatenates [S16x8192, S16x8192, S16x8192] S48x8192 0
  concatenates_S48x8192_S48x8192_S48x16384_d1 : Shape.Concatenates [S48x8192, S48x8192] S48x16384 1
  inb_S2x16x32_S1x16x32_0_0_0 : ∀ a, (![0, 0, 0] : Fin 3 → Nat) a + S1x16x32.size a ≤ S2x16x32.size a
  h_S1x16x32 : 0 < S1x16x32.numel
  shapeCasts_S1x16x32_S16x32 : S1x16x32.ShapeCasts S16x32
  concatenates_S16x8192_S16x8192_S32x8192_d0 : Shape.Concatenates [S16x8192, S16x8192] S32x8192 0
  concatenates_S32x8192_S32x8192_S32x16384_d1 : Shape.Concatenates [S32x8192, S32x8192] S32x16384 1
  inb_S2x16x48_S1x16x48_1_0_0 : ∀ a, (![1, 0, 0] : Fin 3 → Nat) a + S1x16x48.size a ≤ S2x16x48.size a
  inb_S2x16x1_S1x16x1_1_0_0 : ∀ a, (![1, 0, 0] : Fin 3 → Nat) a + S1x16x1.size a ≤ S2x16x1.size a
  inb_S2x16x16_S1x16x16_1_0_0 : ∀ a, (![1, 0, 0] : Fin 3 → Nat) a + S1x16x16.size a ≤ S2x16x16.size a
  inb_S2x16x32_S1x16x32_1_0_0 : ∀ a, (![1, 0, 0] : Fin 3 → Nat) a + S1x16x32.size a ≤ S2x16x32.size a
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  inb_S1x8192_S1x8192_0_0 : ∀ a, (![0, 0] : Fin 2 → Nat) a + S1x8192.size a ≤ S1x8192.size a
  h_S1x8192 : 0 < S1x8192.numel
  shapeCasts_S1x1048576_S1048576 : S1x1048576.ShapeCasts S1048576
  dot_S16x2_S2x16384_S16x16384_1_0_0_1_n_n_wf : DotDims.WF S16x2 S2x16384 S16x16384 [1] [0] [0] [1] [] []
  dot_S16x16_S16x16384_S16x16384_1_0_0_1_n_n_wf : DotDims.WF S16x16 S16x16384 S16x16384 [1] [0] [0] [1] [] []
  dot_S16x3_S3x8192_S16x8192_1_0_0_1_n_n_wf : DotDims.WF S16x3 S3x8192 S16x8192 [1] [0] [0] [1] [] []
  dot_S16x16_S16x8192_S16x8192_1_0_0_1_n_n_wf : DotDims.WF S16x16 S16x8192 S16x8192 [1] [0] [0] [1] [] []
  dot_S16x48_S48x16384_S16x16384_1_0_0_1_n_n_wf : DotDims.WF S16x48 S48x16384 S16x16384 [1] [0] [0] [1] [] []
  dot_S16x32_S32x16384_S16x16384_1_0_0_1_n_n_wf : DotDims.WF S16x32 S32x16384 S16x16384 [1] [0] [0] [1] [] []
  dot_S1x16_S16x8192_S1x8192_1_0_0_1_n_n_wf : DotDims.WF S1x16 S16x8192 S1x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8192.size a ≤ S2x1048576.size a
  hwx0_0 : ∀ i : grid0.Coords, EltTy.bits .f32 = 32 ∨ (Rect.block (s := S2x1048576) S2x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x8192.size a ≤ S2x1048576.size a
  hwx0_1 : ∀ i : grid0.Coords, EltTy.bits .f32 = 32 ∨ (Rect.block (s := S2x1048576) S2x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x8192.size a ≤ S3x1048576.size a
  hwx0_2 : ∀ i : grid0.Coords, EltTy.bits .f32 = 32 ∨ (Rect.block (s := S3x1048576) S3x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x2.size a ≤ S16x2.size a
  hwx0_3 : ∀ i : grid0.Coords, EltTy.bits .f32 = 32 ∨ (Rect.block (s := S16x2) S16x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x3.size a ≤ S16x3.size a
  hwx0_7 : ∀ i : grid0.Coords, EltTy.bits .f32 = 32 ∨ (Rect.block (s := S16x3) S16x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x1.size a ≤ S16x1.size a
  hwx0_8 : ∀ i : grid0.Coords, EltTy.bits .f32 = 32 ∨ (Rect.block (s := S16x1) S16x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x16.size a ≤ S16x16.size a
  hwx0_9 : ∀ i : grid0.Coords, EltTy.bits .f32 = 32 ∨ (Rect.block (s := S16x16) S16x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x1.size a ≤ S16x1.size a
  hwx0_10 : ∀ i : grid0.Coords, EltTy.bits .f32 = 32 ∨ (Rect.block (s := S16x1) S16x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x16x48.size a ≤ S2x16x48.size a
  hwx0_11 : ∀ i : grid0.Coords, EltTy.bits .f32 = 32 ∨ (Rect.block (s := S2x16x48) S2x16x48.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2x16x1.size a ≤ S2x16x1.size a
  hwx0_12 : ∀ i : grid0.Coords, EltTy.bits .f32 = 32 ∨ (Rect.block (s := S2x16x1) S2x16x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2x16x16.size a ≤ S2x16x16.size a
  hwx0_13 : ∀ i : grid0.Coords, EltTy.bits .f32 = 32 ∨ (Rect.block (s := S2x16x16) S2x16x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2x16x1.size a ≤ S2x16x1.size a
  hwx0_14 : ∀ i : grid0.Coords, EltTy.bits .f32 = 32 ∨ (Rect.block (s := S2x16x1) S2x16x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2x16x32.size a ≤ S2x16x32.size a
  hwx0_15 : ∀ i : grid0.Coords, EltTy.bits .f32 = 32 ∨ (Rect.block (s := S2x16x32) S2x16x32.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2x16x1.size a ≤ S2x16x1.size a
  hwx0_16 : ∀ i : grid0.Coords, EltTy.bits .f32 = 32 ∨ (Rect.block (s := S2x16x1) S2x16x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S2x16x16.size a ≤ S2x16x16.size a
  hwx0_17 : ∀ i : grid0.Coords, EltTy.bits .f32 = 32 ∨ (Rect.block (s := S2x16x16) S2x16x16.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S2x16x1.size a ≤ S2x16x1.size a
  hwx0_18 : ∀ i : grid0.Coords, EltTy.bits .f32 = 32 ∨ (Rect.block (s := S2x16x1) S2x16x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S16x16.size a ≤ S16x16.size a
  hwx0_19 : ∀ i : grid0.Coords, EltTy.bits .f32 = 32 ∨ (Rect.block (s := S16x16) S16x16.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S16x1.size a ≤ S16x1.size a
  hwx0_20 : ∀ i : grid0.Coords, EltTy.bits .f32 = 32 ∨ (Rect.block (s := S16x1) S16x1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x16.size a ≤ S1x16.size a
  hwx0_21 : ∀ i : grid0.Coords, EltTy.bits .f32 = 32 ∨ (Rect.block (s := S1x16) S1x16.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1x8192.size a ≤ S1x1048576.size a
  hwx0_23 : ∀ i : grid0.Coords, EltTy.bits .f32 = 32 ∨ (Rect.block (s := S1x1048576) S1x8192.size (cc0_transform_23 i) (hinb0_23 i)).WholeWords (EltTy.packing .f32)

variable [Facts₀]

def dot_S16x2_S2x16384_S16x16384_1_0_0_1_n_n : DotDims S16x2 S2x16384 S16x16384 where
  lhsContracting := [1]
  rhsContracting := [0]
  lhsNonContracting := [0]
  rhsNonContracting := [1]
  lhsBatch := []
  rhsBatch := []
  wf := dot_S16x2_S2x16384_S16x16384_1_0_0_1_n_n_wf
def dot_S16x16_S16x16384_S16x16384_1_0_0_1_n_n : DotDims S16x16 S16x16384 S16x16384 where
  lhsContracting := [1]
  rhsContracting := [0]
  lhsNonContracting := [0]
  rhsNonContracting := [1]
  lhsBatch := []
  rhsBatch := []
  wf := dot_S16x16_S16x16384_S16x16384_1_0_0_1_n_n_wf
def dot_S16x3_S3x8192_S16x8192_1_0_0_1_n_n : DotDims S16x3 S3x8192 S16x8192 where
  lhsContracting := [1]
  rhsContracting := [0]
  lhsNonContracting := [0]
  rhsNonContracting := [1]
  lhsBatch := []
  rhsBatch := []
  wf := dot_S16x3_S3x8192_S16x8192_1_0_0_1_n_n_wf
def dot_S16x16_S16x8192_S16x8192_1_0_0_1_n_n : DotDims S16x16 S16x8192 S16x8192 where
  lhsContracting := [1]
  rhsContracting := [0]
  lhsNonContracting := [0]
  rhsNonContracting := [1]
  lhsBatch := []
  rhsBatch := []
  wf := dot_S16x16_S16x8192_S16x8192_1_0_0_1_n_n_wf
def dot_S16x48_S48x16384_S16x16384_1_0_0_1_n_n : DotDims S16x48 S48x16384 S16x16384 where
  lhsContracting := [1]
  rhsContracting := [0]
  lhsNonContracting := [0]
  rhsNonContracting := [1]
  lhsBatch := []
  rhsBatch := []
  wf := dot_S16x48_S48x16384_S16x16384_1_0_0_1_n_n_wf
def dot_S16x32_S32x16384_S16x16384_1_0_0_1_n_n : DotDims S16x32 S32x16384 S16x16384 where
  lhsContracting := [1]
  rhsContracting := [0]
  lhsNonContracting := [0]
  rhsNonContracting := [1]
  lhsBatch := []
  rhsBatch := []
  wf := dot_S16x32_S32x16384_S16x16384_1_0_0_1_n_n_wf
def dot_S1x16_S16x8192_S1x8192_1_0_0_1_n_n : DotDims S1x16 S16x8192 S1x8192 where
  lhsContracting := [1]
  rhsContracting := [0]
  lhsNonContracting := [0]
  rhsNonContracting := [1]
  lhsBatch := []
  rhsBatch := []
  wf := dot_S1x16_S16x8192_S1x8192_1_0_0_1_n_n_wf

abbrev win0_0 : Pipeline.Window sig grid0 :=
  Pipeline.Window.ofSpec (Memref.whole main_v2) S2x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S3x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S16x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S16x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S16x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S16x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S16x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S2x16x48.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24) S2x16x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S2x16x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S2x16x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S2x16x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v26) S2x16x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S2x16x16.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v27) S2x16x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v18) S16x16.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v28) S16x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v19) S1x16.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v29) S1x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v30) S1x8192.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S1048576x2x2 : Shape := ⟨3, ![1048576, 2, 2]⟩
abbrev S1048576 : Shape := ⟨1, ![1048576]⟩
abbrev S2x16 : Shape := ⟨2, ![2, 16]⟩
abbrev S16 : Shape := ⟨1, ![16]⟩
abbrev S16x16 : Shape := ⟨2, ![16, 16]⟩
abbrev S3x16 : Shape := ⟨2, ![3, 16]⟩
abbrev S2x48x16 : Shape := ⟨3, ![2, 48, 16]⟩
abbrev S2x16x16 : Shape := ⟨3, ![2, 16, 16]⟩
abbrev S2x32x16 : Shape := ⟨3, ![2, 32, 16]⟩
abbrev S16x1 : Shape := ⟨2, ![16, 1]⟩
abbrev S1 : Shape := ⟨1, ![1]⟩
abbrev S2097152x2 : Shape := ⟨2, ![2097152, 2]⟩
abbrev S2097152x16 : Shape := ⟨2, ![2097152, 16]⟩
abbrev S1x16 : Shape := ⟨2, ![1, 16]⟩
abbrev S_ : Shape := ⟨0, ![]⟩
abbrev S1048576x2x16 : Shape := ⟨3, ![1048576, 2, 16]⟩
abbrev S1048576x1 : Shape := ⟨2, ![1048576, 1]⟩
abbrev S1048576x3 : Shape := ⟨2, ![1048576, 3]⟩
abbrev S1048576x16 : Shape := ⟨2, ![1048576, 16]⟩
abbrev S1048576x1x16 : Shape := ⟨3, ![1048576, 1, 16]⟩
abbrev S1048576x48 : Shape := ⟨2, ![1048576, 48]⟩
abbrev S1x48x16 : Shape := ⟨3, ![1, 48, 16]⟩
abbrev S48x16 : Shape := ⟨2, ![48, 16]⟩
abbrev S1x16x16 : Shape := ⟨3, ![1, 16, 16]⟩
abbrev S1048576x32 : Shape := ⟨2, ![1048576, 32]⟩
abbrev S1x32x16 : Shape := ⟨3, ![1, 32, 16]⟩
abbrev S32x16 : Shape := ⟨2, ![32, 16]⟩
abbrev S1x1 : Shape := ⟨2, ![1, 1]⟩

abbrev nBuf : Space → Nat
  | .hbm => 245
  | .vmem => 0
  | .smem => 0
  | _ => 0

abbrev hbmTy0_0 (i : Nat) : BufTy := match i % 128 with
  | 0 => ⟨S1048576x2x2, .f32⟩
  | 1 => ⟨S1048576, .f32⟩
  | 2 => ⟨S1048576, .f32⟩
  | 3 => ⟨S1048576, .f32⟩
  | 4 => ⟨S2x16, .f32⟩
  | 5 => ⟨S16, .f32⟩
  | 6 => ⟨S16x16, .f32⟩
  | 7 => ⟨S16, .f32⟩
  | 8 => ⟨S3x16, .f32⟩
  | 9 => ⟨S16, .f32⟩
  | 10 => ⟨S16x16, .f32⟩
  | 11 => ⟨S16, .f32⟩
  | 12 => ⟨S2x48x16, .f32⟩
  | 13 => ⟨S2x16, .f32⟩
  | 14 => ⟨S2x16x16, .f32⟩
  | 15 => ⟨S2x16, .f32⟩
  | 16 => ⟨S2x32x16, .f32⟩
  | 17 => ⟨S2x16, .f32⟩
  | 18 => ⟨S2x16x16, .f32⟩
  | 19 => ⟨S2x16, .f32⟩
  | 20 => ⟨S16x16, .f32⟩
  | 21 => ⟨S16, .f32⟩
  | 22 => ⟨S16x1, .f32⟩
  | 23 => ⟨S1, .f32⟩
  | 24 => ⟨S2097152x2, .f32⟩
  | 25 => ⟨S2097152x16, .f32⟩
  | 26 => ⟨S1x16, .f32⟩
  | 27 => ⟨S2097152x16, .f32⟩
  | 28 => ⟨S2097152x16, .f32⟩
  | 29 => ⟨S_, .f32⟩
  | 30 => ⟨S2097152x16, .f32⟩
  | 31 => ⟨S2097152x16, .f32⟩
  | 32 => ⟨S2097152x16, .f32⟩
  | 33 => ⟨S1x16, .f32⟩
  | 34 => ⟨S2097152x16, .f32⟩
  | 35 => ⟨S2097152x16, .f32⟩
  | 36 => ⟨S1048576x2x16, .f32⟩
  | 37 => ⟨S1048576x1, .f32⟩
  | 38 => ⟨S1048576x1, .f32⟩
  | 39 => ⟨S1048576x1, .f32⟩
  | 40 => ⟨S1048576x3, .f32⟩
  | 41 => ⟨S1048576x16, .f32⟩
  | 42 => ⟨S1x16, .f32⟩
  | 43 => ⟨S1048576x16, .f32⟩
  | 44 => ⟨S1048576x16, .f32⟩
  | 45 => ⟨S_, .f32⟩
  | 46 => ⟨S1048576x16, .f32⟩
  | 47 => ⟨S1048576x16, .f32⟩
  | 48 => ⟨S1048576x16, .f32⟩
  | 49 => ⟨S1x16, .f32⟩
  | 50 => ⟨S1048576x16, .f32⟩
  | 51 => ⟨S1048576x16, .f32⟩
  | 52 => ⟨S1048576x1x16, .f32⟩
  | 53 => ⟨S1048576x16, .f32⟩
  | 54 => ⟨S1048576x1x16, .f32⟩
  | 55 => ⟨S1048576x16, .f32⟩
  | 56 => ⟨S1048576x48, .f32⟩
  | 57 => ⟨S1x48x16, .f32⟩
  | 58 => ⟨S48x16, .f32⟩
  | 59 => ⟨S1x16, .f32⟩
  | 60 => ⟨S16, .f32⟩
  | 61 => ⟨S1x16x16, .f32⟩
  | 62 => ⟨S16x16, .f32⟩
  | 63 => ⟨S1x16, .f32⟩
  | 64 => ⟨S16, .f32⟩
  | 65 => ⟨S1048576x16, .f32⟩
  | 66 => ⟨S1x16, .f32⟩
  | 67 => ⟨S1048576x16, .f32⟩
  | 68 => ⟨S1048576x16, .f32⟩
  | 69 => ⟨S_, .f32⟩
  | 70 => ⟨S1048576x16, .f32⟩
  | 71 => ⟨S1048576x16, .f32⟩
  | 72 => ⟨S1048576x16, .f32⟩
  | 73 => ⟨S1x16, .f32⟩
  | 74 => ⟨S1048576x16, .f32⟩
  | 75 => ⟨S1048576x16, .f32⟩
  | 76 => ⟨S1048576x48, .f32⟩
  | 77 => ⟨S1x48x16, .f32⟩
  | 78 => ⟨S48x16, .f32⟩
  | 79 => ⟨S1x16, .f32⟩
  | 80 => ⟨S16, .f32⟩
  | 81 => ⟨S1x16x16, .f32⟩
  | 82 => ⟨S16x16, .f32⟩
  | 83 => ⟨S1x16, .f32⟩
  | 84 => ⟨S16, .f32⟩
  | 85 => ⟨S1048576x16, .f32⟩
  | 86 => ⟨S1x16, .f32⟩
  | 87 => ⟨S1048576x16, .f32⟩
  | 88 => ⟨S1048576x16, .f32⟩
  | 89 => ⟨S_, .f32⟩
  | 90 => ⟨S1048576x16, .f32⟩
  | 91 => ⟨S1048576x16, .f32⟩
  | 92 => ⟨S1048576x16, .f32⟩
  | 93 => ⟨S1x16, .f32⟩
  | 94 => ⟨S1048576x16, .f32⟩
  | 95 => ⟨S1048576x16, .f32⟩
  | 96 => ⟨S1048576x32, .f32⟩
  | 97 => ⟨S1x32x16, .f32⟩
  | 98 => ⟨S32x16, .f32⟩
  | 99 => ⟨S1x16, .f32⟩
  | 100 => ⟨S16, .f32⟩
  | 101 => ⟨S1x16x16, .f32⟩
  | 102 => ⟨S16x16, .f32⟩
  | 103 => ⟨S1x16, .f32⟩
  | 104 => ⟨S16, .f32⟩
  | 105 => ⟨S1048576x16, .f32⟩
  | 106 => ⟨S1x16, .f32⟩
  | 107 => ⟨S1048576x16, .f32⟩
  | 108 => ⟨S1048576x16, .f32⟩
  | 109 => ⟨S_, .f32⟩
  | 110 => ⟨S1048576x16, .f32⟩
  | 111 => ⟨S1048576x16, .f32⟩
  | 112 => ⟨S1048576x16, .f32⟩
  | 113 => ⟨S1x16, .f32⟩
  | 114 => ⟨S1048576x16, .f32⟩
  | 115 => ⟨S1048576x16, .f32⟩
  | 116 => ⟨S1048576x32, .f32⟩
  | 117 => ⟨S1x32x16, .f32⟩
  | 118 => ⟨S32x16, .f32⟩
  | 119 => ⟨S1x16, .f32⟩
  | 120 => ⟨S16, .f32⟩
  | 121 => ⟨S1x16x16, .f32⟩
  | 122 => ⟨S16x16, .f32⟩
  | 123 => ⟨S1x16, .f32⟩
  | 124 => ⟨S16, .f32⟩
  | 125 => ⟨S1048576x16, .f32⟩
  | 126 => ⟨S1x16, .f32⟩
  | 127 => ⟨S1048576x16, .f32⟩
  | _ => ⟨S1048576x2x2, .f32⟩

abbrev hbmTy0_1 (i : Nat) : BufTy := match i % 128 with
  | 0 => ⟨S1048576x16, .f32⟩
  | 1 => ⟨S_, .f32⟩
  | 2 => ⟨S1048576x16, .f32⟩
  | 3 => ⟨S1048576x16, .f32⟩
  | 4 => ⟨S1048576x16, .f32⟩
  | 5 => ⟨S1x16, .f32⟩
  | 6 => ⟨S1048576x16, .f32⟩
  | 7 => ⟨S1048576x16, .f32⟩
  | 8 => ⟨S1048576x1x16, .f32⟩
  | 9 => ⟨S1048576x1x16, .f32⟩
  | 10 => ⟨S1048576x2x16, .f32⟩
  | 11 => ⟨S1048576x2x16, .f32⟩
  | 12 => ⟨S1048576x1x16, .f32⟩
  | 13 => ⟨S1048576x16, .f32⟩
  | 14 => ⟨S1048576x1x16, .f32⟩
  | 15 => ⟨S1048576x16, .f32⟩
  | 16 => ⟨S1048576x48, .f32⟩
  | 17 => ⟨S1x48x16, .f32⟩
  | 18 => ⟨S48x16, .f32⟩
  | 19 => ⟨S1x16, .f32⟩
  | 20 => ⟨S16, .f32⟩
  | 21 => ⟨S1x16x16, .f32⟩
  | 22 => ⟨S16x16, .f32⟩
  | 23 => ⟨S1x16, .f32⟩
  | 24 => ⟨S16, .f32⟩
  | 25 => ⟨S1048576x16, .f32⟩
  | 26 => ⟨S1x16, .f32⟩
  | 27 => ⟨S1048576x16, .f32⟩
  | 28 => ⟨S1048576x16, .f32⟩
  | 29 => ⟨S_, .f32⟩
  | 30 => ⟨S1048576x16, .f32⟩
  | 31 => ⟨S1048576x16, .f32⟩
  | 32 => ⟨S1048576x16, .f32⟩
  | 33 => ⟨S1x16, .f32⟩
  | 34 => ⟨S1048576x16, .f32⟩
  | 35 => ⟨S1048576x16, .f32⟩
  | 36 => ⟨S1048576x48, .f32⟩
  | 37 => ⟨S1x48x16, .f32⟩
  | 38 => ⟨S48x16, .f32⟩
  | 39 => ⟨S1x16, .f32⟩
  | 40 => ⟨S16, .f32⟩
  | 41 => ⟨S1x16x16, .f32⟩
  | 42 => ⟨S16x16, .f32⟩
  | 43 => ⟨S1x16, .f32⟩
  | 44 => ⟨S16, .f32⟩
  | 45 => ⟨S1048576x16, .f32⟩
  | 46 => ⟨S1x16, .f32⟩
  | 47 => ⟨S1048576x16, .f32⟩
  | 48 => ⟨S1048576x16, .f32⟩
  | 49 => ⟨S_, .f32⟩
  | 50 => ⟨S1048576x16, .f32⟩
  | 51 => ⟨S1048576x16, .f32⟩
  | 52 => ⟨S1048576x16, .f32⟩
  | 53 => ⟨S1x16, .f32⟩
  | 54 => ⟨S1048576x16, .f32⟩
  | 55 => ⟨S1048576x16, .f32⟩
  | 56 => ⟨S1048576x32, .f32⟩
  | 57 => ⟨S1x32x16, .f32⟩
  | 58 => ⟨S32x16, .f32⟩
  | 59 => ⟨S1x16, .f32⟩
  | 60 => ⟨S16, .f32⟩
  | 61 => ⟨S1x16x16, .f32⟩
  | 62 => ⟨S16x16, .f32⟩
  | 63 => ⟨S1x16, .f32⟩
  | 64 => ⟨S16, .f32⟩
  | 65 => ⟨S1048576x16, .f32⟩
  | 66 => ⟨S1x16, .f32⟩
  | 67 => ⟨S1048576x16, .f32⟩
  | 68 => ⟨S1048576x16, .f32⟩
  | 69 => ⟨S_, .f32⟩
  | 70 => ⟨S1048576x16, .f32⟩
  | 71 => ⟨S1048576x16, .f32⟩
  | 72 => ⟨S1048576x16, .f32⟩
  | 73 => ⟨S1x16, .f32⟩
  | 74 => ⟨S1048576x16, .f32⟩
  | 75 => ⟨S1048576x16, .f32⟩
  | 76 => ⟨S1048576x32, .f32⟩
  | 77 => ⟨S1x32x16, .f32⟩
  | 78 => ⟨S32x16, .f32⟩
  | 79 => ⟨S1x16, .f32⟩
  | 80 => ⟨S16, .f32⟩
  | 81 => ⟨S1x16x16, .f32⟩
  | 82 => ⟨S16x16, .f32⟩
  | 83 => ⟨S1x16, .f32⟩
  | 84 => ⟨S16, .f32⟩
  | 85 => ⟨S1048576x16, .f32⟩
  | 86 => ⟨S1x16, .f32⟩
  | 87 => ⟨S1048576x16, .f32⟩
  | 88 => ⟨S1048576x16, .f32⟩
  | 89 => ⟨S_, .f32⟩
  | 90 => ⟨S1048576x16, .f32⟩
  | 91 => ⟨S1048576x16, .f32⟩
  | 92 => ⟨S1048576x16, .f32⟩
  | 93 => ⟨S1x16, .f32⟩
  | 94 => ⟨S1048576x16, .f32⟩
  | 95 => ⟨S1048576x16, .f32⟩
  | 96 => ⟨S1048576x1x16, .f32⟩
  | 97 => ⟨S1048576x1x16, .f32⟩
  | 98 => ⟨S1048576x2x16, .f32⟩
  | 99 => ⟨S1048576x2x16, .f32⟩
  | 100 => ⟨S_, .f32⟩
  | 101 => ⟨S1048576x16, .f32⟩
  | 102 => ⟨S_, .f32⟩
  | 103 => ⟨S1048576x16, .f32⟩
  | 104 => ⟨S1048576x16, .f32⟩
  | 105 => ⟨S1048576x16, .f32⟩
  | 106 => ⟨S1x16, .f32⟩
  | 107 => ⟨S1048576x16, .f32⟩
  | 108 => ⟨S1048576x16, .f32⟩
  | 109 => ⟨S_, .f32⟩
  | 110 => ⟨S1048576x16, .f32⟩
  | 111 => ⟨S1048576x16, .f32⟩
  | 112 => ⟨S1048576x1, .f32⟩
  | 113 => ⟨S1x1, .f32⟩
  | 114 => ⟨S1048576x1, .f32⟩
  | 115 => ⟨S1048576x1, .f32⟩
  | 116 => ⟨S1048576, .f32⟩
  | _ => ⟨S1048576x2x2, .f32⟩

abbrev hbmTy (i : Nat) : BufTy := match i / 128 with
  | 0 => hbmTy0_0 i
  | 1 => hbmTy0_1 i
  | _ => ⟨S1048576x2x2, .f32⟩

abbrev bufTy : (tb : Table) → Fin (tcTables nBuf tb) → BufTy
  | .hbm, ⟨i, _⟩ => hbmTy i
  | _, _ => ⟨S1048576x2x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_0 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_1 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_2 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_3 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_4 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_5 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_6 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_cst_7 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_cst_8 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_cst_9 : Ref sig .tc := ⟨.hbm, 228, rfl⟩
abbrev main_v194 : Ref sig .tc := ⟨.hbm, 229, rfl⟩
abbrev main_cst_10 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_cst_11 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩

abbrev nD : Nat := 1
abbrev τ : Topo := Topo.v7x

variable {F : FTy → Type} [FloatOps F]

class Facts₀ : Prop where
  shapeCasts_S1048576x2x2_S2097152x2 : S1048576x2x2.ShapeCasts S2097152x2
  bcast_S16_S1x16_1 : S16.BroadcastsInDim S1x16 (![1] : Fin 1 → Fin S1x16.rank)
  bcast_S1x16_S2097152x16_0_1 : S1x16.BroadcastsInDim S2097152x16 (![0, 1] : Fin 2 → Fin S2097152x16.rank)
  bcast_S_S2097152x16 : S_.BroadcastsInDim S2097152x16 (![] : Fin 0 → Fin S2097152x16.rank)
  shapeCasts_S2097152x16_S1048576x2x16 : S2097152x16.ShapeCasts S1048576x2x16
  bcast_S1048576_S1048576x1_0 : S1048576.BroadcastsInDim S1048576x1 (![0] : Fin 1 → Fin S1048576x1.rank)
  concatenates_S1048576x1_S1048576x1_S1048576x1_S1048576x3_d1 : Shape.Concatenates [S1048576x1, S1048576x1, S1048576x1] S1048576x3 1
  bcast_S1x16_S1048576x16_0_1 : S1x16.BroadcastsInDim S1048576x16 (![0, 1] : Fin 2 → Fin S1048576x16.rank)
  bcast_S_S1048576x16 : S_.BroadcastsInDim S1048576x16 (![] : Fin 0 → Fin S1048576x16.rank)
  slices_S1048576x2x16_S1048576x1x16_0_0_0 : S1048576x2x16.Slices ![0, 0, 0] S1048576x1x16
  shapeCasts_S1048576x1x16_S1048576x16 : S1048576x1x16.ShapeCasts S1048576x16
  slices_S1048576x2x16_S1048576x1x16_0_1_0 : S1048576x2x16.Slices ![0, 1, 0] S1048576x1x16
  concatenates_S1048576x16_S1048576x16_S1048576x16_S1048576x48_d1 : Shape.Concatenates [S1048576x16, S1048576x16, S1048576x16] S1048576x48 1
  slices_S2x48x16_S1x48x16_0_0_0 : S2x48x16.Slices ![0, 0, 0] S1x48x16
  shapeCasts_S1x48x16_S48x16 : S1x48x16.ShapeCasts S48x16
  slices_S2x16_S1x16_0_0 : S2x16.Slices ![0, 0] S1x16
  shapeCasts_S1x16_S16 : S1x16.ShapeCasts S16
  slices_S2x16x16_S1x16x16_0_0_0 : S2x16x16.Slices ![0, 0, 0] S1x16x16
  shapeCasts_S1x16x16_S16x16 : S1x16x16.ShapeCasts S16x16
  concatenates_S1048576x16_S1048576x16_S1048576x32_d1 : Shape.Concatenates [S1048576x16, S1048576x16] S1048576x32 1
  slices_S2x32x16_S1x32x16_0_0_0 : S2x32x16.Slices ![0, 0, 0] S1x32x16
  shapeCasts_S1x32x16_S32x16 : S1x32x16.ShapeCasts S32x16
  bcast_S1048576x16_S1048576x1x16_0_2 : S1048576x16.BroadcastsInDim S1048576x1x16 (![0, 2] : Fin 2 → Fin S1048576x1x16.rank)
  concatenates_S1048576x1x16_S1048576x1x16_S1048576x2x16_d1 : Shape.Concatenates [S1048576x1x16, S1048576x1x16] S1048576x2x16 1
  slices_S2x48x16_S1x48x16_1_0_0 : S2x48x16.Slices ![1, 0, 0] S1x48x16
  slices_S2x16_S1x16_1_0 : S2x16.Slices ![1, 0] S1x16
  slices_S2x16x16_S1x16x16_1_0_0 : S2x16x16.Slices ![1, 0, 0] S1x16x16
  slices_S2x32x16_S1x32x16_1_0_0 : S2x32x16.Slices ![1, 0, 0] S1x32x16
  reducesTo_S1048576x2x16_S1048576x16_d1 : S1048576x2x16.ReducesTo [1] S1048576x16
  h_S_ : 0 < S_.numel
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S1048576x1_S1048576 : S1048576x1.ShapeCasts S1048576
  dot_S2097152x2_S2x16_S2097152x16_1_0_0_1_n_n_wf : DotDims.WF S2097152x2 S2x16 S2097152x16 [1] [0] [0] [1] [] []
  dot_S2097152x16_S16x16_S2097152x16_1_0_0_1_n_n_wf : DotDims.WF S2097152x16 S16x16 S2097152x16 [1] [0] [0] [1] [] []
  dot_S1048576x3_S3x16_S1048576x16_1_0_0_1_n_n_wf : DotDims.WF S1048576x3 S3x16 S1048576x16 [1] [0] [0] [1] [] []
  dot_S1048576x16_S16x16_S1048576x16_1_0_0_1_n_n_wf : DotDims.WF S1048576x16 S16x16 S1048576x16 [1] [0] [0] [1] [] []
  dot_S1048576x48_S48x16_S1048576x16_1_0_0_1_n_n_wf : DotDims.WF S1048576x48 S48x16 S1048576x16 [1] [0] [0] [1] [] []
  dot_S1048576x32_S32x16_S1048576x16_1_0_0_1_n_n_wf : DotDims.WF S1048576x32 S32x16 S1048576x16 [1] [0] [0] [1] [] []
  dot_S1048576x16_S16x1_S1048576x1_1_0_0_1_n_n_wf : DotDims.WF S1048576x16 S16x1 S1048576x1 [1] [0] [0] [1] [] []

variable [Facts₀]

def dot_S2097152x2_S2x16_S2097152x16_1_0_0_1_n_n : DotDims S2097152x2 S2x16 S2097152x16 where
  lhsContracting := [1]
  rhsContracting := [0]
  lhsNonContracting := [0]
  rhsNonContracting := [1]
  lhsBatch := []
  rhsBatch := []
  wf := dot_S2097152x2_S2x16_S2097152x16_1_0_0_1_n_n_wf
def dot_S2097152x16_S16x16_S2097152x16_1_0_0_1_n_n : DotDims S2097152x16 S16x16 S2097152x16 where
  lhsContracting := [1]
  rhsContracting := [0]
  lhsNonContracting := [0]
  rhsNonContracting := [1]
  lhsBatch := []
  rhsBatch := []
  wf := dot_S2097152x16_S16x16_S2097152x16_1_0_0_1_n_n_wf
def dot_S1048576x3_S3x16_S1048576x16_1_0_0_1_n_n : DotDims S1048576x3 S3x16 S1048576x16 where
  lhsContracting := [1]
  rhsContracting := [0]
  lhsNonContracting := [0]
  rhsNonContracting := [1]
  lhsBatch := []
  rhsBatch := []
  wf := dot_S1048576x3_S3x16_S1048576x16_1_0_0_1_n_n_wf
def dot_S1048576x16_S16x16_S1048576x16_1_0_0_1_n_n : DotDims S1048576x16 S16x16 S1048576x16 where
  lhsContracting := [1]
  rhsContracting := [0]
  lhsNonContracting := [0]
  rhsNonContracting := [1]
  lhsBatch := []
  rhsBatch := []
  wf := dot_S1048576x16_S16x16_S1048576x16_1_0_0_1_n_n_wf
def dot_S1048576x48_S48x16_S1048576x16_1_0_0_1_n_n : DotDims S1048576x48 S48x16 S1048576x16 where
  lhsContracting := [1]
  rhsContracting := [0]
  lhsNonContracting := [0]
  rhsNonContracting := [1]
  lhsBatch := []
  rhsBatch := []
  wf := dot_S1048576x48_S48x16_S1048576x16_1_0_0_1_n_n_wf
def dot_S1048576x32_S32x16_S1048576x16_1_0_0_1_n_n : DotDims S1048576x32 S32x16 S1048576x16 where
  lhsContracting := [1]
  rhsContracting := [0]
  lhsNonContracting := [0]
  rhsNonContracting := [1]
  lhsBatch := []
  rhsBatch := []
  wf := dot_S1048576x32_S32x16_S1048576x16_1_0_0_1_n_n_wf
def dot_S1048576x16_S16x1_S1048576x1_1_0_0_1_n_n : DotDims S1048576x16 S16x1 S1048576x1 where
  lhsContracting := [1]
  rhsContracting := [0]
  lhsNonContracting := [0]
  rhsNonContracting := [1]
  lhsBatch := []
  rhsBatch := []
  wf := dot_S1048576x16_S16x1_S1048576x1_1_0_0_1_n_n_wf

class Facts : Prop extends Facts₀ where

variable [Facts]
-- ==== Proof.StoredK.lean ====
import proofs.«176915_j43782896615991_2_alg».proof.Proof.Gen.Kernel.Skeleton

/-!
# The value the kernel body stores, as one function of the values it loads

The body of the message-passing kernel loads its three streamed blocks (the two node-feature blocks and the edge-feature
block), the weight and bias blocks of its seven two-layer perceptrons (for the message and update perceptrons, layer
0 and layer 1 of the stacked arrays separately), computes, and stores ONE block: the row of logits of the graphs of the
current tile. `stored` is that row as a function of the loaded values: the composition of the body's named pure
pieces in the order the body computes them (node embeddings, edge embedding, two rounds of messages and updates, the
mean of the two nodes, the classifier).
-/

noncomputable section

namespace Cert.Kernel.Hand

open Idealize.ShloMosaic Idealize.SL.Sem Cert.Kernel Cert.Kernel.Gen

variable {F : FTy → Type} [FloatOps F]

/-- The stored row of logits from the 31 loaded values. `xa`, `xb`: the two nodes' feature blocks; `xe`: the edge
    feature block; `neW1 … neB2`, `eeW1 … eeB2`: the node and edge embedding perceptrons; `mW1_l … mB2_l`,
    `uW1_l … uB2_l`: layer `l` of the message and update perceptrons; `cW1 … cB2`: the classifier. -/
def stored (xa xb : Vec F S2x8192 .f32) (xe : Vec F S3x8192 .f32)
    (neW1 : Vec F S16x2 .f32) (neB1 : Vec F S16x1 .f32) (neW2 : Vec F S16x16 .f32) (neB2 : Vec F S16x1 .f32)
    (eeW1 : Vec F S16x3 .f32) (eeB1 : Vec F S16x1 .f32) (eeW2 : Vec F S16x16 .f32) (eeB2 : Vec F S16x1 .f32)
    (mW1_0 : Vec F S1x16x48 .f32) (mB1_0 : Vec F S1x16x1 .f32) (mW2_0 : Vec F S1x16x16 .f32) (mB2_0 : Vec F S1x16x1 .f32)
    (uW1_0 : Vec F S1x16x32 .f32) (uB1_0 : Vec F S1x16x1 .f32) (uW2_0 : Vec F S1x16x16 .f32) (uB2_0 : Vec F S1x16x1 .f32)
    (mW1_1 : Vec F S1x16x48 .f32) (mB1_1 : Vec F S1x16x1 .f32) (mW2_1 : Vec F S1x16x16 .f32) (mB2_1 : Vec F S1x16x1 .f32)
    (uW1_1 : Vec F S1x16x32 .f32) (uB1_1 : Vec F S1x16x1 .f32) (uW2_1 : Vec F S1x16x16 .f32) (uB2_1 : Vec F S1x16x1 .f32)
    (cW1 : Vec F S16x16 .f32) (cB1 : Vec F S16x1 .f32) (cW2 : Vec F S1x16 .f32) (cB2 : Vec F S1x1 .f32) :
    FVec F S1x8192 .f32 :=
  let h0 := k0_pay3 xa xb neW1 neB1 neW2 neB2
  let h1 := k0_pay4 xa xb neW1 neB1 neW2 neB2
  let e0 := k0_pay5 xe
  let w8 := k0_pay6 eeW1
  let b9 := k0_pay7 eeB1
  let w10 := k0_pay8 eeW2
  let b11 := k0_pay9 eeB2
  let z : FVec F S16x8192 .f32 := constant S16x8192 .f32 0x00000000#32
  let ee := k0_pay10 e0 w8 b9 w10 b11 z
  let m01 := k0_pay12 h0 h1 e0 w8 b9 w10 b11 z mW1_0 mB1_0 mW2_0 mB2_0
  let m10 := k0_pay13 h0 h1 e0 w8 b9 w10 b11 z mW1_0 mB1_0 mW2_0 mB2_0
  let uw := k0_pay14 uW1_0
  let ub := k0_pay15 uB1_0
  let g0 := k0_pay17 h0 h1 m01 m10 uw ub uW2_0 uB2_0
  let g1 := k0_pay18 h0 h1 m01 m10 uw ub uW2_0 uB2_0
  let n01 := k0_pay20 h0 h1 ee m01 m10 uw ub uW2_0 uB2_0 mW1_1 mB1_1 mW2_1 mB2_1
  let n10 := k0_pay21 h0 h1 ee m01 m10 uw ub uW2_0 uB2_0 mW1_1 mB1_1 mW2_1 mB2_1
  k0_pay1 (k0_pay22 cB1) (k0_pay23 cW2) (k0_pay24 cB2) (k0_pay25 g0 g1 n01 n10 uW1_1 uB1_1 uW2_1 uB2_1 cW1)

end Cert.Kernel.Hand

end
-- ==== Proof.FrameK.lean ====
import proofs.«176915_j43782896615991_2_alg».proof.Proof.StoredK
import proofs.«176915_j43782896615991_2_alg».proof.Proof.Gen.Kernel.Launch
import proofs.«176915_j43782896615991_2_alg».proof.Proof.Gen.Kernel.Points
import Idealize.ShloMosaic.Lib.Pipeline.FrameBody
import Idealize.ShloMosaic.Lib.Pipeline.FrameSuffix
import Idealize.ShloMosaic.Lib.Tactic

/-!
# The program runs to its end and leaves its arguments alone

The entry function is thirty host operations (slices, reshapes, transposes, broadcasts and one three-operand
concatenation), one pipelined region over a grid of 128 points with 24 windows, and one closing reshape. This
module proves that every weakly fair execution terminates without a fault and that all 24 argument arrays end
with the contents they were launched with.

The argument is the standard one for a body that only loads its inputs and overwrites its output:

* no host operation writes an argument array, before or after the region, and no window of the region stages an
  argument array (each window stages the RESULT of a host operation), so the arguments bypass the region;
* at every grid point each input window's staging buffer holds that window's block of its array — whether the
  block was fetched at this point (the three streamed windows) or at the first point only (the twenty weight and
  bias windows, whose block index never moves);
* the body reads the 23 input buffers, reads the output buffer once without using what it read, and overwrites the
  whole output buffer by ONE store; so the output buffer ends at a function `out0_23` of the input blocks alone,
  and the input buffers end as they were found.

`out0_23` is stated through `stored`, the stored value as a function of the 31 loaded values, so that a claim
about the VALUE the program computes can start from this module's run.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What core `c`'s buffers hold when the region starts: the launch contents `m` pushed through the thirty host
    operations that precede it. -/
abbrev V0 (c : Dev nD) : Valuation τ sig (Elt F) := StableHlo.after (List.flatten [hostOps0]) (fun b => m (c, b))
/-- `V0` at one TensorCore buffer. -/
abbrev V (c : Dev nD) (b : Ref sig .tc) : Buf (Elt F) ((c : Thread nD τ).loc b) := V0 m c (Proc.devRef .tc b)

/-- None of the operations before the region allocates. -/
theorem before_allocs_nothing : (hostOps0 : List (HloOp τ sig (Elt F))).Forall fun op => op.fresh = ∅ := by
  simp only [List.Forall]; repeat' constructor
/-- Nor does the reshape after it. -/
theorem after_allocs_nothing : (hostOps1 : List (HloOp τ sig (Elt F))).Forall fun op => op.fresh = ∅ := by
  simp only [List.Forall]; repeat' constructor

/-- The entry function is: the operations before the region, the region, and then a continuation that is just the
    closing reshape. So running it reduces to running the region from `V` and continuing with that reshape. -/
theorem main_around (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_allocs_nothing) main_chain

/-- The closing reshape touches only unscoped TensorCore buffers; with nothing prefetched these are exactly the
    buffers an operation after the region may touch (a window's array or a buffer that bypasses the region). -/
theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_allocs_nothing : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_allocs_nothing) op hop
/-- It writes its own result buffer, which is no window's array: the arrays keep what the region left in them. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.unary_writes, StableHlo.reshape_writes, StableHlo.nary_writes, Finset.mem_singleton] <;> exact StableHlo.devRef_ne_of_ne (by decide)

/-! ## The argument arrays bypass everything

Each host operation writes exactly one buffer, its result `main_vK`; an argument `main_argK` is a different buffer. So
the value of an argument array after the operations before the region is its launch value (`V_main_argK`), and the
same holds after the region and the closing reshape (`W_main_argK`), the region's own writes going to the windows'
arrays, none of which is an argument. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg20 (dats : (p : Fin _) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg22 (dats : (p : Fin _) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) := by
  unfold Pipeline.afterTail₀
  rw [StableHlo.after_of_forall_not_mem (b := Proc.devRef .tc main_arg22) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg22 (by exact (by decide : ∀ w, Pipeline.arrRef spec0 w ≠ main_arg22))]
  exact V_main_arg22 m c
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg23 (by exact (by decide : ∀ w, Pipeline.arrRef spec0 w ≠ main_arg23))]
  exact V_main_arg23 m c

/-! ## The blocks the body is handed -/

/-- Window `w`'s block at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds the window's block at every point. At a point that fetches the
window this is what a fetch does. At a point that does not, the window's block index is the previous point's, and
the body left the buffer as it found it, so by induction it still holds the block. The statement is for any proof
data whose array for the window is `V`'s and whose body keeps the block in place. -/

theorem found_0 {c : Dev nD} (dat : Dat τ (Elt F) Unit ℕ (UR sig nD τ) ℕ cfg0 c) (hA : dat.A 0 = V m c (Pipeline.arrRef spec0 0))
    (hkept : ∀ t, dat.after 0 t = iblk m c 0 t) (t : Fin cfg0.N) (d) : dat.before 0 t d = iblk m c 0 t :=
  (dat.before_in_eq_fetched 0 rfl (fun _ => rfl) (fun _ _ _ => rfl)
    (fun t => by rw [hkept]; unfold Dat.blockOf iblk; rw [hA]; try rfl) t d).trans
    (by unfold Dat.fetched Dat.blockOf iblk; rw [hA]; try rfl)
theorem found_1 {c : Dev nD} (dat : Dat τ (Elt F) Unit ℕ (UR sig nD τ) ℕ cfg0 c) (hA : dat.A 1 = V m c (Pipeline.arrRef spec0 1))
    (hkept : ∀ t, dat.after 1 t = iblk m c 1 t) (t : Fin cfg0.N) (d) : dat.before 1 t d = iblk m c 1 t :=
  (dat.before_in_eq_fetched 1 rfl (fun _ => rfl) (fun _ _ _ => rfl)
    (fun t => by rw [hkept]; unfold Dat.blockOf iblk; rw [hA]; try rfl) t d).trans
    (by unfold Dat.fetched Dat.blockOf iblk; rw [hA]; try rfl)
theorem found_2 {c : Dev nD} (dat : Dat τ (Elt F) Unit ℕ (UR sig nD τ) ℕ cfg0 c) (hA : dat.A 2 = V m c (Pipeline.arrRef spec0 2))
    (hkept : ∀ t, dat.after 2 t = iblk m c 2 t) (t : Fin cfg0.N) (d) : dat.before 2 t d = iblk m c 2 t :=
  (dat.before_in_eq_fetched 2 rfl (fun _ => rfl) (fun _ _ _ => rfl)
    (fun t => by rw [hkept]; unfold Dat.blockOf iblk; rw [hA]; try rfl) t d).trans
    (by unfold Dat.fetched Dat.blockOf iblk; rw [hA]; try rfl)
theorem found_3 {c : Dev nD} (dat : Dat τ (Elt F) Unit ℕ (UR sig nD τ) ℕ cfg0 c) (hA : dat.A 3 = V m c (Pipeline.arrRef spec0 3))
    (hkept : ∀ t, dat.after 3 t = iblk m c 3 t) (t : Fin cfg0.N) (d) : dat.before 3 t d = iblk m c 3 t :=
  (dat.before_in_eq_fetched 3 rfl (fun _ => rfl) (fun _ _ _ => rfl)
    (fun t => by rw [hkept]; unfold Dat.blockOf iblk; rw [hA]; try rfl) t d).trans
    (by unfold Dat.fetched Dat.blockOf iblk; rw [hA]; try rfl)
theorem found_4 {c : Dev nD} (dat : Dat τ (Elt F) Unit ℕ (UR sig nD τ) ℕ cfg0 c) (hA : dat.A 4 = V m c (Pipeline.arrRef spec0 4))
    (hkept : ∀ t, dat.after 4 t = iblk m c 4 t) (t : Fin cfg0.N) (d) : dat.before 4 t d = iblk m c 4 t :=
  (dat.before_in_eq_fetched 4 rfl (fun _ => rfl) (fun _ _ _ => rfl)
    (fun t => by rw [hkept]; unfold Dat.blockOf iblk; rw [hA]; try rfl) t d).trans
    (by unfold Dat.fetched Dat.blockOf iblk; rw [hA]; try rfl)
theorem found_5 {c : Dev nD} (dat : Dat τ (Elt F) Unit ℕ (UR sig nD τ) ℕ cfg0 c) (hA : dat.A 5 = V m c (Pipeline.arrRef spec0 5))
    (hkept : ∀ t, dat.after 5 t = iblk m c 5 t) (t : Fin cfg0.N) (d) : dat.before 5 t d = iblk m c 5 t :=
  (dat.before_in_eq_fetched 5 rfl (fun _ => rfl) (fun _ _ _ => rfl)
    (fun t => by rw [hkept]; unfold Dat.blockOf iblk; rw [hA]; try rfl) t d).trans
    (by unfold Dat.fetched Dat.blockOf iblk; rw [hA]; try rfl)
theorem found_6 {c : Dev nD} (dat : Dat τ (Elt F) Unit ℕ (UR sig nD τ) ℕ cfg0 c) (hA : dat.A 6 = V m c (Pipeline.arrRef spec0 6))
    (hkept : ∀ t, dat.after 6 t = iblk m c 6 t) (t : Fin cfg0.N) (d) : dat.before 6 t d = iblk m c 6 t :=
  (dat.before_in_eq_fetched 6 rfl (fun _ => rfl) (fun _ _ _ => rfl)
    (fun t => by rw [hkept]; unfold Dat.blockOf iblk; rw [hA]; try rfl) t d).trans
    (by unfold Dat.fetched Dat.blockOf iblk; rw [hA]; try rfl)
theorem found_7 {c : Dev nD} (dat : Dat τ (Elt F) Unit ℕ (UR sig nD τ) ℕ cfg0 c) (hA : dat.A 7 = V m c (Pipeline.arrRef spec0 7))
    (hkept : ∀ t, dat.after 7 t = iblk m c 7 t) (t : Fin cfg0.N) (d) : dat.before 7 t d = iblk m c 7 t :=
  (dat.before_in_eq_fetched 7 rfl (fun _ => rfl) (fun _ _ _ => rfl)
    (fun t => by rw [hkept]; unfold Dat.blockOf iblk; rw [hA]; try rfl) t d).trans
    (by unfold Dat.fetched Dat.blockOf iblk; rw [hA]; try rfl)
theorem found_8 {c : Dev nD} (dat : Dat τ (Elt F) Unit ℕ (UR sig nD τ) ℕ cfg0 c) (hA : dat.A 8 = V m c (Pipeline.arrRef spec0 8))
    (hkept : ∀ t, dat.after 8 t = iblk m c 8 t) (t : Fin cfg0.N) (d) : dat.before 8 t d = iblk m c 8 t :=
  (dat.before_in_eq_fetched 8 rfl (fun _ => rfl) (fun _ _ _ => rfl)
    (fun t => by rw [hkept]; unfold Dat.blockOf iblk; rw [hA]; try rfl) t d).trans
    (by unfold Dat.fetched Dat.blockOf iblk; rw [hA]; try rfl)
theorem found_9 {c : Dev nD} (dat : Dat τ (Elt F) Unit ℕ (UR sig nD τ) ℕ cfg0 c) (hA : dat.A 9 = V m c (Pipeline.arrRef spec0 9))
    (hkept : ∀ t, dat.after 9 t = iblk m c 9 t) (t : Fin cfg0.N) (d) : dat.before 9 t d = iblk m c 9 t :=
  (dat.before_in_eq_fetched 9 rfl (fun _ => rfl) (fun _ _ _ => rfl)
    (fun t => by rw [hkept]; unfold Dat.blockOf iblk; rw [hA]; try rfl) t d).trans
    (by unfold Dat.fetched Dat.blockOf iblk; rw [hA]; try rfl)
theorem found_10 {c : Dev nD} (dat : Dat τ (Elt F) Unit ℕ (UR sig nD τ) ℕ cfg0 c) (hA : dat.A 10 = V m c (Pipeline.arrRef spec0 10))
    (hkept : ∀ t, dat.after 10 t = iblk m c 10 t) (t : Fin cfg0.N) (d) : dat.before 10 t d = iblk m c 10 t :=
  (dat.before_in_eq_fetched 10 rfl (fun _ => rfl) (fun _ _ _ => rfl)
    (fun t => by rw [hkept]; unfold Dat.blockOf iblk; rw [hA]; try rfl) t d).trans
    (by unfold Dat.fetched Dat.blockOf iblk; rw [hA]; try rfl)
theorem found_11 {c : Dev nD} (dat : Dat τ (Elt F) Unit ℕ (UR sig nD τ) ℕ cfg0 c) (hA : dat.A 11 = V m c (Pipeline.arrRef spec0 11))
    (hkept : ∀ t, dat.after 11 t = iblk m c 11 t) (t : Fin cfg0.N) (d) : dat.before 11 t d = iblk m c 11 t :=
  (dat.before_in_eq_fetched 11 rfl (fun _ => rfl) (fun _ _ _ => rfl)
    (fun t => by rw [hkept]; unfold Dat.blockOf iblk; rw [hA]; try rfl) t d).trans
    (by unfold Dat.fetched Dat.blockOf iblk; rw [hA]; try rfl)
theorem found_12 {c : Dev nD} (dat : Dat τ (Elt F) Unit ℕ (UR sig nD τ) ℕ cfg0 c) (hA : dat.A 12 = V m c (Pipeline.arrRef spec0 12))
    (hkept : ∀ t, dat.after 12 t = iblk m c 12 t) (t : Fin cfg0.N) (d) : dat.before 12 t d = iblk m c 12 t :=
  (dat.before_in_eq_fetched 12 rfl (fun _ => rfl) (fun _ _ _ => rfl)
    (fun t => by rw [hkept]; unfold Dat.blockOf iblk; rw [hA]; try rfl) t d).trans
    (by unfold Dat.fetched Dat.blockOf iblk; rw [hA]; try rfl)
theorem found_13 {c : Dev nD} (dat : Dat τ (Elt F) Unit ℕ (UR sig nD τ) ℕ cfg0 c) (hA : dat.A 13 = V m c (Pipeline.arrRef spec0 13))
    (hkept : ∀ t, dat.after 13 t = iblk m c 13 t) (t : Fin cfg0.N) (d) : dat.before 13 t d = iblk m c 13 t :=
  (dat.before_in_eq_fetched 13 rfl (fun _ => rfl) (fun _ _ _ => rfl)
    (fun t => by rw [hkept]; unfold Dat.blockOf iblk; rw [hA]; try rfl) t d).trans
    (by unfold Dat.fetched Dat.blockOf iblk; rw [hA]; try rfl)
theorem found_14 {c : Dev nD} (dat : Dat τ (Elt F) Unit ℕ (UR sig nD τ) ℕ cfg0 c) (hA : dat.A 14 = V m c (Pipeline.arrRef spec0 14))
    (hkept : ∀ t, dat.after 14 t = iblk m c 14 t) (t : Fin cfg0.N) (d) : dat.before 14 t d = iblk m c 14 t :=
  (dat.before_in_eq_fetched 14 rfl (fun _ => rfl) (fun _ _ _ => rfl)
    (fun t => by rw [hkept]; unfold Dat.blockOf iblk; rw [hA]; try rfl) t d).trans
    (by unfold Dat.fetched Dat.blockOf iblk; rw [hA]; try rfl)
theorem found_15 {c : Dev nD} (dat : Dat τ (Elt F) Unit ℕ (UR sig nD τ) ℕ cfg0 c) (hA : dat.A 15 = V m c (Pipeline.arrRef spec0 15))
    (hkept : ∀ t, dat.after 15 t = iblk m c 15 t) (t : Fin cfg0.N) (d) : dat.before 15 t d = iblk m c 15 t :=
  (dat.before_in_eq_fetched 15 rfl (fun _ => rfl) (fun _ _ _ => rfl)
    (fun t => by rw [hkept]; unfold Dat.blockOf iblk; rw [hA]; try rfl) t d).trans
    (by unfold Dat.fetched Dat.blockOf iblk; rw [hA]; try rfl)
theorem found_16 {c : Dev nD} (dat : Dat τ (Elt F) Unit ℕ (UR sig nD τ) ℕ cfg0 c) (hA : dat.A 16 = V m c (Pipeline.arrRef spec0 16))
    (hkept : ∀ t, dat.after 16 t = iblk m c 16 t) (t : Fin cfg0.N) (d) : dat.before 16 t d = iblk m c 16 t :=
  (dat.before_in_eq_fetched 16 rfl (fun _ => rfl) (fun _ _ _ => rfl)
    (fun t => by rw [hkept]; unfold Dat.blockOf iblk; rw [hA]; try rfl) t d).trans
    (by unfold Dat.fetched Dat.blockOf iblk; rw [hA]; try rfl)
theorem found_17 {c : Dev nD} (dat : Dat τ (Elt F) Unit ℕ (UR sig nD τ) ℕ cfg0 c) (hA : dat.A 17 = V m c (Pipeline.arrRef spec0 17))
    (hkept : ∀ t, dat.after 17 t = iblk m c 17 t) (t : Fin cfg0.N) (d) : dat.before 17 t d = iblk m c 17 t :=
  (dat.before_in_eq_fetched 17 rfl (fun _ => rfl) (fun _ _ _ => rfl)
    (fun t => by rw [hkept]; unfold Dat.blockOf iblk; rw [hA]; try rfl) t d).trans
    (by unfold Dat.fetched Dat.blockOf iblk; rw [hA]; try rfl)
theorem found_18 {c : Dev nD} (dat : Dat τ (Elt F) Unit ℕ (UR sig nD τ) ℕ cfg0 c) (hA : dat.A 18 = V m c (Pipeline.arrRef spec0 18))
    (hkept : ∀ t, dat.after 18 t = iblk m c 18 t) (t : Fin cfg0.N) (d) : dat.before 18 t d = iblk m c 18 t :=
  (dat.before_in_eq_fetched 18 rfl (fun _ => rfl) (fun _ _ _ => rfl)
    (fun t => by rw [hkept]; unfold Dat.blockOf iblk; rw [hA]; try rfl) t d).trans
    (by unfold Dat.fetched Dat.blockOf iblk; rw [hA]; try rfl)
theorem found_19 {c : Dev nD} (dat : Dat τ (Elt F) Unit ℕ (UR sig nD τ) ℕ cfg0 c) (hA : dat.A 19 = V m c (Pipeline.arrRef spec0 19))
    (hkept : ∀ t, dat.after 19 t = iblk m c 19 t) (t : Fin cfg0.N) (d) : dat.before 19 t d = iblk m c 19 t :=
  (dat.before_in_eq_fetched 19 rfl (fun _ => rfl) (fun _ _ _ => rfl)
    (fun t => by rw [hkept]; unfold Dat.blockOf iblk; rw [hA]; try rfl) t d).trans
    (by unfold Dat.fetched Dat.blockOf iblk; rw [hA]; try rfl)
theorem found_20 {c : Dev nD} (dat : Dat τ (Elt F) Unit ℕ (UR sig nD τ) ℕ cfg0 c) (hA : dat.A 20 = V m c (Pipeline.arrRef spec0 20))
    (hkept : ∀ t, dat.after 20 t = iblk m c 20 t) (t : Fin cfg0.N) (d) : dat.before 20 t d = iblk m c 20 t :=
  (dat.before_in_eq_fetched 20 rfl (fun _ => rfl) (fun _ _ _ => rfl)
    (fun t => by rw [hkept]; unfold Dat.blockOf iblk; rw [hA]; try rfl) t d).trans
    (by unfold Dat.fetched Dat.blockOf iblk; rw [hA]; try rfl)
theorem found_21 {c : Dev nD} (dat : Dat τ (Elt F) Unit ℕ (UR sig nD τ) ℕ cfg0 c) (hA : dat.A 21 = V m c (Pipeline.arrRef spec0 21))
    (hkept : ∀ t, dat.after 21 t = iblk m c 21 t) (t : Fin cfg0.N) (d) : dat.before 21 t d = iblk m c 21 t :=
  (dat.before_in_eq_fetched 21 rfl (fun _ => rfl) (fun _ _ _ => rfl)
    (fun t => by rw [hkept]; unfold Dat.blockOf iblk; rw [hA]; try rfl) t d).trans
    (by unfold Dat.fetched Dat.blockOf iblk; rw [hA]; try rfl)
theorem found_22 {c : Dev nD} (dat : Dat τ (Elt F) Unit ℕ (UR sig nD τ) ℕ cfg0 c) (hA : dat.A 22 = V m c (Pipeline.arrRef spec0 22))
    (hkept : ∀ t, dat.after 22 t = iblk m c 22 t) (t : Fin cfg0.N) (d) : dat.before 22 t d = iblk m c 22 t :=
  (dat.before_in_eq_fetched 22 rfl (fun _ => rfl) (fun _ _ _ => rfl)
    (fun t => by rw [hkept]; unfold Dat.blockOf iblk; rw [hA]; try rfl) t d).trans
    (by unfold Dat.fetched Dat.blockOf iblk; rw [hA]; try rfl)

/-! ## From a run of the region to the claim about the arguments -/

/-- Suppose the entry function runs to a state in which every window's array holds what the proof data say and every
    buffer that bypasses the region holds what the closing reshape leaves of its region-entry contents. Each of the 24
    arguments is unscoped and is no window's array, so it is such a bypassing buffer, and by `W_main_argK` it holds its
    launch contents. -/
theorem frame_from_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c),
      ((h c).2 main_arg14 (Pipeline.mem_restRefs_of main_arg14 (by decide) (by decide))).trans (W_main_arg14 m dats c),
      ((h c).2 main_arg15 (Pipeline.mem_restRefs_of main_arg15 (by decide) (by decide))).trans (W_main_arg15 m dats c),
      ((h c).2 main_arg16 (Pipeline.mem_restRefs_of main_arg16 (by decide) (by decide))).trans (W_main_arg16 m dats c),
      ((h c).2 main_arg17 (Pipeline.mem_restRefs_of main_arg17 (by decide) (by decide))).trans (W_main_arg17 m dats c),
      ((h c).2 main_arg18 (Pipeline.mem_restRefs_of main_arg18 (by decide) (by decide))).trans (W_main_arg18 m dats c),
      ((h c).2 main_arg19 (Pipeline.mem_restRefs_of main_arg19 (by decide) (by decide))).trans (W_main_arg19 m dats c),
      ((h c).2 main_arg20 (Pipeline.mem_restRefs_of main_arg20 (by decide) (by decide))).trans (W_main_arg20 m dats c),
      ((h c).2 main_arg21 (Pipeline.mem_restRefs_of main_arg21 (by decide) (by decide))).trans (W_main_arg21 m dats c),
      ((h c).2 main_arg22 (Pipeline.mem_restRefs_of main_arg22 (by decide) (by decide))).trans (W_main_arg22 m dats c),
      ((h c).2 main_arg23 (Pipeline.mem_restRefs_of main_arg23 (by decide) (by decide))).trans (W_main_arg23 m dats c)⟩) h

/-! ## The rectangles the body loads and stores through

Every two-dimensional buffer is read (and the output written) whole. The eight stacked weight and bias buffers of
the message and update perceptrons hold two layers along their leading axis; the body reads layer 0 and layer 1
of each separately. -/

abbrev all_S2x8192 : Rect S2x8192 := Rect.unit (s := S2x8192) ![0, 0] S2x8192.size inb_S2x8192_S2x8192_0_0
abbrev all_S3x8192 : Rect S3x8192 := Rect.unit (s := S3x8192) ![0, 0] S3x8192.size inb_S3x8192_S3x8192_0_0
abbrev all_S16x2 : Rect S16x2 := Rect.unit (s := S16x2) ![0, 0] S16x2.size inb_S16x2_S16x2_0_0
abbrev all_S16x1 : Rect S16x1 := Rect.unit (s := S16x1) ![0, 0] S16x1.size inb_S16x1_S16x1_0_0
abbrev all_S16x16 : Rect S16x16 := Rect.unit (s := S16x16) ![0, 0] S16x16.size inb_S16x16_S16x16_0_0
abbrev all_S16x3 : Rect S16x3 := Rect.unit (s := S16x3) ![0, 0] S16x3.size inb_S16x3_S16x3_0_0
abbrev all_S1x16 : Rect S1x16 := Rect.unit (s := S1x16) ![0, 0] S1x16.size inb_S1x16_S1x16_0_0
abbrev all_S1x1 : Rect S1x1 := Rect.unit (s := S1x1) ![0, 0] S1x1.size inb_S1x1_S1x1_0_0
abbrev all_S1x8192 : Rect S1x8192 := Rect.unit (s := S1x8192) ![0, 0] S1x8192.size inb_S1x8192_S1x8192_0_0
abbrev layer0_S2x16x48 : Rect S2x16x48 := Rect.unit (s := S2x16x48) ![0, 0, 0] S1x16x48.size inb_S2x16x48_S1x16x48_0_0_0
abbrev layer1_S2x16x48 : Rect S2x16x48 := Rect.unit (s := S2x16x48) ![1, 0, 0] S1x16x48.size inb_S2x16x48_S1x16x48_1_0_0
abbrev layer0_S2x16x1 : Rect S2x16x1 := Rect.unit (s := S2x16x1) ![0, 0, 0] S1x16x1.size inb_S2x16x1_S1x16x1_0_0_0
abbrev layer1_S2x16x1 : Rect S2x16x1 := Rect.unit (s := S2x16x1) ![1, 0, 0] S1x16x1.size inb_S2x16x1_S1x16x1_1_0_0
abbrev layer0_S2x16x16 : Rect S2x16x16 := Rect.unit (s := S2x16x16) ![0, 0, 0] S1x16x16.size inb_S2x16x16_S1x16x16_0_0_0
abbrev layer1_S2x16x16 : Rect S2x16x16 := Rect.unit (s := S2x16x16) ![1, 0, 0] S1x16x16.size inb_S2x16x16_S1x16x16_1_0_0
abbrev layer0_S2x16x32 : Rect S2x16x32 := Rect.unit (s := S2x16x32) ![0, 0, 0] S1x16x32.size inb_S2x16x32_S1x16x32_0_0_0
abbrev layer1_S2x16x32 : Rect S2x16x32 := Rect.unit (s := S2x16x32) ![1, 0, 0] S1x16x32.size inb_S2x16x32_S1x16x32_1_0_0

/-! ## What the body leaves in the output buffer -/

/-- The output staging buffer after the body, as a function of what the 23 input staging buffers read: the body's
    single store, through the whole-buffer rectangle, of `stored` applied to the 31 loaded values (each a read of
    an input buffer through the rectangle of that load). -/
def out0_23 (x0 : Vec F S2x8192 .f32) (x1 : Vec F S2x8192 .f32) (x2 : Vec F S3x8192 .f32) (x3 : Vec F S16x2 .f32) (x4 : Vec F S16x1 .f32) (x5 : Vec F S16x16 .f32) (x6 : Vec F S16x1 .f32) (x7 : Vec F S16x3 .f32) (x8 : Vec F S16x1 .f32) (x9 : Vec F S16x16 .f32) (x10 : Vec F S16x1 .f32) (x11 : Vec F S2x16x48 .f32) (x12 : Vec F S2x16x1 .f32) (x13 : Vec F S2x16x16 .f32) (x14 : Vec F S2x16x1 .f32) (x15 : Vec F S2x16x32 .f32) (x16 : Vec F S2x16x1 .f32) (x17 : Vec F S2x16x16 .f32) (x18 : Vec F S2x16x1 .f32) (x19 : Vec F S16x16 .f32) (x20 : Vec F S16x1 .f32) (x21 : Vec F S1x16 .f32) (x22 : Vec F S1x1 .f32) : Vec F S1x8192 .f32 :=
  View.canon [⟨all_S1x8192, stored (View.ld x0 all_S2x8192) (View.ld x1 all_S2x8192) (View.ld x2 all_S3x8192) (View.ld x3 all_S16x2) (View.ld x4 all_S16x1) (View.ld x5 all_S16x16) (View.ld x6 all_S16x1) (View.ld x7 all_S16x3) (View.ld x8 all_S16x1) (View.ld x9 all_S16x16) (View.ld x10 all_S16x1) (View.ld x11 layer0_S2x16x48) (View.ld x12 layer0_S2x16x1) (View.ld x13 layer0_S2x16x16) (View.ld x14 layer0_S2x16x1) (View.ld x15 layer0_S2x16x32) (View.ld x16 layer0_S2x16x1) (View.ld x17 layer0_S2x16x16) (View.ld x18 layer0_S2x16x1) (View.ld x11 layer1_S2x16x48) (View.ld x12 layer1_S2x16x1) (View.ld x13 layer1_S2x16x16) (View.ld x14 layer1_S2x16x1) (View.ld x15 layer1_S2x16x32) (View.ld x16 layer1_S2x16x1) (View.ld x17 layer1_S2x16x16) (View.ld x18 layer1_S2x16x1) (View.ld x19 all_S16x16) (View.ld x20 all_S16x1) (View.ld x21 all_S1x16) (View.ld x22 all_S1x1)⟩]

/-- One store through the whole-buffer rectangle covers the buffer, whatever it stores. -/
theorem store_covers (p : Vec F S1x8192 .f32) (y : S1x8192.Idx) :
    ∃ pc ∈ ([⟨all_S1x8192, p⟩] : List (View.Piece (Elt F) S1x8192 .f32)), y ∈ pc.1.set :=
  View.cover_of_tiled [⟨all_S1x8192, p⟩] S1x8192.size (by rfl) y

/-! ## The body -/

set_option maxHeartbeats 4000000 in
/-- The body, called on whole staging buffers with the 23 inputs reading `x0 … x22` and the output holding
    anything, runs without a fault to its return; it hands back the inputs as they were and the output reading
    `out0_23 x0 … x22`. The four printed parts only load and compute, so the run is: 31 loads (values of the inputs),
    a load of the output that nothing uses, and one store covering the output. -/
theorem body_triple (c : Dev nD) (E : Set ℕ) (i : grid0.Coords)
    (arg1 : Memref sig .tc .vmem S2x8192 .f32) (harg1 : arg1.IsWhole)
    (arg2 : Memref sig .tc .vmem S2x8192 .f32) (harg2 : arg2.IsWhole)
    (arg3 : Memref sig .tc .vmem S3x8192 .f32) (harg3 : arg3.IsWhole)
    (arg4 : Memref sig .tc .vmem S16x2 .f32) (harg4 : arg4.IsWhole)
    (arg5 : Memref sig .tc .vmem S16x1 .f32) (harg5 : arg5.IsWhole)
    (arg6 : Memref sig .tc .vmem S16x16 .f32) (harg6 : arg6.IsWhole)
    (arg7 : Memref sig .tc .vmem S16x1 .f32) (harg7 : arg7.IsWhole)
    (arg8 : Memref sig .tc .vmem S16x3 .f32) (harg8 : arg8.IsWhole)
    (arg9 : Memref sig .tc .vmem S16x1 .f32) (harg9 : arg9.IsWhole)
    (arg10 : Memref sig .tc .vmem S16x16 .f32) (harg10 : arg10.IsWhole)
    (arg11 : Memref sig .tc .vmem S16x1 .f32) (harg11 : arg11.IsWhole)
    (arg12 : Memref sig .tc .vmem S2x16x48 .f32) (harg12 : arg12.IsWhole)
    (arg13 : Memref sig .tc .vmem S2x16x1 .f32) (harg13 : arg13.IsWhole)
    (arg14 : Memref sig .tc .vmem S2x16x16 .f32) (harg14 : arg14.IsWhole)
    (arg15 : Memref sig .tc .vmem S2x16x1 .f32) (harg15 : arg15.IsWhole)
    (arg16 : Memref sig .tc .vmem S2x16x32 .f32) (harg16 : arg16.IsWhole)
    (arg17 : Memref sig .tc .vmem S2x16x1 .f32) (harg17 : arg17.IsWhole)
    (arg18 : Memref sig .tc .vmem S2x16x16 .f32) (harg18 : arg18.IsWhole)
    (arg19 : Memref sig .tc .vmem S2x16x1 .f32) (harg19 : arg19.IsWhole)
    (arg20 : Memref sig .tc .vmem S16x16 .f32) (harg20 : arg20.IsWhole)
    (arg21 : Memref sig .tc .vmem S16x1 .f32) (harg21 : arg21.IsWhole)
    (arg22 : Memref sig .tc .vmem S1x16 .f32) (harg22 : arg22.IsWhole)
    (arg23 : Memref sig .tc .vmem S1x1 .f32) (harg23 : arg23.IsWhole)
    (arg24 : Memref sig .tc .vmem S1x8192 .f32) (harg24 : arg24.IsWhole)
    (x0 : Vec F S2x8192 .f32) (x1 : Vec F S2x8192 .f32) (x2 : Vec F S3x8192 .f32) (x3 : Vec F S16x2 .f32) (x4 : Vec F S16x1 .f32) (x5 : Vec F S16x16 .f32) (x6 : Vec F S16x1 .f32) (x7 : Vec F S16x3 .f32) (x8 : Vec F S16x1 .f32) (x9 : Vec F S16x16 .f32) (x10 : Vec F S16x1 .f32) (x11 : Vec F S2x16x48 .f32) (x12 : Vec F S2x16x1 .f32) (x13 : Vec F S2x16x16 .f32) (x14 : Vec F S2x16x1 .f32) (x15 : Vec F S2x16x32 .f32) (x16 : Vec F S2x16x1 .f32) (x17 : Vec F S2x16x16 .f32) (x18 : Vec F S2x16x1 .f32) (x19 : Vec F S16x16 .f32) (x20 : Vec F S16x1 .f32) (x21 : Vec F S1x16 .f32) (x22 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ owns (c : Thread nD τ) arg18 fullShare x17
        ∗ owns (c : Thread nD τ) arg19 fullShare x18
        ∗ owns (c : Thread nD τ) arg20 fullShare x19
        ∗ owns (c : Thread nD τ) arg21 fullShare x20
        ∗ owns (c : Thread nD τ) arg22 fullShare x21
        ∗ owns (c : Thread nD τ) arg23 fullShare x22
        ∗ (∃ d, owns (c : Thread nD τ) arg24 fullShare d)
        ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare x6
              ∗ owns (c : Thread nD τ) arg8 fullShare x7
              ∗ owns (c : Thread nD τ) arg9 fullShare x8
              ∗ owns (c : Thread nD τ) arg10 fullShare x9
              ∗ owns (c : Thread nD τ) arg11 fullShare x10
              ∗ owns (c : Thread nD τ) arg12 fullShare x11
              ∗ owns (c : Thread nD τ) arg13 fullShare x12
              ∗ owns (c : Thread nD τ) arg14 fullShare x13
              ∗ owns (c : Thread nD τ) arg15 fullShare x14
              ∗ owns (c : Thread nD τ) arg16 fullShare x15
              ∗ owns (c : Thread nD τ) arg17 fullShare x16
              ∗ owns (c : Thread nD τ) arg18 fullShare x17
              ∗ owns (c : Thread nD τ) arg19 fullShare x18
              ∗ owns (c : Thread nD τ) arg20 fullShare x19
              ∗ owns (c : Thread nD τ) arg21 fullShare x20
              ∗ owns (c : Thread nD τ) arg22 fullShare x21
              ∗ owns (c : Thread nD τ) arg23 fullShare x22
              ∗ owns (c : Thread nD τ) arg24 fullShare (out0_23 x0 x1 x2 x3 x4 x5 x6 x7 x8 x9 x10 x11 x12 x13 x14 x15 x16 x17 x18 x19 x20 x21 x22)) -∗ K ⟨⟩))
      ⊢ wp frame (wpE (defs₀ (F := F)) Variants.none c none) E
          (cc0__egnn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__egnn_kernel_eq_skeleton]; unfold cc0__egnn_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  iexists _; isplitr
  swap; · iexact H23
  ipureintro
  try dsimp only
  exact View.read_writes_eq_canon _ _ _ (store_covers _)

/-! ## The proof data of the pipeline -/

/-- On core `c`: the windows' arrays are the region-entry contents; after the body at point `t` every input buffer
    holds its block and the output buffer holds `out0_23` of the input blocks; the invariant carried from point to
    point is the library's for a body that uses no scratch (the scoped rest and the generator register, untouched);
    full shares; nothing is owed to another core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 24, h⟩ => absurd h (Nat.not_lt.2 (Nat.le_add_left _ _))
  Φ _ := Pipeline.ΦA spec0 c
  q _ := fullShare
  owed _ := 0

/-- The proof data's arrays are `V`'s: a projection of the definition (the fold over the host operations that `V`
    abbreviates is never opened). -/
theorem A_eq (c : Dev nD) (w : Fin cfg0.W) : (dats m 0 c).A w = V m c (Pipeline.arrRef spec0 w) := by
  dsimp only [dats]

/-! What the body leaves, window by window: the proof data's `match` reduced at each literal window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) :
    (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

/-! So each input buffer is handed to the body holding its block (`found_W` at these proof data). -/
theorem held_0 (c : Dev nD) (t : Fin cfg0.N) (d) : (dats m 0 c).before 0 t d = iblk m c 0 t :=
  found_0 m (dats m 0 c) (A_eq m c 0) (after0_0 m c) t d
theorem held_1 (c : Dev nD) (t : Fin cfg0.N) (d) : (dats m 0 c).before 1 t d = iblk m c 1 t :=
  found_1 m (dats m 0 c) (A_eq m c 1) (after0_1 m c) t d
theorem held_2 (c : Dev nD) (t : Fin cfg0.N) (d) : (dats m 0 c).before 2 t d = iblk m c 2 t :=
  found_2 m (dats m 0 c) (A_eq m c 2) (after0_2 m c) t d
theorem held_3 (c : Dev nD) (t : Fin cfg0.N) (d) : (dats m 0 c).before 3 t d = iblk m c 3 t :=
  found_3 m (dats m 0 c) (A_eq m c 3) (after0_3 m c) t d
theorem held_4 (c : Dev nD) (t : Fin cfg0.N) (d) : (dats m 0 c).before 4 t d = iblk m c 4 t :=
  found_4 m (dats m 0 c) (A_eq m c 4) (after0_4 m c) t d
theorem held_5 (c : Dev nD) (t : Fin cfg0.N) (d) : (dats m 0 c).before 5 t d = iblk m c 5 t :=
  found_5 m (dats m 0 c) (A_eq m c 5) (after0_5 m c) t d
theorem held_6 (c : Dev nD) (t : Fin cfg0.N) (d) : (dats m 0 c).before 6 t d = iblk m c 6 t :=
  found_6 m (dats m 0 c) (A_eq m c 6) (after0_6 m c) t d
theorem held_7 (c : Dev nD) (t : Fin cfg0.N) (d) : (dats m 0 c).before 7 t d = iblk m c 7 t :=
  found_7 m (dats m 0 c) (A_eq m c 7) (after0_7 m c) t d
theorem held_8 (c : Dev nD) (t : Fin cfg0.N) (d) : (dats m 0 c).before 8 t d = iblk m c 8 t :=
  found_8 m (dats m 0 c) (A_eq m c 8) (after0_8 m c) t d
theorem held_9 (c : Dev nD) (t : Fin cfg0.N) (d) : (dats m 0 c).before 9 t d = iblk m c 9 t :=
  found_9 m (dats m 0 c) (A_eq m c 9) (after0_9 m c) t d
theorem held_10 (c : Dev nD) (t : Fin cfg0.N) (d) : (dats m 0 c).before 10 t d = iblk m c 10 t :=
  found_10 m (dats m 0 c) (A_eq m c 10) (after0_10 m c) t d
theorem held_11 (c : Dev nD) (t : Fin cfg0.N) (d) : (dats m 0 c).before 11 t d = iblk m c 11 t :=
  found_11 m (dats m 0 c) (A_eq m c 11) (after0_11 m c) t d
theorem held_12 (c : Dev nD) (t : Fin cfg0.N) (d) : (dats m 0 c).before 12 t d = iblk m c 12 t :=
  found_12 m (dats m 0 c) (A_eq m c 12) (after0_12 m c) t d
theorem held_13 (c : Dev nD) (t : Fin cfg0.N) (d) : (dats m 0 c).before 13 t d = iblk m c 13 t :=
  found_13 m (dats m 0 c) (A_eq m c 13) (after0_13 m c) t d
theorem held_14 (c : Dev nD) (t : Fin cfg0.N) (d) : (dats m 0 c).before 14 t d = iblk m c 14 t :=
  found_14 m (dats m 0 c) (A_eq m c 14) (after0_14 m c) t d
theorem held_15 (c : Dev nD) (t : Fin cfg0.N) (d) : (dats m 0 c).before 15 t d = iblk m c 15 t :=
  found_15 m (dats m 0 c) (A_eq m c 15) (after0_15 m c) t d
theorem held_16 (c : Dev nD) (t : Fin cfg0.N) (d) : (dats m 0 c).before 16 t d = iblk m c 16 t :=
  found_16 m (dats m 0 c) (A_eq m c 16) (after0_16 m c) t d
theorem held_17 (c : Dev nD) (t : Fin cfg0.N) (d) : (dats m 0 c).before 17 t d = iblk m c 17 t :=
  found_17 m (dats m 0 c) (A_eq m c 17) (after0_17 m c) t d
theorem held_18 (c : Dev nD) (t : Fin cfg0.N) (d) : (dats m 0 c).before 18 t d = iblk m c 18 t :=
  found_18 m (dats m 0 c) (A_eq m c 18) (after0_18 m c) t d
theorem held_19 (c : Dev nD) (t : Fin cfg0.N) (d) : (dats m 0 c).before 19 t d = iblk m c 19 t :=
  found_19 m (dats m 0 c) (A_eq m c 19) (after0_19 m c) t d
theorem held_20 (c : Dev nD) (t : Fin cfg0.N) (d) : (dats m 0 c).before 20 t d = iblk m c 20 t :=
  found_20 m (dats m 0 c) (A_eq m c 20) (after0_20 m c) t d
theorem held_21 (c : Dev nD) (t : Fin cfg0.N) (d) : (dats m 0 c).before 21 t d = iblk m c 21 t :=
  found_21 m (dats m 0 c) (A_eq m c 21) (after0_21 m c) t d
theorem held_22 (c : Dev nD) (t : Fin cfg0.N) (d) : (dats m 0 c).before 22 t d = iblk m c 22 t :=
  found_22 m (dats m 0 c) (A_eq m c 22) (after0_22 m c) t d

/-! ## The body's obligation at a grid point -/

/-- What the pipeline hands the body at point `t`: the invariant, what the core owes, and each window's current
    staging buffer at what it holds before the body (the output's at anything it may hold). -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- What it takes back: the same invariant and debt, each buffer at what the proof data say the body leaves. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

set_option maxHeartbeats 1000000 in
/-- At any point the inputs' buffers hold their blocks (`held_W`), so `body_triple` applies at those blocks; the
    invariant and the debt are not touched by the body and pass through. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [held_0, held_1, held_2, held_3, held_4, held_5, held_6, held_7, held_8, held_9, held_10, held_11, held_12, held_13, held_14, held_15, held_16, held_17, held_18, held_19, held_20, held_21, held_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (body_triple c Set.univ (grid0.coords t) _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The library's body obligation: the windows' conjunction opened window by window is `handed` / `returned`. -/
theorem body_owed (c : Dev nD) : BodyObligation (dats (F := F) m 0 c) (defs₀ (F := F)) Variants.none () Set.univ := fun t => by
  rw [bigSep_W0, bigSep_W0]
  exact body_at_point m c t

/-! ## The run, and the claim -/

-- the launch theorem's implicit arguments are found by unifying its conclusion with the statement below, which
-- needs plain definitions unfolded inside the type of a metavariable
set_option backward.isDefEq.respectTransparency.types false in
/-- From any memory with all counters at zero, every weakly fair execution of the entry function on the TensorCores
    terminates without a fault; at the end each window's array holds what the library computes from the proof data
    (an input array its region-entry contents, the output array the blocks `out0_23` written back point by point), and
    every other unscoped buffer what the closing reshape leaves of its region-entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_owed m c).loose) (hshare := fun c => (dats m 0 c).share_full fun _ => rfl)
    (howed := fun _ _ => rfl) (V₀ := V0 m) (opss := [hostOps1]) (hsub := tail_within) (hfresh := tail_allocs_nothing)
    (hkeep := tail_keeps_arrays) (hmain := main_around m Variants.none) (hA := A_eq m) (hΦ := fun _ _ => rfl)

/-- The program terminates on every weakly fair execution, faults nowhere, and all 24 argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_from_run m ρ (dats m) (run_main m ρ)

end Cert.Kernel.Hand

end
-- ==== Proof.StoredKI.lean ====
import proofs.«176915_j43782896615991_2_alg».proof.Proof.Gen.KernelIdeal.Skeleton

/-!
# The value the kernel body stores, as one function of the values it loads

The body of the message-passing kernel loads its three streamed blocks (the two node-feature blocks and the edge-feature
block), the weight and bias blocks of its seven two-layer perceptrons (for the message and update perceptrons, layer
0 and layer 1 of the stacked arrays separately), computes, and stores ONE block: the row of logits of the graphs of the
current tile. `stored` is that row as a function of the loaded values: the composition of the body's named pure
pieces in the order the body computes them (node embeddings, edge embedding, two rounds of messages and updates, the
mean of the two nodes, the classifier).
-/

noncomputable section

namespace Cert.KernelIdeal.Hand

open Idealize.ShloMosaic Idealize.SL.Sem Cert.KernelIdeal Cert.KernelIdeal.Gen

variable {F : FTy → Type} [FloatOps F]

/-- The stored row of logits from the 31 loaded values. `xa`, `xb`: the two nodes' feature blocks; `xe`: the edge
    feature block; `neW1 … neB2`, `eeW1 … eeB2`: the node and edge embedding perceptrons; `mW1_l … mB2_l`,
    `uW1_l … uB2_l`: layer `l` of the message and update perceptrons; `cW1 … cB2`: the classifier. -/
def stored (xa xb : Vec F S2x8192 .f32) (xe : Vec F S3x8192 .f32)
    (neW1 : Vec F S16x2 .f32) (neB1 : Vec F S16x1 .f32) (neW2 : Vec F S16x16 .f32) (neB2 : Vec F S16x1 .f32)
    (eeW1 : Vec F S16x3 .f32) (eeB1 : Vec F S16x1 .f32) (eeW2 : Vec F S16x16 .f32) (eeB2 : Vec F S16x1 .f32)
    (mW1_0 : Vec F S1x16x48 .f32) (mB1_0 : Vec F S1x16x1 .f32) (mW2_0 : Vec F S1x16x16 .f32) (mB2_0 : Vec F S1x16x1 .f32)
    (uW1_0 : Vec F S1x16x32 .f32) (uB1_0 : Vec F S1x16x1 .f32) (uW2_0 : Vec F S1x16x16 .f32) (uB2_0 : Vec F S1x16x1 .f32)
    (mW1_1 : Vec F S1x16x48 .f32) (mB1_1 : Vec F S1x16x1 .f32) (mW2_1 : Vec F S1x16x16 .f32) (mB2_1 : Vec F S1x16x1 .f32)
    (uW1_1 : Vec F S1x16x32 .f32) (uB1_1 : Vec F S1x16x1 .f32) (uW2_1 : Vec F S1x16x16 .f32) (uB2_1 : Vec F S1x16x1 .f32)
    (cW1 : Vec F S16x16 .f32) (cB1 : Vec F S16x1 .f32) (cW2 : Vec F S1x16 .f32) (cB2 : Vec F S1x1 .f32) :
    FVec F S1x8192 .f32 :=
  let h0 := k0_pay3 xa xb neW1 neB1 neW2 neB2
  let h1 := k0_pay4 xa xb neW1 neB1 neW2 neB2
  let e0 := k0_pay5 xe
  let w8 := k0_pay6 eeW1
  let b9 := k0_pay7 eeB1
  let w10 := k0_pay8 eeW2
  let b11 := k0_pay9 eeB2
  let z : FVec F S16x8192 .f32 := constant S16x8192 .f32 0x00000000#32
  let ee := k0_pay10 e0 w8 b9 w10 b11 z
  let m01 := k0_pay12 h0 h1 e0 w8 b9 w10 b11 z mW1_0 mB1_0 mW2_0 mB2_0
  let m10 := k0_pay13 h0 h1 e0 w8 b9 w10 b11 z mW1_0 mB1_0 mW2_0 mB2_0
  let uw := k0_pay14 uW1_0
  let ub := k0_pay15 uB1_0
  let g0 := k0_pay17 h0 h1 m01 m10 uw ub uW2_0 uB2_0
  let g1 := k0_pay18 h0 h1 m01 m10 uw ub uW2_0 uB2_0
  let n01 := k0_pay20 h0 h1 ee m01 m10 uw ub uW2_0 uB2_0 mW1_1 mB1_1 mW2_1 mB2_1
  let n10 := k0_pay21 h0 h1 ee m01 m10 uw ub uW2_0 uB2_0 mW1_1 mB1_1 mW2_1 mB2_1
  k0_pay1 (k0_pay22 cB1) (k0_pay23 cW2) (k0_pay24 cB2) (k0_pay25 g0 g1 n01 n10 uW1_1 uB1_1 uW2_1 uB2_1 cW1)

end Cert.KernelIdeal.Hand

end
-- ==== Proof.FrameKI.lean ====
import proofs.«176915_j43782896615991_2_alg».proof.Proof.StoredKI
import proofs.«176915_j43782896615991_2_alg».proof.Proof.Gen.KernelIdeal.Launch
import proofs.«176915_j43782896615991_2_alg».proof.Proof.Gen.KernelIdeal.Points
import Idealize.ShloMosaic.Lib.Pipeline.FrameBody
import Idealize.ShloMosaic.Lib.Pipeline.FrameSuffix
import Idealize.ShloMosaic.Lib.Tactic

/-!
# The program runs to its end and leaves its arguments alone

The entry function is thirty host operations (slices, reshapes, transposes, broadcasts and one three-operand
concatenation), one pipelined region over a grid of 128 points with 24 windows, and one closing reshape. This
module proves that every weakly fair execution terminates without a fault and that all 24 argument arrays end
with the contents they were launched with.

The argument is the standard one for a body that only loads its inputs and overwrites its output:

* no host operation writes an argument array, before or after the region, and no window of the region stages an
  argument array (each window stages the RESULT of a host operation), so the arguments bypass the region;
* at every grid point each input window's staging buffer holds that window's block of its array — whether the
  block was fetched at this point (the three streamed windows) or at the first point only (the twenty weight and
  bias windows, whose block index never moves);
* the body reads the 23 input buffers, reads the output buffer once without using what it read, and overwrites the
  whole output buffer by ONE store; so the output buffer ends at a function `out0_23` of the input blocks alone,
  and the input buffers end as they were found.

`out0_23` is stated through `stored`, the stored value as a function of the 31 loaded values, so that a claim
about the VALUE the program computes can start from this module's run.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What core `c`'s buffers hold when the region starts: the launch contents `m` pushed through the thirty host
    operations that precede it. -/
abbrev V0 (c : Dev nD) : Valuation τ sig (Elt F) := StableHlo.after (List.flatten [hostOps0]) (fun b => m (c, b))
/-- `V0` at one TensorCore buffer. -/
abbrev V (c : Dev nD) (b : Ref sig .tc) : Buf (Elt F) ((c : Thread nD τ).loc b) := V0 m c (Proc.devRef .tc b)

/-- None of the operations before the region allocates. -/
theorem before_allocs_nothing : (hostOps0 : List (HloOp τ sig (Elt F))).Forall fun op => op.fresh = ∅ := by
  simp only [List.Forall]; repeat' constructor
/-- Nor does the reshape after it. -/
theorem after_allocs_nothing : (hostOps1 : List (HloOp τ sig (Elt F))).Forall fun op => op.fresh = ∅ := by
  simp only [List.Forall]; repeat' constructor

/-- The entry function is: the operations before the region, the region, and then a continuation that is just the
    closing reshape. So running it reduces to running the region from `V` and continuing with that reshape. -/
theorem main_around (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_allocs_nothing) main_chain

/-- The closing reshape touches only unscoped TensorCore buffers; with nothing prefetched these are exactly the
    buffers an operation after the region may touch (a window's array or a buffer that bypasses the region). -/
theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_allocs_nothing : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_allocs_nothing) op hop
/-- It writes its own result buffer, which is no window's array: the arrays keep what the region left in them. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.unary_writes, StableHlo.reshape_writes, StableHlo.nary_writes, Finset.mem_singleton] <;> exact StableHlo.devRef_ne_of_ne (by decide)

/-! ## The argument arrays bypass everything

Each host operation writes exactly one buffer, its result `main_vK`; an argument `main_argK` is a different buffer. So
the value of an argument array after the operations before the region is its launch value (`V_main_argK`), and the
same holds after the region and the closing reshape (`W_main_argK`), the region's own writes going to the windows'
arrays, none of which is an argument. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg20 (dats : (p : Fin _) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_main_arg20 m c
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg22 (dats : (p : Fin _) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) := by
  unfold Pipeline.afterTail₀
  rw [StableHlo.after_of_forall_not_mem (b := Proc.devRef .tc main_arg22) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg22 (by exact (by decide : ∀ w, Pipeline.arrRef spec0 w ≠ main_arg22))]
  exact V_main_arg22 m c
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))
theorem W_main_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg23 (by exact (by decide : ∀ w, Pipeline.arrRef spec0 w ≠ main_arg23))]
  exact V_main_arg23 m c

/-! ## The blocks the body is handed -/

/-- Window `w`'s block at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds the window's block at every point. At a point that fetches the
window this is what a fetch does. At a point that does not, the window's block index is the previous point's, and
the body left the buffer as it found it, so by induction it still holds the block. The statement is for any proof
data whose array for the window is `V`'s and whose body keeps the block in place. -/

theorem found_0 {c : Dev nD} (dat : Dat τ (Elt F) Unit ℕ (UR sig nD τ) ℕ cfg0 c) (hA : dat.A 0 = V m c (Pipeline.arrRef spec0 0))
    (hkept : ∀ t, dat.after 0 t = iblk m c 0 t) (t : Fin cfg0.N) (d) : dat.before 0 t d = iblk m c 0 t :=
  (dat.before_in_eq_fetched 0 rfl (fun _ => rfl) (fun _ _ _ => rfl)
    (fun t => by rw [hkept]; unfold Dat.blockOf iblk; rw [hA]; try rfl) t d).trans
    (by unfold Dat.fetched Dat.blockOf iblk; rw [hA]; try rfl)
theorem found_1 {c : Dev nD} (dat : Dat τ (Elt F) Unit ℕ (UR sig nD τ) ℕ cfg0 c) (hA : dat.A 1 = V m c (Pipeline.arrRef spec0 1))
    (hkept : ∀ t, dat.after 1 t = iblk m c 1 t) (t : Fin cfg0.N) (d) : dat.before 1 t d = iblk m c 1 t :=
  (dat.before_in_eq_fetched 1 rfl (fun _ => rfl) (fun _ _ _ => rfl)
    (fun t => by rw [hkept]; unfold Dat.blockOf iblk; rw [hA]; try rfl) t d).trans
    (by unfold Dat.fetched Dat.blockOf iblk; rw [hA]; try rfl)
theorem found_2 {c : Dev nD} (dat : Dat τ (Elt F) Unit ℕ (UR sig nD τ) ℕ cfg0 c) (hA : dat.A 2 = V m c (Pipeline.arrRef spec0 2))
    (hkept : ∀ t, dat.after 2 t = iblk m c 2 t) (t : Fin cfg0.N) (d) : dat.before 2 t d = iblk m c 2 t :=
  (dat.before_in_eq_fetched 2 rfl (fun _ => rfl) (fun _ _ _ => rfl)
    (fun t => by rw [hkept]; unfold Dat.blockOf iblk; rw [hA]; try rfl) t d).trans
    (by unfold Dat.fetched Dat.blockOf iblk; rw [hA]; try rfl)
theorem found_3 {c : Dev nD} (dat : Dat τ (Elt F) Unit ℕ (UR sig nD τ) ℕ cfg0 c) (hA : dat.A 3 = V m c (Pipeline.arrRef spec0 3))
    (hkept : ∀ t, dat.after 3 t = iblk m c 3 t) (t : Fin cfg0.N) (d) : dat.before 3 t d = iblk m c 3 t :=
  (dat.before_in_eq_fetched 3 rfl (fun _ => rfl) (fun _ _ _ => rfl)
    (fun t => by rw [hkept]; unfold Dat.blockOf iblk; rw [hA]; try rfl) t d).trans
    (by unfold Dat.fetched Dat.blockOf iblk; rw [hA]; try rfl)
theorem found_4 {c : Dev nD} (dat : Dat τ (Elt F) Unit ℕ (UR sig nD τ) ℕ cfg0 c) (hA : dat.A 4 = V m c (Pipeline.arrRef spec0 4))
    (hkept : ∀ t, dat.after 4 t = iblk m c 4 t) (t : Fin cfg0.N) (d) : dat.before 4 t d = iblk m c 4 t :=
  (dat.before_in_eq_fetched 4 rfl (fun _ => rfl) (fun _ _ _ => rfl)
    (fun t => by rw [hkept]; unfold Dat.blockOf iblk; rw [hA]; try rfl) t d).trans
    (by unfold Dat.fetched Dat.blockOf iblk; rw [hA]; try rfl)
theorem found_5 {c : Dev nD} (dat : Dat τ (Elt F) Unit ℕ (UR sig nD τ) ℕ cfg0 c) (hA : dat.A 5 = V m c (Pipeline.arrRef spec0 5))
    (hkept : ∀ t, dat.after 5 t = iblk m c 5 t) (t : Fin cfg0.N) (d) : dat.before 5 t d = iblk m c 5 t :=
  (dat.before_in_eq_fetched 5 rfl (fun _ => rfl) (fun _ _ _ => rfl)
    (fun t => by rw [hkept]; unfold Dat.blockOf iblk; rw [hA]; try rfl) t d).trans
    (by unfold Dat.fetched Dat.blockOf iblk; rw [hA]; try rfl)
theorem found_6 {c : Dev nD} (dat : Dat τ (Elt F) Unit ℕ (UR sig nD τ) ℕ cfg0 c) (hA : dat.A 6 = V m c (Pipeline.arrRef spec0 6))
    (hkept : ∀ t, dat.after 6 t = iblk m c 6 t) (t : Fin cfg0.N) (d) : dat.before 6 t d = iblk m c 6 t :=
  (dat.before_in_eq_fetched 6 rfl (fun _ => rfl) (fun _ _ _ => rfl)
    (fun t => by rw [hkept]; unfold Dat.blockOf iblk; rw [hA]; try rfl) t d).trans
    (by unfold Dat.fetched Dat.blockOf iblk; rw [hA]; try rfl)
theorem found_7 {c : Dev nD} (dat : Dat τ (Elt F) Unit ℕ (UR sig nD τ) ℕ cfg0 c) (hA : dat.A 7 = V m c (Pipeline.arrRef spec0 7))
    (hkept : ∀ t, dat.after 7 t = iblk m c 7 t) (t : Fin cfg0.N) (d) : dat.before 7 t d = iblk m c 7 t :=
  (dat.before_in_eq_fetched 7 rfl (fun _ => rfl) (fun _ _ _ => rfl)
    (fun t => by rw [hkept]; unfold Dat.blockOf iblk; rw [hA]; try rfl) t d).trans
    (by unfold Dat.fetched Dat.blockOf iblk; rw [hA]; try rfl)
theorem found_8 {c : Dev nD} (dat : Dat τ (Elt F) Unit ℕ (UR sig nD τ) ℕ cfg0 c) (hA : dat.A 8 = V m c (Pipeline.arrRef spec0 8))
    (hkept : ∀ t, dat.after 8 t = iblk m c 8 t) (t : Fin cfg0.N) (d) : dat.before 8 t d = iblk m c 8 t :=
  (dat.before_in_eq_fetched 8 rfl (fun _ => rfl) (fun _ _ _ => rfl)
    (fun t => by rw [hkept]; unfold Dat.blockOf iblk; rw [hA]; try rfl) t d).trans
    (by unfold Dat.fetched Dat.blockOf iblk; rw [hA]; try rfl)
theorem found_9 {c : Dev nD} (dat : Dat τ (Elt F) Unit ℕ (UR sig nD τ) ℕ cfg0 c) (hA : dat.A 9 = V m c (Pipeline.arrRef spec0 9))
    (hkept : ∀ t, dat.after 9 t = iblk m c 9 t) (t : Fin cfg0.N) (d) : dat.before 9 t d = iblk m c 9 t :=
  (dat.before_in_eq_fetched 9 rfl (fun _ => rfl) (fun _ _ _ => rfl)
    (fun t => by rw [hkept]; unfold Dat.blockOf iblk; rw [hA]; try rfl) t d).trans
    (by unfold Dat.fetched Dat.blockOf iblk; rw [hA]; try rfl)
theorem found_10 {c : Dev nD} (dat : Dat τ (Elt F) Unit ℕ (UR sig nD τ) ℕ cfg0 c) (hA : dat.A 10 = V m c (Pipeline.arrRef spec0 10))
    (hkept : ∀ t, dat.after 10 t = iblk m c 10 t) (t : Fin cfg0.N) (d) : dat.before 10 t d = iblk m c 10 t :=
  (dat.before_in_eq_fetched 10 rfl (fun _ => rfl) (fun _ _ _ => rfl)
    (fun t => by rw [hkept]; unfold Dat.blockOf iblk; rw [hA]; try rfl) t d).trans
    (by unfold Dat.fetched Dat.blockOf iblk; rw [hA]; try rfl)
theorem found_11 {c : Dev nD} (dat : Dat τ (Elt F) Unit ℕ (UR sig nD τ) ℕ cfg0 c) (hA : dat.A 11 = V m c (Pipeline.arrRef spec0 11))
    (hkept : ∀ t, dat.after 11 t = iblk m c 11 t) (t : Fin cfg0.N) (d) : dat.before 11 t d = iblk m c 11 t :=
  (dat.before_in_eq_fetched 11 rfl (fun _ => rfl) (fun _ _ _ => rfl)
    (fun t => by rw [hkept]; unfold Dat.blockOf iblk; rw [hA]; try rfl) t d).trans
    (by unfold Dat.fetched Dat.blockOf iblk; rw [hA]; try rfl)
theorem found_12 {c : Dev nD} (dat : Dat τ (Elt F) Unit ℕ (UR sig nD τ) ℕ cfg0 c) (hA : dat.A 12 = V m c (Pipeline.arrRef spec0 12))
    (hkept : ∀ t, dat.after 12 t = iblk m c 12 t) (t : Fin cfg0.N) (d) : dat.before 12 t d = iblk m c 12 t :=
  (dat.before_in_eq_fetched 12 rfl (fun _ => rfl) (fun _ _ _ => rfl)
    (fun t => by rw [hkept]; unfold Dat.blockOf iblk; rw [hA]; try rfl) t d).trans
    (by unfold Dat.fetched Dat.blockOf iblk; rw [hA]; try rfl)
theorem found_13 {c : Dev nD} (dat : Dat τ (Elt F) Unit ℕ (UR sig nD τ) ℕ cfg0 c) (hA : dat.A 13 = V m c (Pipeline.arrRef spec0 13))
    (hkept : ∀ t, dat.after 13 t = iblk m c 13 t) (t : Fin cfg0.N) (d) : dat.before 13 t d = iblk m c 13 t :=
  (dat.before_in_eq_fetched 13 rfl (fun _ => rfl) (fun _ _ _ => rfl)
    (fun t => by rw [hkept]; unfold Dat.blockOf iblk; rw [hA]; try rfl) t d).trans
    (by unfold Dat.fetched Dat.blockOf iblk; rw [hA]; try rfl)
theorem found_14 {c : Dev nD} (dat : Dat τ (Elt F) Unit ℕ (UR sig nD τ) ℕ cfg0 c) (hA : dat.A 14 = V m c (Pipeline.arrRef spec0 14))
    (hkept : ∀ t, dat.after 14 t = iblk m c 14 t) (t : Fin cfg0.N) (d) : dat.before 14 t d = iblk m c 14 t :=
  (dat.before_in_eq_fetched 14 rfl (fun _ => rfl) (fun _ _ _ => rfl)
    (fun t => by rw [hkept]; unfold Dat.blockOf iblk; rw [hA]; try rfl) t d).trans
    (by unfold Dat.fetched Dat.blockOf iblk; rw [hA]; try rfl)
theorem found_15 {c : Dev nD} (dat : Dat τ (Elt F) Unit ℕ (UR sig nD τ) ℕ cfg0 c) (hA : dat.A 15 = V m c (Pipeline.arrRef spec0 15))
    (hkept : ∀ t, dat.after 15 t = iblk m c 15 t) (t : Fin cfg0.N) (d) : dat.before 15 t d = iblk m c 15 t :=
  (dat.before_in_eq_fetched 15 rfl (fun _ => rfl) (fun _ _ _ => rfl)
    (fun t => by rw [hkept]; unfold Dat.blockOf iblk; rw [hA]; try rfl) t d).trans
    (by unfold Dat.fetched Dat.blockOf iblk; rw [hA]; try rfl)
theorem found_16 {c : Dev nD} (dat : Dat τ (Elt F) Unit ℕ (UR sig nD τ) ℕ cfg0 c) (hA : dat.A 16 = V m c (Pipeline.arrRef spec0 16))
    (hkept : ∀ t, dat.after 16 t = iblk m c 16 t) (t : Fin cfg0.N) (d) : dat.before 16 t d = iblk m c 16 t :=
  (dat.before_in_eq_fetched 16 rfl (fun _ => rfl) (fun _ _ _ => rfl)
    (fun t => by rw [hkept]; unfold Dat.blockOf iblk; rw [hA]; try rfl) t d).trans
    (by unfold Dat.fetched Dat.blockOf iblk; rw [hA]; try rfl)
theorem found_17 {c : Dev nD} (dat : Dat τ (Elt F) Unit ℕ (UR sig nD τ) ℕ cfg0 c) (hA : dat.A 17 = V m c (Pipeline.arrRef spec0 17))
    (hkept : ∀ t, dat.after 17 t = iblk m c 17 t) (t : Fin cfg0.N) (d) : dat.before 17 t d = iblk m c 17 t :=
  (dat.before_in_eq_fetched 17 rfl (fun _ => rfl) (fun _ _ _ => rfl)
    (fun t => by rw [hkept]; unfold Dat.blockOf iblk; rw [hA]; try rfl) t d).trans
    (by unfold Dat.fetched Dat.blockOf iblk; rw [hA]; try rfl)
theorem found_18 {c : Dev nD} (dat : Dat τ (Elt F) Unit ℕ (UR sig nD τ) ℕ cfg0 c) (hA : dat.A 18 = V m c (Pipeline.arrRef spec0 18))
    (hkept : ∀ t, dat.after 18 t = iblk m c 18 t) (t : Fin cfg0.N) (d) : dat.before 18 t d = iblk m c 18 t :=
  (dat.before_in_eq_fetched 18 rfl (fun _ => rfl) (fun _ _ _ => rfl)
    (fun t => by rw [hkept]; unfold Dat.blockOf iblk; rw [hA]; try rfl) t d).trans
    (by unfold Dat.fetched Dat.blockOf iblk; rw [hA]; try rfl)
theorem found_19 {c : Dev nD} (dat : Dat τ (Elt F) Unit ℕ (UR sig nD τ) ℕ cfg0 c) (hA : dat.A 19 = V m c (Pipeline.arrRef spec0 19))
    (hkept : ∀ t, dat.after 19 t = iblk m c 19 t) (t : Fin cfg0.N) (d) : dat.before 19 t d = iblk m c 19 t :=
  (dat.before_in_eq_fetched 19 rfl (fun _ => rfl) (fun _ _ _ => rfl)
    (fun t => by rw [hkept]; unfold Dat.blockOf iblk; rw [hA]; try rfl) t d).trans
    (by unfold Dat.fetched Dat.blockOf iblk; rw [hA]; try rfl)
theorem found_20 {c : Dev nD} (dat : Dat τ (Elt F) Unit ℕ (UR sig nD τ) ℕ cfg0 c) (hA : dat.A 20 = V m c (Pipeline.arrRef spec0 20))
    (hkept : ∀ t, dat.after 20 t = iblk m c 20 t) (t : Fin cfg0.N) (d) : dat.before 20 t d = iblk m c 20 t :=
  (dat.before_in_eq_fetched 20 rfl (fun _ => rfl) (fun _ _ _ => rfl)
    (fun t => by rw [hkept]; unfold Dat.blockOf iblk; rw [hA]; try rfl) t d).trans
    (by unfold Dat.fetched Dat.blockOf iblk; rw [hA]; try rfl)
theorem found_21 {c : Dev nD} (dat : Dat τ (Elt F) Unit ℕ (UR sig nD τ) ℕ cfg0 c) (hA : dat.A 21 = V m c (Pipeline.arrRef spec0 21))
    (hkept : ∀ t, dat.after 21 t = iblk m c 21 t) (t : Fin cfg0.N) (d) : dat.before 21 t d = iblk m c 21 t :=
  (dat.before_in_eq_fetched 21 rfl (fun _ => rfl) (fun _ _ _ => rfl)
    (fun t => by rw [hkept]; unfold Dat.blockOf iblk; rw [hA]; try rfl) t d).trans
    (by unfold Dat.fetched Dat.blockOf iblk; rw [hA]; try rfl)
theorem found_22 {c : Dev nD} (dat : Dat τ (Elt F) Unit ℕ (UR sig nD τ) ℕ cfg0 c) (hA : dat.A 22 = V m c (Pipeline.arrRef spec0 22))
    (hkept : ∀ t, dat.after 22 t = iblk m c 22 t) (t : Fin cfg0.N) (d) : dat.before 22 t d = iblk m c 22 t :=
  (dat.before_in_eq_fetched 22 rfl (fun _ => rfl) (fun _ _ _ => rfl)
    (fun t => by rw [hkept]; unfold Dat.blockOf iblk; rw [hA]; try rfl) t d).trans
    (by unfold Dat.fetched Dat.blockOf iblk; rw [hA]; try rfl)

/-! ## From a run of the region to the claim about the arguments -/

/-- Suppose the entry function runs to a state in which every window's array holds what the proof data say and every
    buffer that bypasses the region holds what the closing reshape leaves of its region-entry contents. Each of the 24
    arguments is unscoped and is no window's array, so it is such a bypassing buffer, and by `W_main_argK` it holds its
    launch contents. -/
theorem frame_from_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c),
      ((h c).2 main_arg14 (Pipeline.mem_restRefs_of main_arg14 (by decide) (by decide))).trans (W_main_arg14 m dats c),
      ((h c).2 main_arg15 (Pipeline.mem_restRefs_of main_arg15 (by decide) (by decide))).trans (W_main_arg15 m dats c),
      ((h c).2 main_arg16 (Pipeline.mem_restRefs_of main_arg16 (by decide) (by decide))).trans (W_main_arg16 m dats c),
      ((h c).2 main_arg17 (Pipeline.mem_restRefs_of main_arg17 (by decide) (by decide))).trans (W_main_arg17 m dats c),
      ((h c).2 main_arg18 (Pipeline.mem_restRefs_of main_arg18 (by decide) (by decide))).trans (W_main_arg18 m dats c),
      ((h c).2 main_arg19 (Pipeline.mem_restRefs_of main_arg19 (by decide) (by decide))).trans (W_main_arg19 m dats c),
      ((h c).2 main_arg20 (Pipeline.mem_restRefs_of main_arg20 (by decide) (by decide))).trans (W_main_arg20 m dats c),
      ((h c).2 main_arg21 (Pipeline.mem_restRefs_of main_arg21 (by decide) (by decide))).trans (W_main_arg21 m dats c),
      ((h c).2 main_arg22 (Pipeline.mem_restRefs_of main_arg22 (by decide) (by decide))).trans (W_main_arg22 m dats c),
      ((h c).2 main_arg23 (Pipeline.mem_restRefs_of main_arg23 (by decide) (by decide))).trans (W_main_arg23 m dats c)⟩) h

/-! ## The rectangles the body loads and stores through

Every two-dimensional buffer is read (and the output written) whole. The eight stacked weight and bias buffers of
the message and update perceptrons hold two layers along their leading axis; the body reads layer 0 and layer 1
of each separately. -/

abbrev all_S2x8192 : Rect S2x8192 := Rect.unit (s := S2x8192) ![0, 0] S2x8192.size inb_S2x8192_S2x8192_0_0
abbrev all_S3x8192 : Rect S3x8192 := Rect.unit (s := S3x8192) ![0, 0] S3x8192.size inb_S3x8192_S3x8192_0_0
abbrev all_S16x2 : Rect S16x2 := Rect.unit (s := S16x2) ![0, 0] S16x2.size inb_S16x2_S16x2_0_0
abbrev all_S16x1 : Rect S16x1 := Rect.unit (s := S16x1) ![0, 0] S16x1.size inb_S16x1_S16x1_0_0
abbrev all_S16x16 : Rect S16x16 := Rect.unit (s := S16x16) ![0, 0] S16x16.size inb_S16x16_S16x16_0_0
abbrev all_S16x3 : Rect S16x3 := Rect.unit (s := S16x3) ![0, 0] S16x3.size inb_S16x3_S16x3_0_0
abbrev all_S1x16 : Rect S1x16 := Rect.unit (s := S1x16) ![0, 0] S1x16.size inb_S1x16_S1x16_0_0
abbrev all_S1x1 : Rect S1x1 := Rect.unit (s := S1x1) ![0, 0] S1x1.size inb_S1x1_S1x1_0_0
abbrev all_S1x8192 : Rect S1x8192 := Rect.unit (s := S1x8192) ![0, 0] S1x8192.size inb_S1x8192_S1x8192_0_0
abbrev layer0_S2x16x48 : Rect S2x16x48 := Rect.unit (s := S2x16x48) ![0, 0, 0] S1x16x48.size inb_S2x16x48_S1x16x48_0_0_0
abbrev layer1_S2x16x48 : Rect S2x16x48 := Rect.unit (s := S2x16x48) ![1, 0, 0] S1x16x48.size inb_S2x16x48_S1x16x48_1_0_0
abbrev layer0_S2x16x1 : Rect S2x16x1 := Rect.unit (s := S2x16x1) ![0, 0, 0] S1x16x1.size inb_S2x16x1_S1x16x1_0_0_0
abbrev layer1_S2x16x1 : Rect S2x16x1 := Rect.unit (s := S2x16x1) ![1, 0, 0] S1x16x1.size inb_S2x16x1_S1x16x1_1_0_0
abbrev layer0_S2x16x16 : Rect S2x16x16 := Rect.unit (s := S2x16x16) ![0, 0, 0] S1x16x16.size inb_S2x16x16_S1x16x16_0_0_0
abbrev layer1_S2x16x16 : Rect S2x16x16 := Rect.unit (s := S2x16x16) ![1, 0, 0] S1x16x16.size inb_S2x16x16_S1x16x16_1_0_0
abbrev layer0_S2x16x32 : Rect S2x16x32 := Rect.unit (s := S2x16x32) ![0, 0, 0] S1x16x32.size inb_S2x16x32_S1x16x32_0_0_0
abbrev layer1_S2x16x32 : Rect S2x16x32 := Rect.unit (s := S2x16x32) ![1, 0, 0] S1x16x32.size inb_S2x16x32_S1x16x32_1_0_0

/-! ## What the body leaves in the output buffer -/

/-- The output staging buffer after the body, as a function of what the 23 input staging buffers read: the body's
    single store, through the whole-buffer rectangle, of `stored` applied to the 31 loaded values (each a read of
    an input buffer through the rectangle of that load). -/
def out0_23 (x0 : Vec F S2x8192 .f32) (x1 : Vec F S2x8192 .f32) (x2 : Vec F S3x8192 .f32) (x3 : Vec F S16x2 .f32) (x4 : Vec F S16x1 .f32) (x5 : Vec F S16x16 .f32) (x6 : Vec F S16x1 .f32) (x7 : Vec F S16x3 .f32) (x8 : Vec F S16x1 .f32) (x9 : Vec F S16x16 .f32) (x10 : Vec F S16x1 .f32) (x11 : Vec F S2x16x48 .f32) (x12 : Vec F S2x16x1 .f32) (x13 : Vec F S2x16x16 .f32) (x14 : Vec F S2x16x1 .f32) (x15 : Vec F S2x16x32 .f32) (x16 : Vec F S2x16x1 .f32) (x17 : Vec F S2x16x16 .f32) (x18 : Vec F S2x16x1 .f32) (x19 : Vec F S16x16 .f32) (x20 : Vec F S16x1 .f32) (x21 : Vec F S1x16 .f32) (x22 : Vec F S1x1 .f32) : Vec F S1x8192 .f32 :=
  View.canon [⟨all_S1x8192, stored (View.ld x0 all_S2x8192) (View.ld x1 all_S2x8192) (View.ld x2 all_S3x8192) (View.ld x3 all_S16x2) (View.ld x4 all_S16x1) (View.ld x5 all_S16x16) (View.ld x6 all_S16x1) (View.ld x7 all_S16x3) (View.ld x8 all_S16x1) (View.ld x9 all_S16x16) (View.ld x10 all_S16x1) (View.ld x11 layer0_S2x16x48) (View.ld x12 layer0_S2x16x1) (View.ld x13 layer0_S2x16x16) (View.ld x14 layer0_S2x16x1) (View.ld x15 layer0_S2x16x32) (View.ld x16 layer0_S2x16x1) (View.ld x17 layer0_S2x16x16) (View.ld x18 layer0_S2x16x1) (View.ld x11 layer1_S2x16x48) (View.ld x12 layer1_S2x16x1) (View.ld x13 layer1_S2x16x16) (View.ld x14 layer1_S2x16x1) (View.ld x15 layer1_S2x16x32) (View.ld x16 layer1_S2x16x1) (View.ld x17 layer1_S2x16x16) (View.ld x18 layer1_S2x16x1) (View.ld x19 all_S16x16) (View.ld x20 all_S16x1) (View.ld x21 all_S1x16) (View.ld x22 all_S1x1)⟩]

/-- One store through the whole-buffer rectangle covers the buffer, whatever it stores. -/
theorem store_covers (p : Vec F S1x8192 .f32) (y : S1x8192.Idx) :
    ∃ pc ∈ ([⟨all_S1x8192, p⟩] : List (View.Piece (Elt F) S1x8192 .f32)), y ∈ pc.1.set :=
  View.cover_of_tiled [⟨all_S1x8192, p⟩] S1x8192.size (by rfl) y

/-! ## The body -/

set_option maxHeartbeats 4000000 in
/-- The body, called on whole staging buffers with the 23 inputs reading `x0 … x22` and the output holding
    anything, runs without a fault to its return; it hands back the inputs as they were and the output reading
    `out0_23 x0 … x22`. The four printed parts only load and compute, so the run is: 31 loads (values of the inputs),
    a load of the output that nothing uses, and one store covering the output. -/
theorem body_triple (c : Dev nD) (E : Set ℕ) (i : grid0.Coords)
    (arg1 : Memref sig .tc .vmem S2x8192 .f32) (harg1 : arg1.IsWhole)
    (arg2 : Memref sig .tc .vmem S2x8192 .f32) (harg2 : arg2.IsWhole)
    (arg3 : Memref sig .tc .vmem S3x8192 .f32) (harg3 : arg3.IsWhole)
    (arg4 : Memref sig .tc .vmem S16x2 .f32) (harg4 : arg4.IsWhole)
    (arg5 : Memref sig .tc .vmem S16x1 .f32) (harg5 : arg5.IsWhole)
    (arg6 : Memref sig .tc .vmem S16x16 .f32) (harg6 : arg6.IsWhole)
    (arg7 : Memref sig .tc .vmem S16x1 .f32) (harg7 : arg7.IsWhole)
    (arg8 : Memref sig .tc .vmem S16x3 .f32) (harg8 : arg8.IsWhole)
    (arg9 : Memref sig .tc .vmem S16x1 .f32) (harg9 : arg9.IsWhole)
    (arg10 : Memref sig .tc .vmem S16x16 .f32) (harg10 : arg10.IsWhole)
    (arg11 : Memref sig .tc .vmem S16x1 .f32) (harg11 : arg11.IsWhole)
    (arg12 : Memref sig .tc .vmem S2x16x48 .f32) (harg12 : arg12.IsWhole)
    (arg13 : Memref sig .tc .vmem S2x16x1 .f32) (harg13 : arg13.IsWhole)
    (arg14 : Memref sig .tc .vmem S2x16x16 .f32) (harg14 : arg14.IsWhole)
    (arg15 : Memref sig .tc .vmem S2x16x1 .f32) (harg15 : arg15.IsWhole)
    (arg16 : Memref sig .tc .vmem S2x16x32 .f32) (harg16 : arg16.IsWhole)
    (arg17 : Memref sig .tc .vmem S2x16x1 .f32) (harg17 : arg17.IsWhole)
    (arg18 : Memref sig .tc .vmem S2x16x16 .f32) (harg18 : arg18.IsWhole)
    (arg19 : Memref sig .tc .vmem S2x16x1 .f32) (harg19 : arg19.IsWhole)
    (arg20 : Memref sig .tc .vmem S16x16 .f32) (harg20 : arg20.IsWhole)
    (arg21 : Memref sig .tc .vmem S16x1 .f32) (harg21 : arg21.IsWhole)
    (arg22 : Memref sig .tc .vmem S1x16 .f32) (harg22 : arg22.IsWhole)
    (arg23 : Memref sig .tc .vmem S1x1 .f32) (harg23 : arg23.IsWhole)
    (arg24 : Memref sig .tc .vmem S1x8192 .f32) (harg24 : arg24.IsWhole)
    (x0 : Vec F S2x8192 .f32) (x1 : Vec F S2x8192 .f32) (x2 : Vec F S3x8192 .f32) (x3 : Vec F S16x2 .f32) (x4 : Vec F S16x1 .f32) (x5 : Vec F S16x16 .f32) (x6 : Vec F S16x1 .f32) (x7 : Vec F S16x3 .f32) (x8 : Vec F S16x1 .f32) (x9 : Vec F S16x16 .f32) (x10 : Vec F S16x1 .f32) (x11 : Vec F S2x16x48 .f32) (x12 : Vec F S2x16x1 .f32) (x13 : Vec F S2x16x16 .f32) (x14 : Vec F S2x16x1 .f32) (x15 : Vec F S2x16x32 .f32) (x16 : Vec F S2x16x1 .f32) (x17 : Vec F S2x16x16 .f32) (x18 : Vec F S2x16x1 .f32) (x19 : Vec F S16x16 .f32) (x20 : Vec F S16x1 .f32) (x21 : Vec F S1x16 .f32) (x22 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ owns (c : Thread nD τ) arg18 fullShare x17
        ∗ owns (c : Thread nD τ) arg19 fullShare x18
        ∗ owns (c : Thread nD τ) arg20 fullShare x19
        ∗ owns (c : Thread nD τ) arg21 fullShare x20
        ∗ owns (c : Thread nD τ) arg22 fullShare x21
        ∗ owns (c : Thread nD τ) arg23 fullShare x22
        ∗ (∃ d, owns (c : Thread nD τ) arg24 fullShare d)
        ∗ (iprop(owns (c : Thread nD τ) arg1 fullShare x0
              ∗ owns (c : Thread nD τ) arg2 fullShare x1
              ∗ owns (c : Thread nD τ) arg3 fullShare x2
              ∗ owns (c : Thread nD τ) arg4 fullShare x3
              ∗ owns (c : Thread nD τ) arg5 fullShare x4
              ∗ owns (c : Thread nD τ) arg6 fullShare x5
              ∗ owns (c : Thread nD τ) arg7 fullShare x6
              ∗ owns (c : Thread nD τ) arg8 fullShare x7
              ∗ owns (c : Thread nD τ) arg9 fullShare x8
              ∗ owns (c : Thread nD τ) arg10 fullShare x9
              ∗ owns (c : Thread nD τ) arg11 fullShare x10
              ∗ owns (c : Thread nD τ) arg12 fullShare x11
              ∗ owns (c : Thread nD τ) arg13 fullShare x12
              ∗ owns (c : Thread nD τ) arg14 fullShare x13
              ∗ owns (c : Thread nD τ) arg15 fullShare x14
              ∗ owns (c : Thread nD τ) arg16 fullShare x15
              ∗ owns (c : Thread nD τ) arg17 fullShare x16
              ∗ owns (c : Thread nD τ) arg18 fullShare x17
              ∗ owns (c : Thread nD τ) arg19 fullShare x18
              ∗ owns (c : Thread nD τ) arg20 fullShare x19
              ∗ owns (c : Thread nD τ) arg21 fullShare x20
              ∗ owns (c : Thread nD τ) arg22 fullShare x21
              ∗ owns (c : Thread nD τ) arg23 fullShare x22
              ∗ owns (c : Thread nD τ) arg24 fullShare (out0_23 x0 x1 x2 x3 x4 x5 x6 x7 x8 x9 x10 x11 x12 x13 x14 x15 x16 x17 x18 x19 x20 x21 x22)) -∗ K ⟨⟩))
      ⊢ wp frame (wpE (defs₀ (F := F)) Variants.none c none) E
          (cc0__egnn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__egnn_kernel_eq_skeleton]; unfold cc0__egnn_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  iexists _; isplitr
  swap; · iexact H23
  ipureintro
  try dsimp only
  exact View.read_writes_eq_canon _ _ _ (store_covers _)

/-! ## The proof data of the pipeline -/

/-- On core `c`: the windows' arrays are the region-entry contents; after the body at point `t` every input buffer
    holds its block and the output buffer holds `out0_23` of the input blocks; the invariant carried from point to
    point is the library's for a body that uses no scratch (the scoped rest and the generator register, untouched);
    full shares; nothing is owed to another core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 24, h⟩ => absurd h (Nat.not_lt.2 (Nat.le_add_left _ _))
  Φ _ := Pipeline.ΦA spec0 c
  q _ := fullShare
  owed _ := 0

/-- The proof data's arrays are `V`'s: a projection of the definition (the fold over the host operations that `V`
    abbreviates is never opened). -/
theorem A_eq (c : Dev nD) (w : Fin cfg0.W) : (dats m 0 c).A w = V m c (Pipeline.arrRef spec0 w) := by
  dsimp only [dats]

/-! What the body leaves, window by window: the proof data's `match` reduced at each literal window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) :
    (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

/-! So each input buffer is handed to the body holding its block (`found_W` at these proof data). -/
theorem held_0 (c : Dev nD) (t : Fin cfg0.N) (d) : (dats m 0 c).before 0 t d = iblk m c 0 t :=
  found_0 m (dats m 0 c) (A_eq m c 0) (after0_0 m c) t d
theorem held_1 (c : Dev nD) (t : Fin cfg0.N) (d) : (dats m 0 c).before 1 t d = iblk m c 1 t :=
  found_1 m (dats m 0 c) (A_eq m c 1) (after0_1 m c) t d
theorem held_2 (c : Dev nD) (t : Fin cfg0.N) (d) : (dats m 0 c).before 2 t d = iblk m c 2 t :=
  found_2 m (dats m 0 c) (A_eq m c 2) (after0_2 m c) t d
theorem held_3 (c : Dev nD) (t : Fin cfg0.N) (d) : (dats m 0 c).before 3 t d = iblk m c 3 t :=
  found_3 m (dats m 0 c) (A_eq m c 3) (after0_3 m c) t d
theorem held_4 (c : Dev nD) (t : Fin cfg0.N) (d) : (dats m 0 c).before 4 t d = iblk m c 4 t :=
  found_4 m (dats m 0 c) (A_eq m c 4) (after0_4 m c) t d
theorem held_5 (c : Dev nD) (t : Fin cfg0.N) (d) : (dats m 0 c).before 5 t d = iblk m c 5 t :=
  found_5 m (dats m 0 c) (A_eq m c 5) (after0_5 m c) t d
theorem held_6 (c : Dev nD) (t : Fin cfg0.N) (d) : (dats m 0 c).before 6 t d = iblk m c 6 t :=
  found_6 m (dats m 0 c) (A_eq m c 6) (after0_6 m c) t d
theorem held_7 (c : Dev nD) (t : Fin cfg0.N) (d) : (dats m 0 c).before 7 t d = iblk m c 7 t :=
  found_7 m (dats m 0 c) (A_eq m c 7) (after0_7 m c) t d
theorem held_8 (c : Dev nD) (t : Fin cfg0.N) (d) : (dats m 0 c).before 8 t d = iblk m c 8 t :=
  found_8 m (dats m 0 c) (A_eq m c 8) (after0_8 m c) t d
theorem held_9 (c : Dev nD) (t : Fin cfg0.N) (d) : (dats m 0 c).before 9 t d = iblk m c 9 t :=
  found_9 m (dats m 0 c) (A_eq m c 9) (after0_9 m c) t d
theorem held_10 (c : Dev nD) (t : Fin cfg0.N) (d) : (dats m 0 c).before 10 t d = iblk m c 10 t :=
  found_10 m (dats m 0 c) (A_eq m c 10) (after0_10 m c) t d
theorem held_11 (c : Dev nD) (t : Fin cfg0.N) (d) : (dats m 0 c).before 11 t d = iblk m c 11 t :=
  found_11 m (dats m 0 c) (A_eq m c 11) (after0_11 m c) t d
theorem held_12 (c : Dev nD) (t : Fin cfg0.N) (d) : (dats m 0 c).before 12 t d = iblk m c 12 t :=
  found_12 m (dats m 0 c) (A_eq m c 12) (after0_12 m c) t d
theorem held_13 (c : Dev nD) (t : Fin cfg0.N) (d) : (dats m 0 c).before 13 t d = iblk m c 13 t :=
  found_13 m (dats m 0 c) (A_eq m c 13) (after0_13 m c) t d
theorem held_14 (c : Dev nD) (t : Fin cfg0.N) (d) : (dats m 0 c).before 14 t d = iblk m c 14 t :=
  found_14 m (dats m 0 c) (A_eq m c 14) (after0_14 m c) t d
theorem held_15 (c : Dev nD) (t : Fin cfg0.N) (d) : (dats m 0 c).before 15 t d = iblk m c 15 t :=
  found_15 m (dats m 0 c) (A_eq m c 15) (after0_15 m c) t d
theorem held_16 (c : Dev nD) (t : Fin cfg0.N) (d) : (dats m 0 c).before 16 t d = iblk m c 16 t :=
  found_16 m (dats m 0 c) (A_eq m c 16) (after0_16 m c) t d
theorem held_17 (c : Dev nD) (t : Fin cfg0.N) (d) : (dats m 0 c).before 17 t d = iblk m c 17 t :=
  found_17 m (dats m 0 c) (A_eq m c 17) (after0_17 m c) t d
theorem held_18 (c : Dev nD) (t : Fin cfg0.N) (d) : (dats m 0 c).before 18 t d = iblk m c 18 t :=
  found_18 m (dats m 0 c) (A_eq m c 18) (after0_18 m c) t d
theorem held_19 (c : Dev nD) (t : Fin cfg0.N) (d) : (dats m 0 c).before 19 t d = iblk m c 19 t :=
  found_19 m (dats m 0 c) (A_eq m c 19) (after0_19 m c) t d
theorem held_20 (c : Dev nD) (t : Fin cfg0.N) (d) : (dats m 0 c).before 20 t d = iblk m c 20 t :=
  found_20 m (dats m 0 c) (A_eq m c 20) (after0_20 m c) t d
theorem held_21 (c : Dev nD) (t : Fin cfg0.N) (d) : (dats m 0 c).before 21 t d = iblk m c 21 t :=
  found_21 m (dats m 0 c) (A_eq m c 21) (after0_21 m c) t d
theorem held_22 (c : Dev nD) (t : Fin cfg0.N) (d) : (dats m 0 c).before 22 t d = iblk m c 22 t :=
  found_22 m (dats m 0 c) (A_eq m c 22) (after0_22 m c) t d

/-! ## The body's obligation at a grid point -/

/-- What the pipeline hands the body at point `t`: the invariant, what the core owes, and each window's current
    staging buffer at what it holds before the body (the output's at anything it may hold). -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- What it takes back: the same invariant and debt, each buffer at what the proof data say the body leaves. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

set_option maxHeartbeats 1000000 in
/-- At any point the inputs' buffers hold their blocks (`held_W`), so `body_triple` applies at those blocks; the
    invariant and the debt are not touched by the body and pass through. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [held_0, held_1, held_2, held_3, held_4, held_5, held_6, held_7, held_8, held_9, held_10, held_11, held_12, held_13, held_14, held_15, held_16, held_17, held_18, held_19, held_20, held_21, held_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (body_triple c Set.univ (grid0.coords t) _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The library's body obligation: the windows' conjunction opened window by window is `handed` / `returned`. -/
theorem body_owed (c : Dev nD) : BodyObligation (dats (F := F) m 0 c) (defs₀ (F := F)) Variants.none () Set.univ := fun t => by
  rw [bigSep_W0, bigSep_W0]
  exact body_at_point m c t

/-! ## The run, and the claim -/

-- the launch theorem's implicit arguments are found by unifying its conclusion with the statement below, which
-- needs plain definitions unfolded inside the type of a metavariable
set_option backward.isDefEq.respectTransparency.types false in
/-- From any memory with all counters at zero, every weakly fair execution of the entry function on the TensorCores
    terminates without a fault; at the end each window's array holds what the library computes from the proof data
    (an input array its region-entry contents, the output array the blocks `out0_23` written back point by point), and
    every other unscoped buffer what the closing reshape leaves of its region-entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_owed m c).loose) (hshare := fun c => (dats m 0 c).share_full fun _ => rfl)
    (howed := fun _ _ => rfl) (V₀ := V0 m) (opss := [hostOps1]) (hsub := tail_within) (hfresh := tail_allocs_nothing)
    (hkeep := tail_keeps_arrays) (hmain := main_around m Variants.none) (hA := A_eq m) (hΦ := fun _ _ => rfl)

/-- The program terminates on every weakly fair execution, faults nowhere, and all 24 argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_from_run m ρ (dats m) (run_main m ρ)

end Cert.KernelIdeal.Hand

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.LibMatmulRows.lean ====
import Idealize.ShloMosaic.PureOps.Ideal
import Idealize.ShloMosaic.PureOps.Ideal.Laws
import Idealize.ShloMosaic.Lib.ValueIdx
import Idealize.ShloMosaic.Lib.Pipeline.Value
import proofs.«176915_j43782896615991_2_alg».proof.Proof.LibIndexOps

/-!
# A rows-by-columns product read at an index, and a row gather through it

For `A : [N, K]` and `B : [K, M]` over the extended reals, `mmRows A B` is the array `[N, M]` whose entry `(n, c)` is
`∑ k, A (n, k) * B (k, c)`. With the dimension numbers of a plain product (the left operand's axis 1 contracted with the
right operand's axis 0, no batch axis):
* a `tpu.matmul` into the zero accumulator is `mmRows` of its operands (`matmulRows_eq`), whatever their formats;
* the host's `dot_general` is `mmRows` of its operands (`dotGeneralRows_eq`);
* gathering whole rows of a product is the product of the gathered rows (`gatherRows_mmRows`): row `j` of the result
  only reads row `idx j` of the left operand;
* a block of rows of a product is the product of that block of rows (`mmRows_rows`).
The dimension numbers are an `abbrev` taking their conditions as a parameter, so a record with the same literal lists is
that `abbrev` by definition. No proof enumerates an extent.
-/

noncomputable section

open scoped BigOperators

namespace Cert.LibMatmulRows

open Idealize.ShloMosaic Idealize.ShloMosaic.ValueIdx Cert.LibIndexOps

/-- The dimension numbers of `[N, K] × [K, M] → [N, M]`: axis 1 of the left operand contracted with axis 0 of the right. -/
abbrev dotRows (N K M : Nat) (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

/-- The product of `A : [N, K]` and `B : [K, M]`, entry by entry. -/
def mmRows {N K M : Nat} (A : (⟨2, ![N, K]⟩ : Shape).Idx → EReal) (B : (⟨2, ![K, M]⟩ : Shape).Idx → EReal) :
    (⟨2, ![N, M]⟩ : Shape).Idx → EReal :=
  fun i => ∑ k : Fin K, A (ix2 (n0 := N) (n1 := K) (i 0) k) * B (ix2 (n0 := K) (n1 := M) k (i 1))

theorem mmRows_apply {N K M : Nat} (A : (⟨2, ![N, K]⟩ : Shape).Idx → EReal) (B : (⟨2, ![K, M]⟩ : Shape).Idx → EReal)
    (n : Fin N) (c : Fin M) : mmRows A B (ix2 n c) = ∑ k : Fin K, A (ix2 n k) * B (ix2 k c) := rfl

section Dims
variable {N K M : Nat} (wf : DotDims.WF ⟨2, ![N, K]⟩ ⟨2, ![K, M]⟩ ⟨2, ![N, M]⟩ [1] [0] [0] [1] [] [])

/-- The left operand's row is the result's row. -/
theorem dotRows_lhs0 (j : (⟨2, ![N, M]⟩ : Shape).Idx) (q : (dotRows N K M wf).contr.Idx) :
    ((dotRows N K M wf).lhsIdx j q 0).val = (j 0).val := by
  unfold DotDims.lhsIdx
  rw [dif_neg (show ¬(0 : Fin 2) ∈ (dotRows N K M wf).lhsBatch from List.not_mem_nil),
    dif_pos (show (0 : Fin 2) ∈ (dotRows N K M wf).lhsNonContracting from List.mem_singleton.mpr rfl)]
  rfl

/-- The left operand's column is the contraction coordinate. -/
theorem dotRows_lhs1 (j : (⟨2, ![N, M]⟩ : Shape).Idx) (q : (dotRows N K M wf).contr.Idx) :
    ((dotRows N K M wf).lhsIdx j q 1).val = (q ⟨0, by rw [DotDims.rank_contr]; exact Nat.one_pos⟩).val :=
  (dotRows N K M wf).lhsIdx_val_of_single rfl j q

/-- The right operand's row is the contraction coordinate. -/
theorem dotRows_rhs0 (j : (⟨2, ![N, M]⟩ : Shape).Idx) (q : (dotRows N K M wf).contr.Idx) :
    ((dotRows N K M wf).rhsIdx j q 0).val = (q ⟨0, by rw [DotDims.rank_contr]; exact Nat.one_pos⟩).val :=
  (dotRows N K M wf).rhsIdx_val_of_single rfl j q

/-- The right operand's column is the result's column. -/
theorem dotRows_rhs1 (j : (⟨2, ![N, M]⟩ : Shape).Idx) (q : (dotRows N K M wf).contr.Idx) :
    ((dotRows N K M wf).rhsIdx j q 1).val = (j 1).val := by
  unfold DotDims.rhsIdx
  rw [dif_neg (show ¬(1 : Fin 2) ∈ (dotRows N K M wf).rhsBatch from List.not_mem_nil),
    dif_pos (show (1 : Fin 2) ∈ (dotRows N K M wf).rhsNonContracting from List.mem_singleton.mpr rfl)]
  rfl

/-- The contraction's sum over its one-axis index set is the sum over `k : Fin K` of row times column. -/
theorem sum_contr_dotRows (L : (⟨2, ![N, K]⟩ : Shape).Idx → EReal) (R : (⟨2, ![K, M]⟩ : Shape).Idx → EReal)
    (j : (⟨2, ![N, M]⟩ : Shape).Idx) :
    ∑ q : (dotRows N K M wf).contr.Idx, L ((dotRows N K M wf).lhsIdx j q) * R ((dotRows N K M wf).rhsIdx j q)
      = mmRows L R j := by
  unfold mmRows
  rw [← Equiv.sum_comp (contrEquiv1 (dotRows N K M wf) K rfl rfl).symm]
  refine Finset.sum_congr rfl fun k _ => ?_
  have hk := contrEquiv1_symm_val (dotRows N K M wf) K rfl rfl k
  have el : (dotRows N K M wf).lhsIdx j ((contrEquiv1 (dotRows N K M wf) K rfl rfl).symm k) = ix2 (n0 := N) (n1 := K) (j 0) k :=
    funext fun a => Fin.ext (by
      match a with
      | ⟨0, _⟩ => exact dotRows_lhs0 wf _ _
      | ⟨1, _⟩ => exact (dotRows_lhs1 wf _ _).trans hk)
  have er : (dotRows N K M wf).rhsIdx j ((contrEquiv1 (dotRows N K M wf) K rfl rfl).symm k) = ix2 (n0 := K) (n1 := M) k (j 1) :=
    funext fun a => Fin.ext (by
      match a with
      | ⟨0, _⟩ => exact (dotRows_rhs0 wf _ _).trans hk
      | ⟨1, _⟩ => exact dotRows_rhs1 wf _ _)
  rw [el, er]
  try rfl

/-- A `tpu.matmul` into the zero accumulator IS the product of its operands, whatever their float formats. -/
theorem matmulRows_eq {φ₁ φ₂ : FTy} (prec : Option ContractPrecision)
    (lhs : FVec Ideal ⟨2, ![N, K]⟩ φ₁) (rhs : FVec Ideal ⟨2, ![K, M]⟩ φ₂) :
    FloatOps.matmul (dotRows N K M wf) prec lhs rhs (constant (F := Ideal) ⟨2, ![N, M]⟩ .f32 0x00000000#32)
      = mmRows lhs rhs := by
  funext j
  rw [Ideal.matmul_constant_zero_apply]
  exact sum_contr_dotRows wf lhs rhs j

/-- The host's `dot_general` IS the product of its operands, whatever the schedule key. -/
theorem dotGeneralRows_eq {φ₁ φ₂ : FTy} (prec : Option ContractPrecision) (sched : HostSchedule)
    (lhs : FVec Ideal ⟨2, ![N, K]⟩ φ₁) (rhs : FVec Ideal ⟨2, ![K, M]⟩ φ₂) :
    FloatOps.dotGeneral (dotRows N K M wf) prec sched lhs rhs = mmRows lhs rhs := by
  funext j
  rw [Ideal.dotGeneral_apply]
  exact sum_contr_dotRows wf lhs rhs j

end Dims

/-- GATHERING ROWS OF A PRODUCT: row `j` of `(H · W)[idx]` is row `idx j` of `H` times `W`, that is row `j` of
    `H[idx] · W`. -/
theorem gatherRows_mmRows {N K C E w : Nat} (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (H : (⟨2, ![N, K]⟩ : Shape).Idx → EReal) (W : (⟨2, ![K, C]⟩ : Shape).Idx → EReal) (idx : IVec ⟨2, ![E, 1]⟩ w) :
    Host.gather (gathRows N C E wfC) (mmRows H W) idx = mmRows (Host.gather (gathRows N K E wfK) H idx) W := by
  funext i
  obtain ⟨e, c, rfl⟩ : ∃ (e : Fin E) (c : Fin C), i = ix2 e c := ⟨i 0, i 1, eq_ix2 i⟩
  rw [gatherRows_apply hN wfC, mmRows_apply, mmRows_apply]
  refine Finset.sum_congr rfl fun k _ => ?_
  rw [gatherRows_apply hN wfK]

end Cert.LibMatmulRows

end
-- ==== Proof.Spec.lean ====
import Idealize.ShloMosaic.PureOps.Ideal
import Idealize.ShloMosaic.PureOps.Ideal.Laws
import Idealize.ShloMosaic.Lib.ValueIdx

/-!
# The network of one graph, over the extended reals

A graph has two nodes, each with a feature vector in `EReal²`, and one edge with a feature vector in `EReal³`.
Every learned map is a two-layer perceptron `x ↦ W₂ᵀ·max(W₁ᵀ·x + β₁, 0) + β₂`. The nodes are embedded by one
perceptron (shared), the edge by another; then, twice (two layers with their own weights): the message from node
`a` to node `b` is a perceptron of the concatenation `(hₐ, h_b, e)`, the update of node `a` a perceptron of
`(hₐ, message into a)`, added to `hₐ`. The graph's embedding is the mean of the two nodes', and its logit a last
perceptron of that mean. `logitOf` is that number.

All sums are finite sums in `EReal`; nothing here needs the entries to be finite: the two programs compared against
this specification differ from it only by the order of the two factors inside each product and by writing the mean as
`· * (1/2)`, as `· / 2`, or with a leading `0 +`.
-/

noncomputable section

open scoped BigOperators

namespace Cert.Egnn

open Idealize.ShloMosaic

/-- An affine map `x ↦ Wᵀ·x + β`, the weight indexed (input, output). -/
def lin {K N : Nat} (W : Fin K → Fin N → EReal) (β : Fin N → EReal) (x : Fin K → EReal) : Fin N → EReal :=
  fun n => (∑ k, x k * W k n) + β n

/-- The positive part, entry by entry. -/
def relu {N : Nat} (v : Fin N → EReal) : Fin N → EReal := fun n => max (v n) 0

/-- A two-layer perceptron. -/
def mlp {K H N : Nat} (W1 : Fin K → Fin H → EReal) (β1 : Fin H → EReal) (W2 : Fin H → Fin N → EReal)
    (β2 : Fin N → EReal) (x : Fin K → EReal) : Fin N → EReal :=
  lin W2 β2 (relu (lin W1 β1 x))

/-- Two vectors of length 16 end to end. -/
def cat2 (u v : Fin 16 → EReal) : Fin 32 → EReal :=
  fun k => if h : k.val < 16 then u ⟨k.val, h⟩ else v ⟨k.val - 16, by omega⟩

/-- Three vectors of length 16 end to end. -/
def cat3 (u v w : Fin 16 → EReal) : Fin 48 → EReal :=
  fun k => if h : k.val < 16 then u ⟨k.val, h⟩
    else if h2 : k.val < 32 then v ⟨k.val - 16, by omega⟩ else w ⟨k.val - 32, by omega⟩

/-- One half, as an extended real. -/
def half : EReal := ((1 / 2 : ℝ) : EReal)

/-- The weights of the network, every matrix indexed (input, output). -/
structure Params where
  neW1 : Fin 2 → Fin 16 → EReal
  neB1 : Fin 16 → EReal
  neW2 : Fin 16 → Fin 16 → EReal
  neB2 : Fin 16 → EReal
  eeW1 : Fin 3 → Fin 16 → EReal
  eeB1 : Fin 16 → EReal
  eeW2 : Fin 16 → Fin 16 → EReal
  eeB2 : Fin 16 → EReal
  mW1 : Fin 2 → Fin 48 → Fin 16 → EReal
  mB1 : Fin 2 → Fin 16 → EReal
  mW2 : Fin 2 → Fin 16 → Fin 16 → EReal
  mB2 : Fin 2 → Fin 16 → EReal
  uW1 : Fin 2 → Fin 32 → Fin 16 → EReal
  uB1 : Fin 2 → Fin 16 → EReal
  uW2 : Fin 2 → Fin 16 → Fin 16 → EReal
  uB2 : Fin 2 → Fin 16 → EReal
  cW1 : Fin 16 → Fin 16 → EReal
  cB1 : Fin 16 → EReal
  cW2 : Fin 16 → Fin 1 → EReal
  cB2 : Fin 1 → EReal

/-- The message into the second of an ordered pair of nodes (`a` first) on layer `l`. -/
def msg (P : Params) (l : Fin 2) (ha hb e : Fin 16 → EReal) : Fin 16 → EReal :=
  mlp (P.mW1 l) (P.mB1 l) (P.mW2 l) (P.mB2 l) (cat3 ha hb e)

/-- A node's state after layer `l`: itself plus the update perceptron of (itself, the message it takes). -/
def upd (P : Params) (l : Fin 2) (ha hb e : Fin 16 → EReal) : Fin 16 → EReal :=
  fun n => ha n + mlp (P.uW1 l) (P.uB1 l) (P.uW2 l) (P.uB2 l) (cat2 ha (msg P l ha hb e)) n

/-- The node embedding. -/
def nodeEmb (P : Params) (x : Fin 2 → EReal) : Fin 16 → EReal := mlp P.neW1 P.neB1 P.neW2 P.neB2 x
/-- The edge embedding. -/
def edgeEmb (P : Params) (ev : Fin 3 → EReal) : Fin 16 → EReal := mlp P.eeW1 P.eeB1 P.eeW2 P.eeB2 ev

/-- The mean of the two nodes' final states. -/
def graphEmb (P : Params) (x0 x1 : Fin 2 → EReal) (ev : Fin 3 → EReal) : Fin 16 → EReal :=
  let e := edgeEmb P ev
  let a0 := nodeEmb P x0
  let b0 := nodeEmb P x1
  let a1 := upd P 0 a0 b0 e
  let b1 := upd P 0 b0 a0 e
  let a2 := upd P 1 a1 b1 e
  let b2 := upd P 1 b1 a1 e
  fun n => (a2 n + b2 n) * half

/-- The logit of one graph. -/
def logitOf (P : Params) (x0 x1 : Fin 2 → EReal) (ev : Fin 3 → EReal) : EReal :=
  mlp P.cW1 P.cB1 P.cW2 P.cB2 (graphEmb P x0 x1 ev) 0

/-- The order of the two factors inside a product under a finite sum is immaterial. -/
theorem sum_mul_comm {K : Nat} (f g : Fin K → EReal) : (∑ k, f k * g k) = ∑ k, g k * f k :=
  Finset.sum_congr rfl fun k _ => mul_comm _ _

/-- The word `0x3F000000` is one half. -/
theorem ofBits_half : Ideal.ofBits .f32 0x3F000000#32 = half := by
  simp [Ideal.ofBits, Ideal.ieee, half]
  first
  | (rw [← EReal.coe_mul]; norm_num; done)
  | (norm_cast; norm_num; done)
  | (rw [← EReal.coe_mul]; exact congrArg _ (by norm_num))

/-- The word `0x40000000` is two. -/
theorem ofBits_two : Ideal.ofBits .f32 0x40000000#32 = ((2 : ℝ) : EReal) := by
  simp [Ideal.ofBits, Ideal.ieee]
  first
  | (rw [← EReal.coe_mul]; norm_num; done)
  | (norm_cast; norm_num; done)
  | (rw [← EReal.coe_mul]; exact congrArg _ (by norm_num))

/-- Dividing by two is multiplying by one half, on every extended real. -/
theorem div_two (x : EReal) : Ideal.div x ((2 : ℝ) : EReal) = x * half :=
  Ideal.div_coe (by norm_num : (2 : ℝ) ≠ 0) x

/-! ## The specification as a function of the argument arrays -/

section Args
open Idealize.ShloMosaic.ValueIdx

/-- The weights, read off the argument arrays in the shapes the programs take them (every matrix input-first). -/
def paramsOf
    (a4 : (⟨2, ![2, 16]⟩ : Shape).Idx → EReal) (a5 : (⟨1, ![16]⟩ : Shape).Idx → EReal)
    (a6 : (⟨2, ![16, 16]⟩ : Shape).Idx → EReal) (a7 : (⟨1, ![16]⟩ : Shape).Idx → EReal)
    (a8 : (⟨2, ![3, 16]⟩ : Shape).Idx → EReal) (a9 : (⟨1, ![16]⟩ : Shape).Idx → EReal)
    (a10 : (⟨2, ![16, 16]⟩ : Shape).Idx → EReal) (a11 : (⟨1, ![16]⟩ : Shape).Idx → EReal)
    (a12 : (⟨3, ![2, 48, 16]⟩ : Shape).Idx → EReal) (a13 : (⟨2, ![2, 16]⟩ : Shape).Idx → EReal)
    (a14 : (⟨3, ![2, 16, 16]⟩ : Shape).Idx → EReal) (a15 : (⟨2, ![2, 16]⟩ : Shape).Idx → EReal)
    (a16 : (⟨3, ![2, 32, 16]⟩ : Shape).Idx → EReal) (a17 : (⟨2, ![2, 16]⟩ : Shape).Idx → EReal)
    (a18 : (⟨3, ![2, 16, 16]⟩ : Shape).Idx → EReal) (a19 : (⟨2, ![2, 16]⟩ : Shape).Idx → EReal)
    (a20 : (⟨2, ![16, 16]⟩ : Shape).Idx → EReal) (a21 : (⟨1, ![16]⟩ : Shape).Idx → EReal)
    (a22 : (⟨2, ![16, 1]⟩ : Shape).Idx → EReal) (a23 : (⟨1, ![1]⟩ : Shape).Idx → EReal) : Params where
  neW1 := fun k n => a4 (ix2 k n)
  neB1 := fun n => a5 (ix1 n)
  neW2 := fun k n => a6 (ix2 k n)
  neB2 := fun n => a7 (ix1 n)
  eeW1 := fun k n => a8 (ix2 k n)
  eeB1 := fun n => a9 (ix1 n)
  eeW2 := fun k n => a10 (ix2 k n)
  eeB2 := fun n => a11 (ix1 n)
  mW1 := fun l k n => a12 (ix3 l k n)
  mB1 := fun l n => a13 (ix2 l n)
  mW2 := fun l k n => a14 (ix3 l k n)
  mB2 := fun l n => a15 (ix2 l n)
  uW1 := fun l k n => a16 (ix3 l k n)
  uB1 := fun l n => a17 (ix2 l n)
  uW2 := fun l k n => a18 (ix3 l k n)
  uB2 := fun l n => a19 (ix2 l n)
  cW1 := fun k n => a20 (ix2 k n)
  cB1 := fun n => a21 (ix1 n)
  cW2 := fun k n => a22 (ix2 k n)
  cB2 := fun n => a23 (ix1 n)

/-- Node `i` of graph `b`: its two features. -/
def nodeFeat (a0 : (⟨3, ![1048576, 2, 2]⟩ : Shape).Idx → EReal) (b : Fin 1048576) (i : Fin 2) : Fin 2 → EReal :=
  fun k => a0 (ix3 b i k)

/-- The edge of graph `b`: its three features, one from each edge array. -/
def edgeFeat (a1 a2 a3 : (⟨1, ![1048576]⟩ : Shape).Idx → EReal) (b : Fin 1048576) : Fin 3 → EReal :=
  fun k => if k.val = 0 then a1 (ix1 b) else if k.val = 1 then a2 (ix1 b) else a3 (ix1 b)

/-- The logit of graph `b` from the 24 argument arrays. -/
def logitAt
    (a0 : (⟨3, ![1048576, 2, 2]⟩ : Shape).Idx → EReal) (a1 a2 a3 : (⟨1, ![1048576]⟩ : Shape).Idx → EReal)
    (a4 : (⟨2, ![2, 16]⟩ : Shape).Idx → EReal) (a5 : (⟨1, ![16]⟩ : Shape).Idx → EReal)
    (a6 : (⟨2, ![16, 16]⟩ : Shape).Idx → EReal) (a7 : (⟨1, ![16]⟩ : Shape).Idx → EReal)
    (a8 : (⟨2, ![3, 16]⟩ : Shape).Idx → EReal) (a9 : (⟨1, ![16]⟩ : Shape).Idx → EReal)
    (a10 : (⟨2, ![16, 16]⟩ : Shape).Idx → EReal) (a11 : (⟨1, ![16]⟩ : Shape).Idx → EReal)
    (a12 : (⟨3, ![2, 48, 16]⟩ : Shape).Idx → EReal) (a13 : (⟨2, ![2, 16]⟩ : Shape).Idx → EReal)
    (a14 : (⟨3, ![2, 16, 16]⟩ : Shape).Idx → EReal) (a15 : (⟨2, ![2, 16]⟩ : Shape).Idx → EReal)
    (a16 : (⟨3, ![2, 32, 16]⟩ : Shape).Idx → EReal) (a17 : (⟨2, ![2, 16]⟩ : Shape).Idx → EReal)
    (a18 : (⟨3, ![2, 16, 16]⟩ : Shape).Idx → EReal) (a19 : (⟨2, ![2, 16]⟩ : Shape).Idx → EReal)
    (a20 : (⟨2, ![16, 16]⟩ : Shape).Idx → EReal) (a21 : (⟨1, ![16]⟩ : Shape).Idx → EReal)
    (a22 : (⟨2, ![16, 1]⟩ : Shape).Idx → EReal) (a23 : (⟨1, ![1]⟩ : Shape).Idx → EReal) (b : Fin 1048576) : EReal :=
  logitOf (paramsOf a4 a5 a6 a7 a8 a9 a10 a11 a12 a13 a14 a15 a16 a17 a18 a19 a20 a21 a22 a23)
    (nodeFeat a0 b 0) (nodeFeat a0 b 1) (edgeFeat a1 a2 a3 b)

end Args

end Cert.Egnn

end
-- ==== Proof.LibColumns.lean ====
import Idealize.ShloMosaic.PureOps.Ideal
import Idealize.ShloMosaic.PureOps.Ideal.Laws
import Idealize.ShloMosaic.Lib.ValueIdx
import Idealize.ShloMosaic.Lib.Pipeline.Value
import proofs.«176915_j43782896615991_2_alg».proof.Proof.LibMatmulRows
import proofs.«176915_j43782896615991_2_alg».proof.Proof.Spec

/-!
# Channel-major arrays read column by column

A block laid out channel-major is an array `[K, M]`: `K` channels down, `M` graphs across. Column `c` is the
vector in `EReal^K` belonging to graph `c`. Every operation of a channel-major perceptron acts on columns
independently; this file reads each at an entry `(n, c)`:
* a bias column `[N, 1]` broadcast along the graphs is the bias at `n` (`bcastCol_apply`);
* a slice of a run of graphs reads the shifted column (`sliceLanes_apply`);
* two blocks side by side read the left or the right block's column (`concatLanes_lo`, `concatLanes_hi`);
* two or three blocks of 16 channels stacked read the concatenated vector (`stack2_apply`, `stack3_apply`);
* a product with a weight matrix `[N, K]` on the left, a bias, a positive part, a second product and bias — the printed
  form of a two-layer perceptron — is the perceptron of the column, its weights read transposed (`twoLayer_apply`).
-/

noncomputable section

open scoped BigOperators

namespace Cert.LibColumns

open Idealize.ShloMosaic Idealize.ShloMosaic.ValueIdx Cert.LibMatmulRows Cert.Egnn

/-- Column `c` of a `[K, M]` array. -/
def col {K M : Nat} (X : (⟨2, ![K, M]⟩ : Shape).Idx → EReal) (c : Fin M) : Fin K → EReal := fun k => X (ix2 k c)

theorem col_apply {K M : Nat} (X : (⟨2, ![K, M]⟩ : Shape).Idx → EReal) (c : Fin M) (k : Fin K) :
    col X c k = X (ix2 k c) := rfl

/-- A column `[N, 1]` broadcast along the second axis. -/
theorem bcastCol_apply {α : Type} {N M : Nat} (v : (⟨2, ![N, 1]⟩ : Shape).Idx → α)
    (h : (⟨2, ![N, 1]⟩ : Shape).Broadcasts ⟨2, ![N, M]⟩) (n : Fin N) (c : Fin M) :
    broadcastTo ⟨2, ![N, M]⟩ v h (ix2 n c) = v (ix2 n 0) := by
  refine broadcastTo_apply v h _ _ fun a => ?_
  match a with
  | ⟨0, _⟩ =>
    show n.val = if N = 1 then 0 else n.val
    split
    · have := n.isLt; omega
    · rfl
  | ⟨1, _⟩ => rfl

/-- A unit-stride slice of columns `o … o + M - 1` of a `[N, M2]` array. -/
theorem sliceLanes_apply {α : Type} {N M M2 : Nat} (o : Nat) (Y : (⟨2, ![N, M2]⟩ : Shape).Idx → α)
    (h : (⟨2, ![N, M2]⟩ : Shape).Slices ![0, o] ⟨2, ![N, M]⟩) (n : Fin N) (c : Fin M) (ho : o + c.val < M2) :
    extractStridedSlice ⟨2, ![N, M]⟩ ![0, o] Y h (ix2 n c) = Y (ix2 n ⟨o + c.val, ho⟩) := by
  refine extractStridedSlice_apply _ Y h _ _ fun a => ?_
  match a with
  | ⟨0, _⟩ => show n.val = 0 + n.val; omega
  | ⟨1, _⟩ => rfl

/-- Two `[K, M]` blocks side by side, read in the left block. -/
theorem concatLanes_lo {α : Type} {K M M2 : Nat} (A B : (⟨2, ![K, M]⟩ : Shape).Idx → α)
    (h : Shape.Concatenates [(⟨2, ![K, M]⟩ : Shape), ⟨2, ![K, M]⟩] ⟨2, ![K, M2]⟩ 1) (k : Fin K) (c : Fin M2)
    (hc : c.val < M) :
    concatenate ⟨2, ![K, M2]⟩ 1 [⟨⟨2, ![K, M]⟩, A⟩, ⟨⟨2, ![K, M]⟩, B⟩] h (ix2 k c) = A (ix2 k ⟨c.val, hc⟩) :=
  concatenate_pair_apply_left 1 A B h _ rfl _ (fun b => by
    match b with
    | ⟨0, _⟩ => rfl
    | ⟨1, _⟩ => rfl)

/-- Two `[K, M]` blocks side by side, read in the right block. -/
theorem concatLanes_hi {α : Type} {K M M2 : Nat} (A B : (⟨2, ![K, M]⟩ : Shape).Idx → α)
    (h : Shape.Concatenates [(⟨2, ![K, M]⟩ : Shape), ⟨2, ![K, M]⟩] ⟨2, ![K, M2]⟩ 1) (k : Fin K) (c : Fin M2)
    (hc : M ≤ c.val) (hc2 : c.val - M < M) :
    concatenate ⟨2, ![K, M2]⟩ 1 [⟨⟨2, ![K, M]⟩, A⟩, ⟨⟨2, ![K, M]⟩, B⟩] h (ix2 k c) = B (ix2 k ⟨c.val - M, hc2⟩) :=
  concatenate_pair_apply_right 1 A B h _ rfl rfl _ (fun b hb => by
    match b with
    | ⟨0, _⟩ => rfl
    | ⟨1, _⟩ => exact absurd rfl hb) (by show (c.val - M) + M = c.val; omega)

/-- Two blocks of 16 channels stacked. -/
theorem stack2_apply {M : Nat} (A B : (⟨2, ![16, M]⟩ : Shape).Idx → EReal)
    (h : Shape.Concatenates [(⟨2, ![16, M]⟩ : Shape), ⟨2, ![16, M]⟩] ⟨2, ![32, M]⟩ 0) (k : Fin 32) (c : Fin M) :
    concatenate ⟨2, ![32, M]⟩ 0 [⟨⟨2, ![16, M]⟩, A⟩, ⟨⟨2, ![16, M]⟩, B⟩] h (ix2 k c) = cat2 (col A c) (col B c) k := by
  unfold cat2
  split
  · next hk =>
    exact concatenate_pair_apply_left 0 A B h _ rfl _ (fun b => by
      match b with
      | ⟨0, _⟩ => rfl
      | ⟨1, _⟩ => rfl)
  · next hk =>
    exact concatenate_pair_apply_right 0 A B h _ rfl rfl (ix2 ⟨k.val - 16, by omega⟩ c) (fun b hb => by
      match b with
      | ⟨0, _⟩ => exact absurd rfl hb
      | ⟨1, _⟩ => rfl) (by show (k.val - 16) + 16 = k.val; omega)

/-- Three blocks of 16 channels stacked. -/
theorem stack3_apply {M : Nat} (A B C : (⟨2, ![16, M]⟩ : Shape).Idx → EReal)
    (h : Shape.Concatenates [(⟨2, ![16, M]⟩ : Shape), ⟨2, ![16, M]⟩, ⟨2, ![16, M]⟩] ⟨2, ![48, M]⟩ 0) (k : Fin 48)
    (c : Fin M) :
    concatenate ⟨2, ![48, M]⟩ 0 [⟨⟨2, ![16, M]⟩, A⟩, ⟨⟨2, ![16, M]⟩, B⟩, ⟨⟨2, ![16, M]⟩, C⟩] h (ix2 k c)
      = cat3 (col A c) (col B c) (col C c) k := by
  unfold cat3
  split
  · next hk =>
    exact concatenate_apply_piece 0 [⟨⟨2, ![16, M]⟩, A⟩, ⟨⟨2, ![16, M]⟩, B⟩, ⟨⟨2, ![16, M]⟩, C⟩] h (ix2 k c) 0 (by simp) _ A rfl rfl 0 rfl (ix2 ⟨k.val, hk⟩ c) (fun b hb => by
      match b with
      | ⟨0, _⟩ => exact absurd rfl hb
      | ⟨1, _⟩ => rfl) (by show 0 + k.val = k.val; omega)
  · next hk =>
    split
    · next hk2 =>
      exact concatenate_apply_piece 0 [⟨⟨2, ![16, M]⟩, A⟩, ⟨⟨2, ![16, M]⟩, B⟩, ⟨⟨2, ![16, M]⟩, C⟩] h (ix2 k c) 1 (by simp) _ B rfl rfl 16 rfl (ix2 ⟨k.val - 16, by omega⟩ c) (fun b hb => by
        match b with
        | ⟨0, _⟩ => exact absurd rfl hb
        | ⟨1, _⟩ => rfl) (by show 16 + (k.val - 16) = k.val; omega)
    · next hk2 =>
      exact concatenate_apply_piece 0 [⟨⟨2, ![16, M]⟩, A⟩, ⟨⟨2, ![16, M]⟩, B⟩, ⟨⟨2, ![16, M]⟩, C⟩] h (ix2 k c) 2 (by simp) _ C rfl rfl 32 rfl (ix2 ⟨k.val - 32, by omega⟩ c) (fun b hb => by
        match b with
        | ⟨0, _⟩ => exact absurd rfl hb
        | ⟨1, _⟩ => rfl) (by show 32 + (k.val - 32) = k.val; omega)

/-- The printed form of a channel-major two-layer perceptron, read at channel `n` of graph `c`. -/
theorem twoLayer_apply {K H N M : Nat}
    (wf1 : DotDims.WF ⟨2, ![H, K]⟩ ⟨2, ![K, M]⟩ ⟨2, ![H, M]⟩ [1] [0] [0] [1] [] [])
    (wf2 : DotDims.WF ⟨2, ![N, H]⟩ ⟨2, ![H, M]⟩ ⟨2, ![N, M]⟩ [1] [0] [0] [1] [] [])
    (hb1 : (⟨2, ![H, 1]⟩ : Shape).Broadcasts ⟨2, ![H, M]⟩) (hb2 : (⟨2, ![N, 1]⟩ : Shape).Broadcasts ⟨2, ![N, M]⟩)
    (W1 : FVec Ideal ⟨2, ![H, K]⟩ .f32) (b1 : FVec Ideal ⟨2, ![H, 1]⟩ .f32)
    (W2 : FVec Ideal ⟨2, ![N, H]⟩ .f32) (b2 : FVec Ideal ⟨2, ![N, 1]⟩ .f32)
    (X : FVec Ideal ⟨2, ![K, M]⟩ .f32) (n : Fin N) (c : Fin M) :
    addf (matmul (dotRows N H M wf2) none W2
        (maximumf (addf (matmul (dotRows H K M wf1) none W1 X (constant ⟨2, ![H, M]⟩ .f32 0x00000000#32))
            (broadcastTo ⟨2, ![H, M]⟩ b1 hb1))
          (broadcast ⟨2, ![H, M]⟩ (Scalar.ofBits .f32 0x00000000#32)))
        (constant ⟨2, ![N, M]⟩ .f32 0x00000000#32)) (broadcastTo ⟨2, ![N, M]⟩ b2 hb2) (ix2 n c)
      = mlp (fun k h => W1 (ix2 h k)) (fun h => b1 (ix2 h 0)) (fun h n => W2 (ix2 n h)) (fun n => b2 (ix2 n 0))
          (col X c) n := by
  rw [addf_apply, bcastCol_apply]
  show FloatOps.matmul (dotRows N H M wf2) none W2 _ (constant (F := Ideal) ⟨2, ![N, M]⟩ .f32 0x00000000#32) (ix2 n c) + _ = _
  rw [matmulRows_eq, mmRows_apply]
  unfold mlp lin relu
  congr 1
  rw [sum_mul_comm]
  refine Finset.sum_congr rfl fun h _ => ?_
  congr 1
  rw [maximumf_apply, addf_apply, bcastCol_apply, broadcast_apply]
  show max (FloatOps.matmul (dotRows H K M wf1) none W1 X (constant (F := Ideal) ⟨2, ![H, M]⟩ .f32 0x00000000#32) (ix2 h c) + _) _ = _
  rw [matmulRows_eq, mmRows_apply, sum_mul_comm]
  congr 1
  exact Ideal.ofBits_zero_f32

end Cert.LibColumns

end
-- ==== Proof.ColsKI.lean ====
import proofs.«176915_j43782896615991_2_alg».proof.Proof.StoredKI
import proofs.«176915_j43782896615991_2_alg».proof.Proof.LibColumns

/-!
# The kernel's stored row, read graph by graph

At the ideal instance every named piece of the kernel body is read at column `j` of its block (the graph `j` of the
tile): the node embeddings are the perceptron of the node's feature column, the edge embedding of the edge's, a
message of the stacked columns, an update the node's column plus the update perceptron, and the stored logit the
classifier of the halved sum. The weights are held transposed (output channel first), so each is read through `wT`
(or `wT3` for one layer of a stacked weight, loaded as a `[1, H, K]` block). Merging the two nodes' batches along the
graph axis before a perceptron and splitting after it changes nothing, since a perceptron acts on columns
independently: the left half reads the first block's column, the right half the second's.
-/

set_option maxRecDepth 16384

noncomputable section

open scoped BigOperators

namespace Cert.KernelIdeal.Cols

open Idealize.ShloMosaic Idealize.ShloMosaic.ValueIdx Cert.KernelIdeal Cert.KernelIdeal.Gen Cert.KernelIdeal.Hand
open Cert.LibColumns Cert.LibMatmulRows Cert.Egnn

/-- A weight block `[H, K]` held output-first, read input-first. -/
def wT {H K : Nat} (W : (⟨2, ![H, K]⟩ : Shape).Idx → EReal) : Fin K → Fin H → EReal := fun k h => W (ix2 h k)
/-- A bias column `[H, 1]`. -/
def bC {H : Nat} (b : (⟨2, ![H, 1]⟩ : Shape).Idx → EReal) : Fin H → EReal := fun h => b (ix2 h 0)
/-- One layer `[1, H, K]` of a stacked weight, read input-first. -/
def wT3 {H K : Nat} (W : (⟨3, ![1, H, K]⟩ : Shape).Idx → EReal) : Fin K → Fin H → EReal := fun k h => W (ix3 0 h k)
/-- One layer `[1, H, 1]` of a stacked bias. -/
def bC3 {H : Nat} (b : (⟨3, ![1, H, 1]⟩ : Shape).Idx → EReal) : Fin H → EReal := fun h => b (ix3 0 h 0)

/-- Dropping the leading unit axis of a `[1, H, K]` block. -/
theorem dropLead_apply {H K : Nat} (v : (⟨3, ![1, H, K]⟩ : Shape).Idx → EReal)
    (h : (⟨3, ![1, H, K]⟩ : Shape).ShapeCasts ⟨2, ![H, K]⟩) (a : Fin H) (b : Fin K) :
    shapeCast ⟨2, ![H, K]⟩ v h (ix2 a b) = v (ix3 0 a b) :=
  (shapeCast_dropUnit_apply (n := 2) ![H, K] v h (ix2 a b)).trans (congrArg v (funext fun d => by
    match d with
    | ⟨0, _⟩ => rfl
    | ⟨1, _⟩ => rfl
    | ⟨2, _⟩ => rfl))

theorem wT_dropLead {H K : Nat} (v : (⟨3, ![1, H, K]⟩ : Shape).Idx → EReal)
    (h : (⟨3, ![1, H, K]⟩ : Shape).ShapeCasts ⟨2, ![H, K]⟩) : wT (shapeCast ⟨2, ![H, K]⟩ v h) = wT3 v := by
  funext k a; exact dropLead_apply v h a k

theorem bC_dropLead {H : Nat} (v : (⟨3, ![1, H, 1]⟩ : Shape).Idx → EReal)
    (h : (⟨3, ![1, H, 1]⟩ : Shape).ShapeCasts ⟨2, ![H, 1]⟩) : bC (shapeCast ⟨2, ![H, 1]⟩ v h) = bC3 v := by
  funext a; exact dropLead_apply v h a 0

/-- The lane index of graph `j` in the left half of a merged batch. -/
abbrev lo (j : Fin 8192) : Fin 16384 := ⟨j.val, by omega⟩
/-- The lane index of graph `j` in the right half of a merged batch. -/
abbrev hi (j : Fin 8192) : Fin 16384 := ⟨8192 + j.val, by omega⟩

theorem col_merge_lo {K : Nat} (A B : (⟨2, ![K, 8192]⟩ : Shape).Idx → EReal)
    (h : Shape.Concatenates [(⟨2, ![K, 8192]⟩ : Shape), ⟨2, ![K, 8192]⟩] ⟨2, ![K, 16384]⟩ 1) (j : Fin 8192) :
    col (concatenate ⟨2, ![K, 16384]⟩ 1 [⟨⟨2, ![K, 8192]⟩, A⟩, ⟨⟨2, ![K, 8192]⟩, B⟩] h) (lo j) = col A j := by
  funext k
  exact (concatLanes_lo A B h k (lo j) j.isLt).trans rfl

theorem col_merge_hi {K : Nat} (A B : (⟨2, ![K, 8192]⟩ : Shape).Idx → EReal)
    (h : Shape.Concatenates [(⟨2, ![K, 8192]⟩ : Shape), ⟨2, ![K, 8192]⟩] ⟨2, ![K, 16384]⟩ 1) (j : Fin 8192) :
    col (concatenate ⟨2, ![K, 16384]⟩ 1 [⟨⟨2, ![K, 8192]⟩, A⟩, ⟨⟨2, ![K, 8192]⟩, B⟩] h) (hi j) = col B j := by
  funext k
  refine (concatLanes_hi A B h k (hi j) (by show 8192 ≤ 8192 + j.val; omega) (by show 8192 + j.val - 8192 < 8192; omega)).trans ?_
  exact congrArg B (congrArg (ix2 k) (Fin.ext (by show 8192 + j.val - 8192 = j.val; omega)))

theorem col_stack3 (A B C : (⟨2, ![16, 8192]⟩ : Shape).Idx → EReal)
    (h : Shape.Concatenates [(⟨2, ![16, 8192]⟩ : Shape), ⟨2, ![16, 8192]⟩, ⟨2, ![16, 8192]⟩] ⟨2, ![48, 8192]⟩ 0)
    (j : Fin 8192) :
    col (concatenate ⟨2, ![48, 8192]⟩ 0 [⟨⟨2, ![16, 8192]⟩, A⟩, ⟨⟨2, ![16, 8192]⟩, B⟩, ⟨⟨2, ![16, 8192]⟩, C⟩] h) j
      = cat3 (col A j) (col B j) (col C j) := by
  funext k; exact stack3_apply A B C h k j

theorem col_stack2 (A B : (⟨2, ![16, 8192]⟩ : Shape).Idx → EReal)
    (h : Shape.Concatenates [(⟨2, ![16, 8192]⟩ : Shape), ⟨2, ![16, 8192]⟩] ⟨2, ![32, 8192]⟩ 0) (j : Fin 8192) :
    col (concatenate ⟨2, ![32, 8192]⟩ 0 [⟨⟨2, ![16, 8192]⟩, A⟩, ⟨⟨2, ![16, 8192]⟩, B⟩] h) j
      = cat2 (col A j) (col B j) := by
  funext k; exact stack2_apply A B h k j

/-- The left half of a merged result. -/
theorem col_split_lo (Y : (⟨2, ![16, 16384]⟩ : Shape).Idx → EReal)
    (h : (⟨2, ![16, 16384]⟩ : Shape).Slices ![0, 0] ⟨2, ![16, 8192]⟩) (j : Fin 8192) :
    col (extractStridedSlice ⟨2, ![16, 8192]⟩ ![0, 0] Y h) j = col Y (lo j) := by
  funext n
  refine (sliceLanes_apply 0 Y h n j (by omega)).trans ?_
  exact congrArg Y (congrArg (ix2 n) (Fin.ext (by show 0 + j.val = j.val; omega)))

/-- The right half of a merged result. -/
theorem col_split_hi (Y : (⟨2, ![16, 16384]⟩ : Shape).Idx → EReal)
    (h : (⟨2, ![16, 16384]⟩ : Shape).Slices ![0, 8192] ⟨2, ![16, 8192]⟩) (j : Fin 8192) :
    col (extractStridedSlice ⟨2, ![16, 8192]⟩ ![0, 8192] Y h) j = col Y (hi j) := by
  funext n
  exact (sliceLanes_apply 8192 Y h n j (by omega)).trans rfl

/-! ## The node embeddings -/

theorem pay2_col (xa xb : Vec Ideal S2x8192 .f32) (W1 : Vec Ideal S16x2 .f32) (b1 : Vec Ideal S16x1 .f32)
    (W2 : Vec Ideal S16x16 .f32) (b2 : Vec Ideal S16x1 .f32) (c : Fin 16384) :
    col (k0_pay2 xa xb W1 b1 W2 b2) c = mlp (wT W1) (bC b1) (wT W2) (bC b2)
      (col (concatenate S2x16384 1 [⟨S2x8192, xa⟩, ⟨S2x8192, xb⟩] concatenates_S2x8192_S2x8192_S2x16384_d1) c) := by
  funext n
  unfold k0_pay2
  refine (twoLayer_apply dot_S16x2_S2x16384_S16x16384_1_0_0_1_n_n.wf dot_S16x16_S16x16384_S16x16384_1_0_0_1_n_n.wf
    broadcasts_S16x1_S16x16384 broadcasts_S16x1_S16x16384 (shapeCast S16x2 W1 shapeCasts_S16x2_S16x2)
    (shapeCast S16x1 b1 shapeCasts_S16x1_S16x1) (shapeCast S16x16 W2 shapeCasts_S16x16_S16x16)
    (shapeCast S16x1 b2 shapeCasts_S16x1_S16x1)
    (concatenate S2x16384 1 [⟨S2x8192, shapeCast S2x8192 xa shapeCasts_S2x8192_S2x8192⟩,
      ⟨S2x8192, shapeCast S2x8192 xb shapeCasts_S2x8192_S2x8192⟩] concatenates_S2x8192_S2x8192_S2x16384_d1) n c).trans ?_
  rw [shapeCast_self xa, shapeCast_self xb, shapeCast_self W1, shapeCast_self b1, shapeCast_self W2, shapeCast_self b2]
  rfl

theorem pay3_col (xa xb : Vec Ideal S2x8192 .f32) (W1 : Vec Ideal S16x2 .f32) (b1 : Vec Ideal S16x1 .f32)
    (W2 : Vec Ideal S16x16 .f32) (b2 : Vec Ideal S16x1 .f32) (j : Fin 8192) :
    col (k0_pay3 xa xb W1 b1 W2 b2) j = mlp (wT W1) (bC b1) (wT W2) (bC b2) (col xa j) := by
  unfold k0_pay3
  rw [col_split_lo, pay2_col, col_merge_lo]

theorem pay4_col (xa xb : Vec Ideal S2x8192 .f32) (W1 : Vec Ideal S16x2 .f32) (b1 : Vec Ideal S16x1 .f32)
    (W2 : Vec Ideal S16x16 .f32) (b2 : Vec Ideal S16x1 .f32) (j : Fin 8192) :
    col (k0_pay4 xa xb W1 b1 W2 b2) j = mlp (wT W1) (bC b1) (wT W2) (bC b2) (col xb j) := by
  unfold k0_pay4
  rw [col_split_hi, pay2_col, col_merge_hi]

/-! ## The loads passed on unchanged -/

theorem pay5_eq (v : Vec Ideal S3x8192 .f32) : k0_pay5 v = v := by unfold k0_pay5; exact shapeCast_self _ _
theorem pay6_eq (v : Vec Ideal S16x3 .f32) : k0_pay6 v = v := by unfold k0_pay6; exact shapeCast_self _ _
theorem pay7_eq (v : Vec Ideal S16x1 .f32) : k0_pay7 v = v := by unfold k0_pay7; exact shapeCast_self _ _
theorem pay8_eq (v : Vec Ideal S16x16 .f32) : k0_pay8 v = v := by unfold k0_pay8; exact shapeCast_self _ _
theorem pay9_eq (v : Vec Ideal S16x1 .f32) : k0_pay9 v = v := by unfold k0_pay9; exact shapeCast_self _ _
theorem pay22_eq (v : Vec Ideal S16x1 .f32) : k0_pay22 v = v := by unfold k0_pay22; exact shapeCast_self _ _
theorem pay23_eq (v : Vec Ideal S1x16 .f32) : k0_pay23 v = v := by unfold k0_pay23; exact shapeCast_self _ _
theorem pay24_eq (v : Vec Ideal S1x1 .f32) : k0_pay24 v = v := by unfold k0_pay24; exact shapeCast_self _ _

/-! ## The edge embedding -/

theorem pay10_col (e0 : FVec Ideal S3x8192 .f32) (W1 : FVec Ideal S16x3 .f32) (b1 : FVec Ideal S16x1 .f32)
    (W2 : FVec Ideal S16x16 .f32) (b2 : FVec Ideal S16x1 .f32) (j : Fin 8192) :
    col (k0_pay10 e0 W1 b1 W2 b2 (constant S16x8192 .f32 0x00000000#32)) j
      = mlp (wT W1) (bC b1) (wT W2) (bC b2) (col e0 j) := by
  funext n
  unfold k0_pay10
  exact twoLayer_apply dot_S16x3_S3x8192_S16x8192_1_0_0_1_n_n.wf dot_S16x16_S16x8192_S16x8192_1_0_0_1_n_n.wf
    broadcasts_S16x1_S16x8192 broadcasts_S16x1_S16x8192 W1 b1 W2 b2 e0 n j

/-! ## Messages -/

theorem pay11_col (h0 h1 : FVec Ideal S16x8192 .f32) (e0 : FVec Ideal S3x8192 .f32) (w8 : FVec Ideal S16x3 .f32)
    (b9 : FVec Ideal S16x1 .f32) (w10 : FVec Ideal S16x16 .f32) (b11 : FVec Ideal S16x1 .f32) (z : FVec Ideal S16x8192 .f32)
    (mW1 : Vec Ideal S1x16x48 .f32) (mB1 : Vec Ideal S1x16x1 .f32) (mW2 : Vec Ideal S1x16x16 .f32)
    (mB2 : Vec Ideal S1x16x1 .f32) (c : Fin 16384) :
    col (k0_pay11 h0 h1 e0 w8 b9 w10 b11 z mW1 mB1 mW2 mB2) c = mlp (wT3 mW1) (bC3 mB1) (wT3 mW2) (bC3 mB2)
      (col (concatenate S48x16384 1
        [⟨S48x8192, concatenate S48x8192 0 [⟨S16x8192, h0⟩, ⟨S16x8192, h1⟩, ⟨S16x8192, k0_pay10 e0 w8 b9 w10 b11 z⟩] concatenates_S16x8192_S16x8192_S16x8192_S48x8192_d0⟩,
         ⟨S48x8192, concatenate S48x8192 0 [⟨S16x8192, h1⟩, ⟨S16x8192, h0⟩, ⟨S16x8192, k0_pay10 e0 w8 b9 w10 b11 z⟩] concatenates_S16x8192_S16x8192_S16x8192_S48x8192_d0⟩]
        concatenates_S48x8192_S48x8192_S48x16384_d1) c) := by
  funext n
  unfold k0_pay11
  rw [← wT_dropLead mW1 shapeCasts_S1x16x48_S16x48, ← bC_dropLead mB1 shapeCasts_S1x16x1_S16x1,
    ← wT_dropLead mW2 shapeCasts_S1x16x16_S16x16, ← bC_dropLead mB2 shapeCasts_S1x16x1_S16x1]
  exact twoLayer_apply dot_S16x48_S48x16384_S16x16384_1_0_0_1_n_n.wf dot_S16x16_S16x16384_S16x16384_1_0_0_1_n_n.wf
    broadcasts_S16x1_S16x16384 broadcasts_S16x1_S16x16384 _ _ _ _ _ n c

theorem pay12_col (h0 h1 : FVec Ideal S16x8192 .f32) (e0 : FVec Ideal S3x8192 .f32) (w8 : FVec Ideal S16x3 .f32)
    (b9 : FVec Ideal S16x1 .f32) (w10 : FVec Ideal S16x16 .f32) (b11 : FVec Ideal S16x1 .f32) (z : FVec Ideal S16x8192 .f32)
    (mW1 : Vec Ideal S1x16x48 .f32) (mB1 : Vec Ideal S1x16x1 .f32) (mW2 : Vec Ideal S1x16x16 .f32)
    (mB2 : Vec Ideal S1x16x1 .f32) (j : Fin 8192) :
    col (k0_pay12 h0 h1 e0 w8 b9 w10 b11 z mW1 mB1 mW2 mB2) j = mlp (wT3 mW1) (bC3 mB1) (wT3 mW2) (bC3 mB2)
      (cat3 (col h0 j) (col h1 j) (col (k0_pay10 e0 w8 b9 w10 b11 z) j)) := by
  unfold k0_pay12
  rw [col_split_lo, pay11_col, col_merge_lo, col_stack3]

theorem pay13_col (h0 h1 : FVec Ideal S16x8192 .f32) (e0 : FVec Ideal S3x8192 .f32) (w8 : FVec Ideal S16x3 .f32)
    (b9 : FVec Ideal S16x1 .f32) (w10 : FVec Ideal S16x16 .f32) (b11 : FVec Ideal S16x1 .f32) (z : FVec Ideal S16x8192 .f32)
    (mW1 : Vec Ideal S1x16x48 .f32) (mB1 : Vec Ideal S1x16x1 .f32) (mW2 : Vec Ideal S1x16x16 .f32)
    (mB2 : Vec Ideal S1x16x1 .f32) (j : Fin 8192) :
    col (k0_pay13 h0 h1 e0 w8 b9 w10 b11 z mW1 mB1 mW2 mB2) j = mlp (wT3 mW1) (bC3 mB1) (wT3 mW2) (bC3 mB2)
      (cat3 (col h1 j) (col h0 j) (col (k0_pay10 e0 w8 b9 w10 b11 z) j)) := by
  unfold k0_pay13
  rw [col_split_hi, pay11_col, col_merge_hi, col_stack3]

/-! ## Updates of layer 0 -/

theorem pay14_eq (v : Vec Ideal S1x16x32 .f32) : k0_pay14 v = shapeCast S16x32 v shapeCasts_S1x16x32_S16x32 := rfl
theorem pay15_eq (v : Vec Ideal S1x16x1 .f32) : k0_pay15 v = shapeCast S16x1 v shapeCasts_S1x16x1_S16x1 := rfl

theorem pay16_col (h0 h1 m01 m10 : FVec Ideal S16x8192 .f32) (uw : FVec Ideal S16x32 .f32) (ub : FVec Ideal S16x1 .f32)
    (uW2 : Vec Ideal S1x16x16 .f32) (uB2 : Vec Ideal S1x16x1 .f32) (c : Fin 16384) :
    col (k0_pay16 h0 h1 m01 m10 uw ub uW2 uB2) c = mlp (wT uw) (bC ub) (wT3 uW2) (bC3 uB2)
      (col (concatenate S32x16384 1
        [⟨S32x8192, concatenate S32x8192 0 [⟨S16x8192, h0⟩, ⟨S16x8192, m01⟩] concatenates_S16x8192_S16x8192_S32x8192_d0⟩,
         ⟨S32x8192, concatenate S32x8192 0 [⟨S16x8192, h1⟩, ⟨S16x8192, m10⟩] concatenates_S16x8192_S16x8192_S32x8192_d0⟩]
        concatenates_S32x8192_S32x8192_S32x16384_d1) c) := by
  funext n
  unfold k0_pay16
  rw [← wT_dropLead uW2 shapeCasts_S1x16x16_S16x16, ← bC_dropLead uB2 shapeCasts_S1x16x1_S16x1]
  exact twoLayer_apply dot_S16x32_S32x16384_S16x16384_1_0_0_1_n_n.wf dot_S16x16_S16x16384_S16x16384_1_0_0_1_n_n.wf
    broadcasts_S16x1_S16x16384 broadcasts_S16x1_S16x16384 _ _ _ _ _ n c

theorem pay17_col (h0 h1 m01 m10 : FVec Ideal S16x8192 .f32) (uw : FVec Ideal S16x32 .f32) (ub : FVec Ideal S16x1 .f32)
    (uW2 : Vec Ideal S1x16x16 .f32) (uB2 : Vec Ideal S1x16x1 .f32) (j : Fin 8192) :
    col (k0_pay17 h0 h1 m01 m10 uw ub uW2 uB2) j
      = fun n => col h0 j n + mlp (wT uw) (bC ub) (wT3 uW2) (bC3 uB2) (cat2 (col h0 j) (col m01 j)) n := by
  funext n
  have e := col_split_lo (k0_pay16 h0 h1 m01 m10 uw ub uW2 uB2) slices_S16x16384_o0_0_S16x8192 j
  rw [pay16_col, col_merge_lo, col_stack2] at e
  unfold k0_pay17
  exact congrArg (h0 (ix2 n j) + ·) (congrFun e n)

theorem pay18_col (h0 h1 m01 m10 : FVec Ideal S16x8192 .f32) (uw : FVec Ideal S16x32 .f32) (ub : FVec Ideal S16x1 .f32)
    (uW2 : Vec Ideal S1x16x16 .f32) (uB2 : Vec Ideal S1x16x1 .f32) (j : Fin 8192) :
    col (k0_pay18 h0 h1 m01 m10 uw ub uW2 uB2) j
      = fun n => col h1 j n + mlp (wT uw) (bC ub) (wT3 uW2) (bC3 uB2) (cat2 (col h1 j) (col m10 j)) n := by
  funext n
  have e := col_split_hi (k0_pay16 h0 h1 m01 m10 uw ub uW2 uB2) slices_S16x16384_o0_8192_S16x8192 j
  rw [pay16_col, col_merge_hi, col_stack2] at e
  unfold k0_pay18
  exact congrArg (h1 (ix2 n j) + ·) (congrFun e n)

/-! ## Messages of layer 1 -/

theorem pay19_col (h0 h1 ee m01 m10 : FVec Ideal S16x8192 .f32) (uw : FVec Ideal S16x32 .f32) (ub : FVec Ideal S16x1 .f32)
    (uW2 : Vec Ideal S1x16x16 .f32) (uB2 : Vec Ideal S1x16x1 .f32)
    (mW1 : Vec Ideal S1x16x48 .f32) (mB1 : Vec Ideal S1x16x1 .f32) (mW2 : Vec Ideal S1x16x16 .f32)
    (mB2 : Vec Ideal S1x16x1 .f32) (c : Fin 16384) :
    col (k0_pay19 h0 h1 ee m01 m10 uw ub uW2 uB2 mW1 mB1 mW2 mB2) c = mlp (wT3 mW1) (bC3 mB1) (wT3 mW2) (bC3 mB2)
      (col (concatenate S48x16384 1
        [⟨S48x8192, concatenate S48x8192 0 [⟨S16x8192, k0_pay17 h0 h1 m01 m10 uw ub uW2 uB2⟩, ⟨S16x8192, k0_pay18 h0 h1 m01 m10 uw ub uW2 uB2⟩, ⟨S16x8192, ee⟩] concatenates_S16x8192_S16x8192_S16x8192_S48x8192_d0⟩,
         ⟨S48x8192, concatenate S48x8192 0 [⟨S16x8192, k0_pay18 h0 h1 m01 m10 uw ub uW2 uB2⟩, ⟨S16x8192, k0_pay17 h0 h1 m01 m10 uw ub uW2 uB2⟩, ⟨S16x8192, ee⟩] concatenates_S16x8192_S16x8192_S16x8192_S48x8192_d0⟩]
        concatenates_S48x8192_S48x8192_S48x16384_d1) c) := by
  funext n
  unfold k0_pay19
  rw [← wT_dropLead mW1 shapeCasts_S1x16x48_S16x48, ← bC_dropLead mB1 shapeCasts_S1x16x1_S16x1,
    ← wT_dropLead mW2 shapeCasts_S1x16x16_S16x16, ← bC_dropLead mB2 shapeCasts_S1x16x1_S16x1]
  exact twoLayer_apply dot_S16x48_S48x16384_S16x16384_1_0_0_1_n_n.wf dot_S16x16_S16x16384_S16x16384_1_0_0_1_n_n.wf
    broadcasts_S16x1_S16x16384 broadcasts_S16x1_S16x16384 _ _ _ _ _ n c

theorem pay20_col (h0 h1 ee m01 m10 : FVec Ideal S16x8192 .f32) (uw : FVec Ideal S16x32 .f32) (ub : FVec Ideal S16x1 .f32)
    (uW2 : Vec Ideal S1x16x16 .f32) (uB2 : Vec Ideal S1x16x1 .f32)
    (mW1 : Vec Ideal S1x16x48 .f32) (mB1 : Vec Ideal S1x16x1 .f32) (mW2 : Vec Ideal S1x16x16 .f32)
    (mB2 : Vec Ideal S1x16x1 .f32) (j : Fin 8192) :
    col (k0_pay20 h0 h1 ee m01 m10 uw ub uW2 uB2 mW1 mB1 mW2 mB2) j = mlp (wT3 mW1) (bC3 mB1) (wT3 mW2) (bC3 mB2)
      (cat3 (col (k0_pay17 h0 h1 m01 m10 uw ub uW2 uB2) j) (col (k0_pay18 h0 h1 m01 m10 uw ub uW2 uB2) j) (col ee j)) := by
  unfold k0_pay20
  rw [col_split_lo, pay19_col, col_merge_lo, col_stack3]

theorem pay21_col (h0 h1 ee m01 m10 : FVec Ideal S16x8192 .f32) (uw : FVec Ideal S16x32 .f32) (ub : FVec Ideal S16x1 .f32)
    (uW2 : Vec Ideal S1x16x16 .f32) (uB2 : Vec Ideal S1x16x1 .f32)
    (mW1 : Vec Ideal S1x16x48 .f32) (mB1 : Vec Ideal S1x16x1 .f32) (mW2 : Vec Ideal S1x16x16 .f32)
    (mB2 : Vec Ideal S1x16x1 .f32) (j : Fin 8192) :
    col (k0_pay21 h0 h1 ee m01 m10 uw ub uW2 uB2 mW1 mB1 mW2 mB2) j = mlp (wT3 mW1) (bC3 mB1) (wT3 mW2) (bC3 mB2)
      (cat3 (col (k0_pay18 h0 h1 m01 m10 uw ub uW2 uB2) j) (col (k0_pay17 h0 h1 m01 m10 uw ub uW2 uB2) j) (col ee j)) := by
  unfold k0_pay21
  rw [col_split_hi, pay19_col, col_merge_hi, col_stack3]

/-! ## Updates of layer 1, the mean of the two nodes, and the classifier -/

/-- The update perceptron of layer 1 on the merged batch: the body computes it inside the piece that ends with the
    classifier's first product, so it is restated here to be read by itself. -/
def updLast (g0 g1 n01 n10 : FVec Ideal S16x8192 .f32) (uW1 : Vec Ideal S1x16x32 .f32) (uB1 : Vec Ideal S1x16x1 .f32)
    (uW2 : Vec Ideal S1x16x16 .f32) (uB2 : Vec Ideal S1x16x1 .f32) : FVec Ideal S16x16384 .f32 :=
  addf (matmul dot_S16x16_S16x16384_S16x16384_1_0_0_1_n_n none (shapeCast S16x16 uW2 shapeCasts_S1x16x16_S16x16 : FVec Ideal S16x16 .f32)
      (maximumf (addf (matmul dot_S16x32_S32x16384_S16x16384_1_0_0_1_n_n none (shapeCast S16x32 uW1 shapeCasts_S1x16x32_S16x32 : FVec Ideal S16x32 .f32)
            (concatenate S32x16384 1
              [⟨S32x8192, concatenate S32x8192 0 [⟨S16x8192, g0⟩, ⟨S16x8192, n01⟩] concatenates_S16x8192_S16x8192_S32x8192_d0⟩,
               ⟨S32x8192, concatenate S32x8192 0 [⟨S16x8192, g1⟩, ⟨S16x8192, n10⟩] concatenates_S16x8192_S16x8192_S32x8192_d0⟩]
              concatenates_S32x8192_S32x8192_S32x16384_d1)
            (constant S16x16384 .f32 0x00000000#32))
          (broadcastTo S16x16384 (shapeCast S16x1 uB1 shapeCasts_S1x16x1_S16x1 : FVec Ideal S16x1 .f32) broadcasts_S16x1_S16x16384))
        (broadcast S16x16384 (Scalar.ofBits .f32 0x00000000#32)))
      (constant S16x16384 .f32 0x00000000#32))
    (broadcastTo S16x16384 (shapeCast S16x1 uB2 shapeCasts_S1x16x1_S16x1 : FVec Ideal S16x1 .f32) broadcasts_S16x1_S16x16384)

theorem updLast_col (g0 g1 n01 n10 : FVec Ideal S16x8192 .f32) (uW1 : Vec Ideal S1x16x32 .f32) (uB1 : Vec Ideal S1x16x1 .f32)
    (uW2 : Vec Ideal S1x16x16 .f32) (uB2 : Vec Ideal S1x16x1 .f32) (c : Fin 16384) :
    col (updLast g0 g1 n01 n10 uW1 uB1 uW2 uB2) c = mlp (wT3 uW1) (bC3 uB1) (wT3 uW2) (bC3 uB2)
      (col (concatenate S32x16384 1
        [⟨S32x8192, concatenate S32x8192 0 [⟨S16x8192, g0⟩, ⟨S16x8192, n01⟩] concatenates_S16x8192_S16x8192_S32x8192_d0⟩,
         ⟨S32x8192, concatenate S32x8192 0 [⟨S16x8192, g1⟩, ⟨S16x8192, n10⟩] concatenates_S16x8192_S16x8192_S32x8192_d0⟩]
        concatenates_S32x8192_S32x8192_S32x16384_d1) c) := by
  funext n
  unfold updLast
  rw [← wT_dropLead uW1 shapeCasts_S1x16x32_S16x32, ← bC_dropLead uB1 shapeCasts_S1x16x1_S16x1,
    ← wT_dropLead uW2 shapeCasts_S1x16x16_S16x16, ← bC_dropLead uB2 shapeCasts_S1x16x1_S16x1]
  exact twoLayer_apply dot_S16x32_S32x16384_S16x16384_1_0_0_1_n_n.wf dot_S16x16_S16x16384_S16x16384_1_0_0_1_n_n.wf
    broadcasts_S16x1_S16x16384 broadcasts_S16x1_S16x16384 _ _ _ _ _ n c

/-- The halved sum of the two nodes' final states, as the body forms it. -/
def meanLast (g0 g1 n01 n10 : FVec Ideal S16x8192 .f32) (uW1 : Vec Ideal S1x16x32 .f32) (uB1 : Vec Ideal S1x16x1 .f32)
    (uW2 : Vec Ideal S1x16x16 .f32) (uB2 : Vec Ideal S1x16x1 .f32) : FVec Ideal S16x8192 .f32 :=
  mulf (addf
      (addf g0 (extractStridedSlice S16x8192 ![0, 0] (updLast g0 g1 n01 n10 uW1 uB1 uW2 uB2) slices_S16x16384_o0_0_S16x8192))
      (addf g1 (extractStridedSlice S16x8192 ![0, 8192] (updLast g0 g1 n01 n10 uW1 uB1 uW2 uB2) slices_S16x16384_o0_8192_S16x8192)))
    (broadcast S16x8192 (Scalar.ofBits .f32 0x3F000000#32))

theorem meanLast_col (g0 g1 n01 n10 : FVec Ideal S16x8192 .f32) (uW1 : Vec Ideal S1x16x32 .f32) (uB1 : Vec Ideal S1x16x1 .f32)
    (uW2 : Vec Ideal S1x16x16 .f32) (uB2 : Vec Ideal S1x16x1 .f32) (j : Fin 8192) :
    col (meanLast g0 g1 n01 n10 uW1 uB1 uW2 uB2) j = fun n =>
      ((col g0 j n + mlp (wT3 uW1) (bC3 uB1) (wT3 uW2) (bC3 uB2) (cat2 (col g0 j) (col n01 j)) n)
        + (col g1 j n + mlp (wT3 uW1) (bC3 uB1) (wT3 uW2) (bC3 uB2) (cat2 (col g1 j) (col n10 j)) n)) * half := by
  funext n
  have e0 := col_split_lo (updLast g0 g1 n01 n10 uW1 uB1 uW2 uB2) slices_S16x16384_o0_0_S16x8192 j
  rw [updLast_col, col_merge_lo, col_stack2] at e0
  have e1 := col_split_hi (updLast g0 g1 n01 n10 uW1 uB1 uW2 uB2) slices_S16x16384_o0_8192_S16x8192 j
  rw [updLast_col, col_merge_hi, col_stack2] at e1
  unfold meanLast
  show (g0 (ix2 n j) + _ + (g1 (ix2 n j) + _)) * Ideal.ofBits .f32 0x3F000000#32 = _
  rw [ofBits_half]
  exact congrArg (· * half) (congrArg₂ (· + ·) (congrArg (g0 (ix2 n j) + ·) (congrFun e0 n))
    (congrArg (g1 (ix2 n j) + ·) (congrFun e1 n)))

theorem pay25_eq (g0 g1 n01 n10 : FVec Ideal S16x8192 .f32) (uW1 : Vec Ideal S1x16x32 .f32) (uB1 : Vec Ideal S1x16x1 .f32)
    (uW2 : Vec Ideal S1x16x16 .f32) (uB2 : Vec Ideal S1x16x1 .f32) (cW1 : Vec Ideal S16x16 .f32) :
    k0_pay25 g0 g1 n01 n10 uW1 uB1 uW2 uB2 cW1
      = matmul dot_S16x16_S16x8192_S16x8192_1_0_0_1_n_n none (shapeCast S16x16 cW1 shapeCasts_S16x16_S16x16 : FVec Ideal S16x16 .f32)
          (meanLast g0 g1 n01 n10 uW1 uB1 uW2 uB2) (constant S16x8192 .f32 0x00000000#32) := rfl

/-- The stored logit of graph `j`: the classifier of the halved sum. -/
theorem pay1_apply (cb1 : FVec Ideal S16x1 .f32) (cw2 : FVec Ideal S1x16 .f32) (cb2 : FVec Ideal S1x1 .f32)
    (g0 g1 n01 n10 : FVec Ideal S16x8192 .f32) (uW1 : Vec Ideal S1x16x32 .f32) (uB1 : Vec Ideal S1x16x1 .f32)
    (uW2 : Vec Ideal S1x16x16 .f32) (uB2 : Vec Ideal S1x16x1 .f32) (cW1 : Vec Ideal S16x16 .f32) (j : Fin 8192) :
    k0_pay1 cb1 cw2 cb2 (k0_pay25 g0 g1 n01 n10 uW1 uB1 uW2 uB2 cW1) (ix2 0 j)
      = mlp (wT cW1) (bC cb1) (wT cw2) (bC cb2) (col (meanLast g0 g1 n01 n10 uW1 uB1 uW2 uB2) j) 0 := by
  rw [pay25_eq]
  unfold k0_pay1
  refine (twoLayer_apply dot_S16x16_S16x8192_S16x8192_1_0_0_1_n_n.wf dot_S1x16_S16x8192_S1x8192_1_0_0_1_n_n.wf
    broadcasts_S16x1_S16x8192 broadcasts_S1x1_S1x8192 (shapeCast S16x16 cW1 shapeCasts_S16x16_S16x16) cb1 cw2 cb2
    (meanLast g0 g1 n01 n10 uW1 uB1 uW2 uB2) 0 j).trans ?_
  rw [shapeCast_self cW1]
  rfl

/-! ## The stored row is the specification, block by block -/

/-- The weights as the kernel holds them: each matrix transposed, each bias a column, the stacked ones layer by layer. -/
def blockParams
    (neW1 : Vec Ideal S16x2 .f32) (neB1 : Vec Ideal S16x1 .f32) (neW2 : Vec Ideal S16x16 .f32) (neB2 : Vec Ideal S16x1 .f32)
    (eeW1 : Vec Ideal S16x3 .f32) (eeB1 : Vec Ideal S16x1 .f32) (eeW2 : Vec Ideal S16x16 .f32) (eeB2 : Vec Ideal S16x1 .f32)
    (mW1_0 : Vec Ideal S1x16x48 .f32) (mB1_0 : Vec Ideal S1x16x1 .f32) (mW2_0 : Vec Ideal S1x16x16 .f32) (mB2_0 : Vec Ideal S1x16x1 .f32)
    (uW1_0 : Vec Ideal S1x16x32 .f32) (uB1_0 : Vec Ideal S1x16x1 .f32) (uW2_0 : Vec Ideal S1x16x16 .f32) (uB2_0 : Vec Ideal S1x16x1 .f32)
    (mW1_1 : Vec Ideal S1x16x48 .f32) (mB1_1 : Vec Ideal S1x16x1 .f32) (mW2_1 : Vec Ideal S1x16x16 .f32) (mB2_1 : Vec Ideal S1x16x1 .f32)
    (uW1_1 : Vec Ideal S1x16x32 .f32) (uB1_1 : Vec Ideal S1x16x1 .f32) (uW2_1 : Vec Ideal S1x16x16 .f32) (uB2_1 : Vec Ideal S1x16x1 .f32)
    (cW1 : Vec Ideal S16x16 .f32) (cB1 : Vec Ideal S16x1 .f32) (cW2 : Vec Ideal S1x16 .f32) (cB2 : Vec Ideal S1x1 .f32) : Params where
  neW1 := wT neW1
  neB1 := bC neB1
  neW2 := wT neW2
  neB2 := bC neB2
  eeW1 := wT eeW1
  eeB1 := bC eeB1
  eeW2 := wT eeW2
  eeB2 := bC eeB2
  mW1 := fun l => if l.val = 0 then wT3 mW1_0 else wT3 mW1_1
  mB1 := fun l => if l.val = 0 then bC3 mB1_0 else bC3 mB1_1
  mW2 := fun l => if l.val = 0 then wT3 mW2_0 else wT3 mW2_1
  mB2 := fun l => if l.val = 0 then bC3 mB2_0 else bC3 mB2_1
  uW1 := fun l => if l.val = 0 then wT3 uW1_0 else wT3 uW1_1
  uB1 := fun l => if l.val = 0 then bC3 uB1_0 else bC3 uB1_1
  uW2 := fun l => if l.val = 0 then wT3 uW2_0 else wT3 uW2_1
  uB2 := fun l => if l.val = 0 then bC3 uB2_0 else bC3 uB2_1
  cW1 := wT cW1
  cB1 := bC cB1
  cW2 := wT cW2
  cB2 := bC cB2

set_option maxHeartbeats 1600000 in
/-- The stored logit of graph `j` of the tile is the specification's logit of the graph whose features are column
    `j` of the three streamed blocks, with the weights of the loaded blocks. -/
theorem stored_apply (xa xb : Vec Ideal S2x8192 .f32) (xe : Vec Ideal S3x8192 .f32)
    (neW1 : Vec Ideal S16x2 .f32) (neB1 : Vec Ideal S16x1 .f32) (neW2 : Vec Ideal S16x16 .f32) (neB2 : Vec Ideal S16x1 .f32)
    (eeW1 : Vec Ideal S16x3 .f32) (eeB1 : Vec Ideal S16x1 .f32) (eeW2 : Vec Ideal S16x16 .f32) (eeB2 : Vec Ideal S16x1 .f32)
    (mW1_0 : Vec Ideal S1x16x48 .f32) (mB1_0 : Vec Ideal S1x16x1 .f32) (mW2_0 : Vec Ideal S1x16x16 .f32) (mB2_0 : Vec Ideal S1x16x1 .f32)
    (uW1_0 : Vec Ideal S1x16x32 .f32) (uB1_0 : Vec Ideal S1x16x1 .f32) (uW2_0 : Vec Ideal S1x16x16 .f32) (uB2_0 : Vec Ideal S1x16x1 .f32)
    (mW1_1 : Vec Ideal S1x16x48 .f32) (mB1_1 : Vec Ideal S1x16x1 .f32) (mW2_1 : Vec Ideal S1x16x16 .f32) (mB2_1 : Vec Ideal S1x16x1 .f32)
    (uW1_1 : Vec Ideal S1x16x32 .f32) (uB1_1 : Vec Ideal S1x16x1 .f32) (uW2_1 : Vec Ideal S1x16x16 .f32) (uB2_1 : Vec Ideal S1x16x1 .f32)
    (cW1 : Vec Ideal S16x16 .f32) (cB1 : Vec Ideal S16x1 .f32) (cW2 : Vec Ideal S1x16 .f32) (cB2 : Vec Ideal S1x1 .f32)
    (j : Fin 8192) :
    stored (F := Ideal) xa xb xe neW1 neB1 neW2 neB2 eeW1 eeB1 eeW2 eeB2 mW1_0 mB1_0 mW2_0 mB2_0 uW1_0 uB1_0 uW2_0 uB2_0
        mW1_1 mB1_1 mW2_1 mB2_1 uW1_1 uB1_1 uW2_1 uB2_1 cW1 cB1 cW2 cB2 (ix2 0 j)
      = logitOf (blockParams neW1 neB1 neW2 neB2 eeW1 eeB1 eeW2 eeB2 mW1_0 mB1_0 mW2_0 mB2_0 uW1_0 uB1_0 uW2_0 uB2_0
          mW1_1 mB1_1 mW2_1 mB2_1 uW1_1 uB1_1 uW2_1 uB2_1 cW1 cB1 cW2 cB2) (col xa j) (col xb j) (col xe j) := by
  unfold stored
  rw [pay5_eq, pay6_eq, pay7_eq, pay8_eq, pay9_eq, pay22_eq, pay23_eq, pay24_eq, pay14_eq, pay15_eq]
  rw [pay1_apply, meanLast_col]
  simp only [pay17_col, pay18_col, pay20_col, pay21_col, pay12_col, pay13_col, pay10_col, pay3_col, pay4_col,
    wT_dropLead, bC_dropLead]
  rfl

end Cert.KernelIdeal.Cols

end
-- ==== Proof.ValueKI.lean ====
import proofs.«176915_j43782896615991_2_alg».proof.Proof.FrameKI
import proofs.«176915_j43782896615991_2_alg».proof.Proof.ColsKI
import Idealize.ShloMosaic.Lib.Pipeline.Value
import Idealize.ShloMosaic.Lib.StableHlo.Run

/-!
# The kernel's result array is the specification, graph by graph

The entry function lays the inputs out channel-major before the region: the two nodes' features become two arrays
`[2, B]`, the three edge features are stacked into `[3, B]`, every weight matrix is transposed (the stacked ones
within each layer) and every bias becomes a column. Point `t` of the grid sees columns `8192·t … 8192·t + 8191` of
the three streamed arrays and the whole of every weight array, and writes back columns `8192·t …` of the `[1, B]`
output; the 128 points' blocks tile it. So the output array ends holding, at column `b`, the specification's logit of
graph `b` (`final`); the closing reshape to `[B]` keeps the order (`tail_result`).
-/

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.Hand Cert.KernelIdeal.Cols Cert.LibColumns Cert.Egnn
open Idealize.ShloMosaic.Pipeline (Dat)

variable (m : (ℓ : Loc nD τ sig) → Buf (Elt Ideal) ℓ) (ρ : Dev nD → PrngReg)

theorem lt128 (t : Fin cfg0.N) : t.val < 128 := Nat.lt_of_lt_of_eq t.isLt N_0

/-! ## Which block of its array each window holds at a point -/

theorem idx0 : ∀ t : Fin cfg0.N, win0_0.index t (0 : Fin 2) = 0 ∧ win0_0.index t (1 : Fin 2) = t.val :=
  (by decide +kernel : ∀ t : Fin grid0.N, _)

theorem idx1 : ∀ t : Fin cfg0.N, win0_1.index t (0 : Fin 2) = 0 ∧ win0_1.index t (1 : Fin 2) = t.val :=
  (by decide +kernel : ∀ t : Fin grid0.N, _)

theorem idx2 : ∀ t : Fin cfg0.N, win0_2.index t (0 : Fin 2) = 0 ∧ win0_2.index t (1 : Fin 2) = t.val :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 3) = 0 ∧ win0_11.index t (1 : Fin 3) = 0 ∧ win0_11.index t (2 : Fin 3) = 0 :=
  (by decide +kernel : ∀ t : Fin grid0.N, _)

theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)

theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)

theorem idx14 : ∀ t : Fin cfg0.N, win0_14.index t (0 : Fin 3) = 0 ∧ win0_14.index t (1 : Fin 3) = 0 ∧ win0_14.index t (2 : Fin 3) = 0 :=
  (by decide +kernel : ∀ t : Fin grid0.N, _)

theorem idx15 : ∀ t : Fin cfg0.N, win0_15.index t (0 : Fin 3) = 0 ∧ win0_15.index t (1 : Fin 3) = 0 ∧ win0_15.index t (2 : Fin 3) = 0 :=
  (by decide +kernel : ∀ t : Fin grid0.N, _)

theorem idx16 : ∀ t : Fin cfg0.N, win0_16.index t (0 : Fin 3) = 0 ∧ win0_16.index t (1 : Fin 3) = 0 ∧ win0_16.index t (2 : Fin 3) = 0 :=
  (by decide +kernel : ∀ t : Fin grid0.N, _)

theorem idx17 : ∀ t : Fin cfg0.N, win0_17.index t (0 : Fin 3) = 0 ∧ win0_17.index t (1 : Fin 3) = 0 ∧ win0_17.index t (2 : Fin 3) = 0 :=
  (by decide +kernel : ∀ t : Fin grid0.N, _)

theorem idx18 : ∀ t : Fin cfg0.N, win0_18.index t (0 : Fin 3) = 0 ∧ win0_18.index t (1 : Fin 3) = 0 ∧ win0_18.index t (2 : Fin 3) = 0 :=
  (by decide +kernel : ∀ t : Fin grid0.N, _)

theorem idx19 : ∀ t : Fin cfg0.N, win0_19.index t (0 : Fin 2) = 0 ∧ win0_19.index t (1 : Fin 2) = 0 :=
  (by decide +kernel : ∀ t : Fin grid0.N, _)

theorem idx20 : ∀ t : Fin cfg0.N, win0_20.index t (0 : Fin 2) = 0 ∧ win0_20.index t (1 : Fin 2) = 0 :=
  (by decide +kernel : ∀ t : Fin grid0.N, _)

theorem idx21 : ∀ t : Fin cfg0.N, win0_21.index t (0 : Fin 2) = 0 ∧ win0_21.index t (1 : Fin 2) = 0 :=
  (by decide +kernel : ∀ t : Fin grid0.N, _)

theorem idx22 : ∀ t : Fin cfg0.N, win0_22.index t (0 : Fin 2) = 0 ∧ win0_22.index t (1 : Fin 2) = 0 :=
  (by decide +kernel : ∀ t : Fin grid0.N, _)

theorem idx23 : ∀ t : Fin cfg0.N, win0_23.index t (0 : Fin 2) = 0 ∧ win0_23.index t (1 : Fin 2) = t.val :=
  (by decide +kernel : ∀ t : Fin grid0.N, _)

/-- Graph `j` of tile `t`. -/
abbrev gidx (t : Fin cfg0.N) (j : Fin 8192) : Fin 1048576 := ⟨t.val * 8192 + j.val, by have := lt128 t; omega⟩

theorem blk0 (c : Dev nD) (t : Fin cfg0.N) (k : Fin 2) (j : Fin 8192) :
    (iblk m c 0 t : S2x8192.Idx → EReal) (ix2 k j) = (V m c main_v2 : S2x1048576.Idx → EReal) (ix2 k (gidx t j)) := by
  obtain ⟨e0, e1⟩ := idx0 t
  show V m c main_v2 (((cfg0.win 0).blk t).view.emb (ix2 k j)) = _
  refine congrArg (V m c main_v2) (funext fun a => Fin.ext ?_)
  match a with
  | ⟨0, _⟩ => show win0_0.index t (0 : Fin 2) * 2 + 1 * k.val = k.val; omega
  | ⟨1, _⟩ => show win0_0.index t (1 : Fin 2) * 8192 + 1 * j.val = t.val * 8192 + j.val; omega

theorem blk1 (c : Dev nD) (t : Fin cfg0.N) (k : Fin 2) (j : Fin 8192) :
    (iblk m c 1 t : S2x8192.Idx → EReal) (ix2 k j) = (V m c main_v5 : S2x1048576.Idx → EReal) (ix2 k (gidx t j)) := by
  obtain ⟨e0, e1⟩ := idx1 t
  show V m c main_v5 (((cfg0.win 1).blk t).view.emb (ix2 k j)) = _
  refine congrArg (V m c main_v5) (funext fun a => Fin.ext ?_)
  match a with
  | ⟨0, _⟩ => show win0_1.index t (0 : Fin 2) * 2 + 1 * k.val = k.val; omega
  | ⟨1, _⟩ => show win0_1.index t (1 : Fin 2) * 8192 + 1 * j.val = t.val * 8192 + j.val; omega

theorem blk2 (c : Dev nD) (t : Fin cfg0.N) (k : Fin 3) (j : Fin 8192) :
    (iblk m c 2 t : S3x8192.Idx → EReal) (ix2 k j) = (V m c main_v9 : S3x1048576.Idx → EReal) (ix2 k (gidx t j)) := by
  obtain ⟨e0, e1⟩ := idx2 t
  show V m c main_v9 (((cfg0.win 2).blk t).view.emb (ix2 k j)) = _
  refine congrArg (V m c main_v9) (funext fun a => Fin.ext ?_)
  match a with
  | ⟨0, _⟩ => show win0_2.index t (0 : Fin 2) * 3 + 1 * k.val = k.val; omega
  | ⟨1, _⟩ => show win0_2.index t (1 : Fin 2) * 8192 + 1 * j.val = t.val * 8192 + j.val; omega

theorem blk3 (c : Dev nD) (t : Fin cfg0.N) :
    (iblk m c 3 t : S16x2.Idx → EReal) = (V m c main_v10 : S16x2.Idx → EReal) := by
  obtain ⟨e0, e1⟩ := idx3 t
  funext y
  show V m c main_v10 (((cfg0.win 3).blk t).view.emb y) = V m c main_v10 y
  refine congrArg (V m c main_v10) (funext fun a => Fin.ext ?_)
  match a with
  | ⟨0, _⟩ => show win0_3.index t (0 : Fin 2) * 16 + 1 * (y 0).val = (y 0).val; omega
  | ⟨1, _⟩ => show win0_3.index t (1 : Fin 2) * 2 + 1 * (y 1).val = (y 1).val; omega

theorem blk4 (c : Dev nD) (t : Fin cfg0.N) :
    (iblk m c 4 t : S16x1.Idx → EReal) = (V m c main_v20 : S16x1.Idx → EReal) := by
  obtain ⟨e0, e1⟩ := idx4 t
  funext y
  show V m c main_v20 (((cfg0.win 4).blk t).view.emb y) = V m c main_v20 y
  refine congrArg (V m c main_v20) (funext fun a => Fin.ext ?_)
  match a with
  | ⟨0, _⟩ => show win0_4.index t (0 : Fin 2) * 16 + 1 * (y 0).val = (y 0).val; omega
  | ⟨1, _⟩ => show win0_4.index t (1 : Fin 2) * 1 + 1 * (y 1).val = (y 1).val; omega

theorem blk5 (c : Dev nD) (t : Fin cfg0.N) :
    (iblk m c 5 t : S16x16.Idx → EReal) = (V m c main_v11 : S16x16.Idx → EReal) := by
  obtain ⟨e0, e1⟩ := idx5 t
  funext y
  show V m c main_v11 (((cfg0.win 5).blk t).view.emb y) = V m c main_v11 y
  refine congrArg (V m c main_v11) (funext fun a => Fin.ext ?_)
  match a with
  | ⟨0, _⟩ => show win0_5.index t (0 : Fin 2) * 16 + 1 * (y 0).val = (y 0).val; omega
  | ⟨1, _⟩ => show win0_5.index t (1 : Fin 2) * 16 + 1 * (y 1).val = (y 1).val; omega

theorem blk6 (c : Dev nD) (t : Fin cfg0.N) :
    (iblk m c 6 t : S16x1.Idx → EReal) = (V m c main_v21 : S16x1.Idx → EReal) := by
  obtain ⟨e0, e1⟩ := idx6 t
  funext y
  show V m c main_v21 (((cfg0.win 6).blk t).view.emb y) = V m c main_v21 y
  refine congrArg (V m c main_v21) (funext fun a => Fin.ext ?_)
  match a with
  | ⟨0, _⟩ => show win0_6.index t (0 : Fin 2) * 16 + 1 * (y 0).val = (y 0).val; omega
  | ⟨1, _⟩ => show win0_6.index t (1 : Fin 2) * 1 + 1 * (y 1).val = (y 1).val; omega

theorem blk7 (c : Dev nD) (t : Fin cfg0.N) :
    (iblk m c 7 t : S16x3.Idx → EReal) = (V m c main_v12 : S16x3.Idx → EReal) := by
  obtain ⟨e0, e1⟩ := idx7 t
  funext y
  show V m c main_v12 (((cfg0.win 7).blk t).view.emb y) = V m c main_v12 y
  refine congrArg (V m c main_v12) (funext fun a => Fin.ext ?_)
  match a with
  | ⟨0, _⟩ => show win0_7.index t (0 : Fin 2) * 16 + 1 * (y 0).val = (y 0).val; omega
  | ⟨1, _⟩ => show win0_7.index t (1 : Fin 2) * 3 + 1 * (y 1).val = (y 1).val; omega

theorem blk8 (c : Dev nD) (t : Fin cfg0.N) :
    (iblk m c 8 t : S16x1.Idx → EReal) = (V m c main_v22 : S16x1.Idx → EReal) := by
  obtain ⟨e0, e1⟩ := idx8 t
  funext y
  show V m c main_v22 (((cfg0.win 8).blk t).view.emb y) = V m c main_v22 y
  refine congrArg (V m c main_v22) (funext fun a => Fin.ext ?_)
  match a with
  | ⟨0, _⟩ => show win0_8.index t (0 : Fin 2) * 16 + 1 * (y 0).val = (y 0).val; omega
  | ⟨1, _⟩ => show win0_8.index t (1 : Fin 2) * 1 + 1 * (y 1).val = (y 1).val; omega

theorem blk9 (c : Dev nD) (t : Fin cfg0.N) :
    (iblk m c 9 t : S16x16.Idx → EReal) = (V m c main_v13 : S16x16.Idx → EReal) := by
  obtain ⟨e0, e1⟩ := idx9 t
  funext y
  show V m c main_v13 (((cfg0.win 9).blk t).view.emb y) = V m c main_v13 y
  refine congrArg (V m c main_v13) (funext fun a => Fin.ext ?_)
  match a with
  | ⟨0, _⟩ => show win0_9.index t (0 : Fin 2) * 16 + 1 * (y 0).val = (y 0).val; omega
  | ⟨1, _⟩ => show win0_9.index t (1 : Fin 2) * 16 + 1 * (y 1).val = (y 1).val; omega

theorem blk10 (c : Dev nD) (t : Fin cfg0.N) :
    (iblk m c 10 t : S16x1.Idx → EReal) = (V m c main_v23 : S16x1.Idx → EReal) := by
  obtain ⟨e0, e1⟩ := idx10 t
  funext y
  show V m c main_v23 (((cfg0.win 10).blk t).view.emb y) = V m c main_v23 y
  refine congrArg (V m c main_v23) (funext fun a => Fin.ext ?_)
  match a with
  | ⟨0, _⟩ => show win0_10.index t (0 : Fin 2) * 16 + 1 * (y 0).val = (y 0).val; omega
  | ⟨1, _⟩ => show win0_10.index t (1 : Fin 2) * 1 + 1 * (y 1).val = (y 1).val; omega

theorem blk11 (c : Dev nD) (t : Fin cfg0.N) :
    (iblk m c 11 t : S2x16x48.Idx → EReal) = (V m c main_v14 : S2x16x48.Idx → EReal) := by
  obtain ⟨e0, e1, e2⟩ := idx11 t
  funext y
  show V m c main_v14 (((cfg0.win 11).blk t).view.emb y) = V m c main_v14 y
  refine congrArg (V m c main_v14) (funext fun a => Fin.ext ?_)
  match a with
  | ⟨0, _⟩ => show win0_11.index t (0 : Fin 3) * 2 + 1 * (y 0).val = (y 0).val; omega
  | ⟨1, _⟩ => show win0_11.index t (1 : Fin 3) * 16 + 1 * (y 1).val = (y 1).val; omega
  | ⟨2, _⟩ => show win0_11.index t (2 : Fin 3) * 48 + 1 * (y 2).val = (y 2).val; omega

theorem blk12 (c : Dev nD) (t : Fin cfg0.N) :
    (iblk m c 12 t : S2x16x1.Idx → EReal) = (V m c main_v24 : S2x16x1.Idx → EReal) := by
  obtain ⟨e0, e1, e2⟩ := idx12 t
  funext y
  show V m c main_v24 (((cfg0.win 12).blk t).view.emb y) = V m c main_v24 y
  refine congrArg (V m c main_v24) (funext fun a => Fin.ext ?_)
  match a with
  | ⟨0, _⟩ => show win0_12.index t (0 : Fin 3) * 2 + 1 * (y 0).val = (y 0).val; omega
  | ⟨1, _⟩ => show win0_12.index t (1 : Fin 3) * 16 + 1 * (y 1).val = (y 1).val; omega
  | ⟨2, _⟩ => show win0_12.index t (2 : Fin 3) * 1 + 1 * (y 2).val = (y 2).val; omega

theorem blk13 (c : Dev nD) (t : Fin cfg0.N) :
    (iblk m c 13 t : S2x16x16.Idx → EReal) = (V m c main_v15 : S2x16x16.Idx → EReal) := by
  obtain ⟨e0, e1, e2⟩ := idx13 t
  funext y
  show V m c main_v15 (((cfg0.win 13).blk t).view.emb y) = V m c main_v15 y
  refine congrArg (V m c main_v15) (funext fun a => Fin.ext ?_)
  match a with
  | ⟨0, _⟩ => show win0_13.index t (0 : Fin 3) * 2 + 1 * (y 0).val = (y 0).val; omega
  | ⟨1, _⟩ => show win0_13.index t (1 : Fin 3) * 16 + 1 * (y 1).val = (y 1).val; omega
  | ⟨2, _⟩ => show win0_13.index t (2 : Fin 3) * 16 + 1 * (y 2).val = (y 2).val; omega

theorem blk14 (c : Dev nD) (t : Fin cfg0.N) :
    (iblk m c 14 t : S2x16x1.Idx → EReal) = (V m c main_v25 : S2x16x1.Idx → EReal) := by
  obtain ⟨e0, e1, e2⟩ := idx14 t
  funext y
  show V m c main_v25 (((cfg0.win 14).blk t).view.emb y) = V m c main_v25 y
  refine congrArg (V m c main_v25) (funext fun a => Fin.ext ?_)
  match a with
  | ⟨0, _⟩ => show win0_14.index t (0 : Fin 3) * 2 + 1 * (y 0).val = (y 0).val; omega
  | ⟨1, _⟩ => show win0_14.index t (1 : Fin 3) * 16 + 1 * (y 1).val = (y 1).val; omega
  | ⟨2, _⟩ => show win0_14.index t (2 : Fin 3) * 1 + 1 * (y 2).val = (y 2).val; omega

theorem blk15 (c : Dev nD) (t : Fin cfg0.N) :
    (iblk m c 15 t : S2x16x32.Idx → EReal) = (V m c main_v16 : S2x16x32.Idx → EReal) := by
  obtain ⟨e0, e1, e2⟩ := idx15 t
  funext y
  show V m c main_v16 (((cfg0.win 15).blk t).view.emb y) = V m c main_v16 y
  refine congrArg (V m c main_v16) (funext fun a => Fin.ext ?_)
  match a with
  | ⟨0, _⟩ => show win0_15.index t (0 : Fin 3) * 2 + 1 * (y 0).val = (y 0).val; omega
  | ⟨1, _⟩ => show win0_15.index t (1 : Fin 3) * 16 + 1 * (y 1).val = (y 1).val; omega
  | ⟨2, _⟩ => show win0_15.index t (2 : Fin 3) * 32 + 1 * (y 2).val = (y 2).val; omega

theorem blk16 (c : Dev nD) (t : Fin cfg0.N) :
    (iblk m c 16 t : S2x16x1.Idx → EReal) = (V m c main_v26 : S2x16x1.Idx → EReal) := by
  obtain ⟨e0, e1, e2⟩ := idx16 t
  funext y
  show V m c main_v26 (((cfg0.win 16).blk t).view.emb y) = V m c main_v26 y
  refine congrArg (V m c main_v26) (funext fun a => Fin.ext ?_)
  match a with
  | ⟨0, _⟩ => show win0_16.index t (0 : Fin 3) * 2 + 1 * (y 0).val = (y 0).val; omega
  | ⟨1, _⟩ => show win0_16.index t (1 : Fin 3) * 16 + 1 * (y 1).val = (y 1).val; omega
  | ⟨2, _⟩ => show win0_16.index t (2 : Fin 3) * 1 + 1 * (y 2).val = (y 2).val; omega

theorem blk17 (c : Dev nD) (t : Fin cfg0.N) :
    (iblk m c 17 t : S2x16x16.Idx → EReal) = (V m c main_v17 : S2x16x16.Idx → EReal) := by
  obtain ⟨e0, e1, e2⟩ := idx17 t
  funext y
  show V m c main_v17 (((cfg0.win 17).blk t).view.emb y) = V m c main_v17 y
  refine congrArg (V m c main_v17) (funext fun a => Fin.ext ?_)
  match a with
  | ⟨0, _⟩ => show win0_17.index t (0 : Fin 3) * 2 + 1 * (y 0).val = (y 0).val; omega
  | ⟨1, _⟩ => show win0_17.index t (1 : Fin 3) * 16 + 1 * (y 1).val = (y 1).val; omega
  | ⟨2, _⟩ => show win0_17.index t (2 : Fin 3) * 16 + 1 * (y 2).val = (y 2).val; omega

theorem blk18 (c : Dev nD) (t : Fin cfg0.N) :
    (iblk m c 18 t : S2x16x1.Idx → EReal) = (V m c main_v27 : S2x16x1.Idx → EReal) := by
  obtain ⟨e0, e1, e2⟩ := idx18 t
  funext y
  show V m c main_v27 (((cfg0.win 18).blk t).view.emb y) = V m c main_v27 y
  refine congrArg (V m c main_v27) (funext fun a => Fin.ext ?_)
  match a with
  | ⟨0, _⟩ => show win0_18.index t (0 : Fin 3) * 2 + 1 * (y 0).val = (y 0).val; omega
  | ⟨1, _⟩ => show win0_18.index t (1 : Fin 3) * 16 + 1 * (y 1).val = (y 1).val; omega
  | ⟨2, _⟩ => show win0_18.index t (2 : Fin 3) * 1 + 1 * (y 2).val = (y 2).val; omega

theorem blk19 (c : Dev nD) (t : Fin cfg0.N) :
    (iblk m c 19 t : S16x16.Idx → EReal) = (V m c main_v18 : S16x16.Idx → EReal) := by
  obtain ⟨e0, e1⟩ := idx19 t
  funext y
  show V m c main_v18 (((cfg0.win 19).blk t).view.emb y) = V m c main_v18 y
  refine congrArg (V m c main_v18) (funext fun a => Fin.ext ?_)
  match a with
  | ⟨0, _⟩ => show win0_19.index t (0 : Fin 2) * 16 + 1 * (y 0).val = (y 0).val; omega
  | ⟨1, _⟩ => show win0_19.index t (1 : Fin 2) * 16 + 1 * (y 1).val = (y 1).val; omega

theorem blk20 (c : Dev nD) (t : Fin cfg0.N) :
    (iblk m c 20 t : S16x1.Idx → EReal) = (V m c main_v28 : S16x1.Idx → EReal) := by
  obtain ⟨e0, e1⟩ := idx20 t
  funext y
  show V m c main_v28 (((cfg0.win 20).blk t).view.emb y) = V m c main_v28 y
  refine congrArg (V m c main_v28) (funext fun a => Fin.ext ?_)
  match a with
  | ⟨0, _⟩ => show win0_20.index t (0 : Fin 2) * 16 + 1 * (y 0).val = (y 0).val; omega
  | ⟨1, _⟩ => show win0_20.index t (1 : Fin 2) * 1 + 1 * (y 1).val = (y 1).val; omega

theorem blk21 (c : Dev nD) (t : Fin cfg0.N) :
    (iblk m c 21 t : S1x16.Idx → EReal) = (V m c main_v19 : S1x16.Idx → EReal) := by
  obtain ⟨e0, e1⟩ := idx21 t
  funext y
  show V m c main_v19 (((cfg0.win 21).blk t).view.emb y) = V m c main_v19 y
  refine congrArg (V m c main_v19) (funext fun a => Fin.ext ?_)
  match a with
  | ⟨0, _⟩ => show win0_21.index t (0 : Fin 2) * 1 + 1 * (y 0).val = (y 0).val; omega
  | ⟨1, _⟩ => show win0_21.index t (1 : Fin 2) * 16 + 1 * (y 1).val = (y 1).val; omega

theorem blk22 (c : Dev nD) (t : Fin cfg0.N) :
    (iblk m c 22 t : S1x1.Idx → EReal) = (V m c main_v29 : S1x1.Idx → EReal) := by
  obtain ⟨e0, e1⟩ := idx22 t
  funext y
  show V m c main_v29 (((cfg0.win 22).blk t).view.emb y) = V m c main_v29 y
  refine congrArg (V m c main_v29) (funext fun a => Fin.ext ?_)
  match a with
  | ⟨0, _⟩ => show win0_22.index t (0 : Fin 2) * 1 + 1 * (y 0).val = (y 0).val; omega
  | ⟨1, _⟩ => show win0_22.index t (1 : Fin 2) * 1 + 1 * (y 1).val = (y 1).val; omega

/-! ## What the region finds in each array, read back to the argument it was made from -/

theorem entry_v10 (c : Dev nD) (n : Fin 16) (k : Fin 2) :
    (V m c main_v10 : S16x2.Idx → EReal) (ix2 n k) = ((m ((c : Thread nD τ).loc main_arg4)) : S2x16.Idx → EReal) (ix2 k n) := by
  have e : (V m c main_v10 : S16x2.Idx → EReal)
      = transpose S16x2 [1, 0] (m ((c : Thread nD τ).loc main_arg4)) transposes_S2x16_S16x2_1_0 := by
    show StableHlo.after hostOps0 (fun b => m (c, b)) (Proc.devRef .tc main_v10) = _
    after_results <;> rfl
  rw [e]
  exact transpose_apply [1, 0] _ _ (ix2 n k) (ix2 k n) (fun a => by
    match a with
    | ⟨0, _⟩ => rfl
    | ⟨1, _⟩ => rfl)

theorem entry_v11 (c : Dev nD) (n : Fin 16) (k : Fin 16) :
    (V m c main_v11 : S16x16.Idx → EReal) (ix2 n k) = ((m ((c : Thread nD τ).loc main_arg6)) : S16x16.Idx → EReal) (ix2 k n) := by
  have e : (V m c main_v11 : S16x16.Idx → EReal)
      = transpose S16x16 [1, 0] (m ((c : Thread nD τ).loc main_arg6)) transposes_S16x16_S16x16_1_0 := by
    show StableHlo.after hostOps0 (fun b => m (c, b)) (Proc.devRef .tc main_v11) = _
    after_results <;> rfl
  rw [e]
  exact transpose_apply [1, 0] _ _ (ix2 n k) (ix2 k n) (fun a => by
    match a with
    | ⟨0, _⟩ => rfl
    | ⟨1, _⟩ => rfl)

theorem entry_v12 (c : Dev nD) (n : Fin 16) (k : Fin 3) :
    (V m c main_v12 : S16x3.Idx → EReal) (ix2 n k) = ((m ((c : Thread nD τ).loc main_arg8)) : S3x16.Idx → EReal) (ix2 k n) := by
  have e : (V m c main_v12 : S16x3.Idx → EReal)
      = transpose S16x3 [1, 0] (m ((c : Thread nD τ).loc main_arg8)) transposes_S3x16_S16x3_1_0 := by
    show StableHlo.after hostOps0 (fun b => m (c, b)) (Proc.devRef .tc main_v12) = _
    after_results <;> rfl
  rw [e]
  exact transpose_apply [1, 0] _ _ (ix2 n k) (ix2 k n) (fun a => by
    match a with
    | ⟨0, _⟩ => rfl
    | ⟨1, _⟩ => rfl)

theorem entry_v13 (c : Dev nD) (n : Fin 16) (k : Fin 16) :
    (V m c main_v13 : S16x16.Idx → EReal) (ix2 n k) = ((m ((c : Thread nD τ).loc main_arg10)) : S16x16.Idx → EReal) (ix2 k n) := by
  have e : (V m c main_v13 : S16x16.Idx → EReal)
      = transpose S16x16 [1, 0] (m ((c : Thread nD τ).loc main_arg10)) transposes_S16x16_S16x16_1_0 := by
    show StableHlo.after hostOps0 (fun b => m (c, b)) (Proc.devRef .tc main_v13) = _
    after_results <;> rfl
  rw [e]
  exact transpose_apply [1, 0] _ _ (ix2 n k) (ix2 k n) (fun a => by
    match a with
    | ⟨0, _⟩ => rfl
    | ⟨1, _⟩ => rfl)

theorem entry_v18 (c : Dev nD) (n : Fin 16) (k : Fin 16) :
    (V m c main_v18 : S16x16.Idx → EReal) (ix2 n k) = ((m ((c : Thread nD τ).loc main_arg20)) : S16x16.Idx → EReal) (ix2 k n) := by
  have e : (V m c main_v18 : S16x16.Idx → EReal)
      = transpose S16x16 [1, 0] (m ((c : Thread nD τ).loc main_arg20)) transposes_S16x16_S16x16_1_0 := by
    show StableHlo.after hostOps0 (fun b => m (c, b)) (Proc.devRef .tc main_v18) = _
    after_results <;> rfl
  rw [e]
  exact transpose_apply [1, 0] _ _ (ix2 n k) (ix2 k n) (fun a => by
    match a with
    | ⟨0, _⟩ => rfl
    | ⟨1, _⟩ => rfl)

theorem entry_v19 (c : Dev nD) (n : Fin 1) (k : Fin 16) :
    (V m c main_v19 : S1x16.Idx → EReal) (ix2 n k) = ((m ((c : Thread nD τ).loc main_arg22)) : S16x1.Idx → EReal) (ix2 k n) := by
  have e : (V m c main_v19 : S1x16.Idx → EReal)
      = transpose S1x16 [1, 0] (m ((c : Thread nD τ).loc main_arg22)) transposes_S16x1_S1x16_1_0 := by
    show StableHlo.after hostOps0 (fun b => m (c, b)) (Proc.devRef .tc main_v19) = _
    after_results <;> rfl
  rw [e]
  exact transpose_apply [1, 0] _ _ (ix2 n k) (ix2 k n) (fun a => by
    match a with
    | ⟨0, _⟩ => rfl
    | ⟨1, _⟩ => rfl)

theorem entry_v14 (c : Dev nD) (l : Fin 2) (n : Fin 16) (k : Fin 48) :
    (V m c main_v14 : S2x16x48.Idx → EReal) (ix3 l n k) = ((m ((c : Thread nD τ).loc main_arg12)) : S2x48x16.Idx → EReal) (ix3 l k n) := by
  have e : (V m c main_v14 : S2x16x48.Idx → EReal)
      = transpose S2x16x48 [0, 2, 1] (m ((c : Thread nD τ).loc main_arg12)) transposes_S2x48x16_S2x16x48_0_2_1 := by
    show StableHlo.after hostOps0 (fun b => m (c, b)) (Proc.devRef .tc main_v14) = _
    after_results <;> rfl
  rw [e]
  exact transpose_apply [0, 2, 1] _ _ (ix3 l n k) (ix3 l k n) (fun a => by
    match a with
    | ⟨0, _⟩ => rfl
    | ⟨1, _⟩ => rfl
    | ⟨2, _⟩ => rfl)

theorem entry_v15 (c : Dev nD) (l : Fin 2) (n : Fin 16) (k : Fin 16) :
    (V m c main_v15 : S2x16x16.Idx → EReal) (ix3 l n k) = ((m ((c : Thread nD τ).loc main_arg14)) : S2x16x16.Idx → EReal) (ix3 l k n) := by
  have e : (V m c main_v15 : S2x16x16.Idx → EReal)
      = transpose S2x16x16 [0, 2, 1] (m ((c : Thread nD τ).loc main_arg14)) transposes_S2x16x16_S2x16x16_0_2_1 := by
    show StableHlo.after hostOps0 (fun b => m (c, b)) (Proc.devRef .tc main_v15) = _
    after_results <;> rfl
  rw [e]
  exact transpose_apply [0, 2, 1] _ _ (ix3 l n k) (ix3 l k n) (fun a => by
    match a with
    | ⟨0, _⟩ => rfl
    | ⟨1, _⟩ => rfl
    | ⟨2, _⟩ => rfl)

theorem entry_v16 (c : Dev nD) (l : Fin 2) (n : Fin 16) (k : Fin 32) :
    (V m c main_v16 : S2x16x32.Idx → EReal) (ix3 l n k) = ((m ((c : Thread nD τ).loc main_arg16)) : S2x32x16.Idx → EReal) (ix3 l k n) := by
  have e : (V m c main_v16 : S2x16x32.Idx → EReal)
      = transpose S2x16x32 [0, 2, 1] (m ((c : Thread nD τ).loc main_arg16)) transposes_S2x32x16_S2x16x32_0_2_1 := by
    show StableHlo.after hostOps0 (fun b => m (c, b)) (Proc.devRef .tc main_v16) = _
    after_results <;> rfl
  rw [e]
  exact transpose_apply [0, 2, 1] _ _ (ix3 l n k) (ix3 l k n) (fun a => by
    match a with
    | ⟨0, _⟩ => rfl
    | ⟨1, _⟩ => rfl
    | ⟨2, _⟩ => rfl)

theorem entry_v17 (c : Dev nD) (l : Fin 2) (n : Fin 16) (k : Fin 16) :
    (V m c main_v17 : S2x16x16.Idx → EReal) (ix3 l n k) = ((m ((c : Thread nD τ).loc main_arg18)) : S2x16x16.Idx → EReal) (ix3 l k n) := by
  have e : (V m c main_v17 : S2x16x16.Idx → EReal)
      = transpose S2x16x16 [0, 2, 1] (m ((c : Thread nD τ).loc main_arg18)) transposes_S2x16x16_S2x16x16_0_2_1 := by
    show StableHlo.after hostOps0 (fun b => m (c, b)) (Proc.devRef .tc main_v17) = _
    after_results <;> rfl
  rw [e]
  exact transpose_apply [0, 2, 1] _ _ (ix3 l n k) (ix3 l k n) (fun a => by
    match a with
    | ⟨0, _⟩ => rfl
    | ⟨1, _⟩ => rfl
    | ⟨2, _⟩ => rfl)

theorem entry_v20 (c : Dev nD) (n : Fin 16) :
    (V m c main_v20 : S16x1.Idx → EReal) (ix2 n 0) = ((m ((c : Thread nD τ).loc main_arg5)) : S16.Idx → EReal) (ix1 n) := by
  have e : (V m c main_v20 : S16x1.Idx → EReal)
      = shapeCast S16x1 (m ((c : Thread nD τ).loc main_arg5)) shapeCasts_S16_S16x1 := by
    show StableHlo.after hostOps0 (fun b => m (c, b)) (Proc.devRef .tc main_v20) = _
    after_results <;> rfl
  rw [e]
  exact shapeCast_apply _ _ (ix2 n 0) (ix1 n) (by
    rw [Shape.rowMajor_val_one, Shape.rowMajor_val_two]; show n.val = n.val * 1 + 0; omega)

theorem entry_v21 (c : Dev nD) (n : Fin 16) :
    (V m c main_v21 : S16x1.Idx → EReal) (ix2 n 0) = ((m ((c : Thread nD τ).loc main_arg7)) : S16.Idx → EReal) (ix1 n) := by
  have e : (V m c main_v21 : S16x1.Idx → EReal)
      = shapeCast S16x1 (m ((c : Thread nD τ).loc main_arg7)) shapeCasts_S16_S16x1 := by
    show StableHlo.after hostOps0 (fun b => m (c, b)) (Proc.devRef .tc main_v21) = _
    after_results <;> rfl
  rw [e]
  exact shapeCast_apply _ _ (ix2 n 0) (ix1 n) (by
    rw [Shape.rowMajor_val_one, Shape.rowMajor_val_two]; show n.val = n.val * 1 + 0; omega)

theorem entry_v22 (c : Dev nD) (n : Fin 16) :
    (V m c main_v22 : S16x1.Idx → EReal) (ix2 n 0) = ((m ((c : Thread nD τ).loc main_arg9)) : S16.Idx → EReal) (ix1 n) := by
  have e : (V m c main_v22 : S16x1.Idx → EReal)
      = shapeCast S16x1 (m ((c : Thread nD τ).loc main_arg9)) shapeCasts_S16_S16x1 := by
    show StableHlo.after hostOps0 (fun b => m (c, b)) (Proc.devRef .tc main_v22) = _
    after_results <;> rfl
  rw [e]
  exact shapeCast_apply _ _ (ix2 n 0) (ix1 n) (by
    rw [Shape.rowMajor_val_one, Shape.rowMajor_val_two]; show n.val = n.val * 1 + 0; omega)

theorem entry_v23 (c : Dev nD) (n : Fin 16) :
    (V m c main_v23 : S16x1.Idx → EReal) (ix2 n 0) = ((m ((c : Thread nD τ).loc main_arg11)) : S16.Idx → EReal) (ix1 n) := by
  have e : (V m c main_v23 : S16x1.Idx → EReal)
      = shapeCast S16x1 (m ((c : Thread nD τ).loc main_arg11)) shapeCasts_S16_S16x1 := by
    show StableHlo.after hostOps0 (fun b => m (c, b)) (Proc.devRef .tc main_v23) = _
    after_results <;> rfl
  rw [e]
  exact shapeCast_apply _ _ (ix2 n 0) (ix1 n) (by
    rw [Shape.rowMajor_val_one, Shape.rowMajor_val_two]; show n.val = n.val * 1 + 0; omega)

theorem entry_v28 (c : Dev nD) (n : Fin 16) :
    (V m c main_v28 : S16x1.Idx → EReal) (ix2 n 0) = ((m ((c : Thread nD τ).loc main_arg21)) : S16.Idx → EReal) (ix1 n) := by
  have e : (V m c main_v28 : S16x1.Idx → EReal)
      = shapeCast S16x1 (m ((c : Thread nD τ).loc main_arg21)) shapeCasts_S16_S16x1 := by
    show StableHlo.after hostOps0 (fun b => m (c, b)) (Proc.devRef .tc main_v28) = _
    after_results <;> rfl
  rw [e]
  exact shapeCast_apply _ _ (ix2 n 0) (ix1 n) (by
    rw [Shape.rowMajor_val_one, Shape.rowMajor_val_two]; show n.val = n.val * 1 + 0; omega)

theorem entry_v24 (c : Dev nD) (l : Fin 2) (n : Fin 16) :
    (V m c main_v24 : S2x16x1.Idx → EReal) (ix3 l n 0) = ((m ((c : Thread nD τ).loc main_arg13)) : S2x16.Idx → EReal) (ix2 l n) := by
  have e : (V m c main_v24 : S2x16x1.Idx → EReal)
      = shapeCast S2x16x1 (m ((c : Thread nD τ).loc main_arg13)) shapeCasts_S2x16_S2x16x1 := by
    show StableHlo.after hostOps0 (fun b => m (c, b)) (Proc.devRef .tc main_v24) = _
    after_results <;> rfl
  rw [e]
  exact shapeCast_apply _ _ (ix3 l n 0) (ix2 l n) (by
    rw [Shape.rowMajor_val_two, Shape.rowMajor_val_three]; show l.val * 16 + n.val = (l.val * 16 + n.val) * 1 + 0; omega)

theorem entry_v25 (c : Dev nD) (l : Fin 2) (n : Fin 16) :
    (V m c main_v25 : S2x16x1.Idx → EReal) (ix3 l n 0) = ((m ((c : Thread nD τ).loc main_arg15)) : S2x16.Idx → EReal) (ix2 l n) := by
  have e : (V m c main_v25 : S2x16x1.Idx → EReal)
      = shapeCast S2x16x1 (m ((c : Thread nD τ).loc main_arg15)) shapeCasts_S2x16_S2x16x1 := by
    show StableHlo.after hostOps0 (fun b => m (c, b)) (Proc.devRef .tc main_v25) = _
    after_results <;> rfl
  rw [e]
  exact shapeCast_apply _ _ (ix3 l n 0) (ix2 l n) (by
    rw [Shape.rowMajor_val_two, Shape.rowMajor_val_three]; show l.val * 16 + n.val = (l.val * 16 + n.val) * 1 + 0; omega)

theorem entry_v26 (c : Dev nD) (l : Fin 2) (n : Fin 16) :
    (V m c main_v26 : S2x16x1.Idx → EReal) (ix3 l n 0) = ((m ((c : Thread nD τ).loc main_arg17)) : S2x16.Idx → EReal) (ix2 l n) := by
  have e : (V m c main_v26 : S2x16x1.Idx → EReal)
      = shapeCast S2x16x1 (m ((c : Thread nD τ).loc main_arg17)) shapeCasts_S2x16_S2x16x1 := by
    show StableHlo.after hostOps0 (fun b => m (c, b)) (Proc.devRef .tc main_v26) = _
    after_results <;> rfl
  rw [e]
  exact shapeCast_apply _ _ (ix3 l n 0) (ix2 l n) (by
    rw [Shape.rowMajor_val_two, Shape.rowMajor_val_three]; show l.val * 16 + n.val = (l.val * 16 + n.val) * 1 + 0; omega)

theorem entry_v27 (c : Dev nD) (l : Fin 2) (n : Fin 16) :
    (V m c main_v27 : S2x16x1.Idx → EReal) (ix3 l n 0) = ((m ((c : Thread nD τ).loc main_arg19)) : S2x16.Idx → EReal) (ix2 l n) := by
  have e : (V m c main_v27 : S2x16x1.Idx → EReal)
      = shapeCast S2x16x1 (m ((c : Thread nD τ).loc main_arg19)) shapeCasts_S2x16_S2x16x1 := by
    show StableHlo.after hostOps0 (fun b => m (c, b)) (Proc.devRef .tc main_v27) = _
    after_results <;> rfl
  rw [e]
  exact shapeCast_apply _ _ (ix3 l n 0) (ix2 l n) (by
    rw [Shape.rowMajor_val_two, Shape.rowMajor_val_three]; show l.val * 16 + n.val = (l.val * 16 + n.val) * 1 + 0; omega)

theorem entry_v29 (c : Dev nD) (n : Fin 1) :
    (V m c main_v29 : S1x1.Idx → EReal) (ix2 n 0) = ((m ((c : Thread nD τ).loc main_arg23)) : S1.Idx → EReal) (ix1 n) := by
  have e : (V m c main_v29 : S1x1.Idx → EReal)
      = shapeCast S1x1 (m ((c : Thread nD τ).loc main_arg23)) shapeCasts_S1_S1x1 := by
    show StableHlo.after hostOps0 (fun b => m (c, b)) (Proc.devRef .tc main_v29) = _
    after_results <;> rfl
  rw [e]
  exact shapeCast_apply _ _ (ix2 n 0) (ix1 n) (by
    rw [Shape.rowMajor_val_one, Shape.rowMajor_val_two]; show n.val = n.val * 1 + 0; omega)

theorem entry_v2 (c : Dev nD) (k : Fin 2) (b : Fin 1048576) :
    (V m c main_v2 : S2x1048576.Idx → EReal) (ix2 k b) = nodeFeat (m ((c : Thread nD τ).loc main_arg0)) b 0 k := by
  have e : (V m c main_v2 : S2x1048576.Idx → EReal)
      = transpose S2x1048576 [1, 0] (shapeCast S1048576x2 (extractStridedSlice S1048576x1x2 ![0, 0, 0]
          (m ((c : Thread nD τ).loc main_arg0)) slices_S1048576x2x2_S1048576x1x2_0_0_0) shapeCasts_S1048576x1x2_S1048576x2)
          transposes_S1048576x2_S2x1048576_1_0 := by
    show StableHlo.after hostOps0 (fun b => m (c, b)) (Proc.devRef .tc main_v2) = _
    after_results <;> rfl
  rw [e]
  refine (transpose_apply [1, 0] _ _ (ix2 k b) (ix2 b k) (fun a => by
    match a with
    | ⟨0, _⟩ => rfl
    | ⟨1, _⟩ => rfl)).trans ?_
  refine (shapeCast_apply _ _ (ix2 b k) (ix3 b (0 : Fin 1) k) (by
    rw [Shape.rowMajor_val_three, Shape.rowMajor_val_two]; show (b.val * 1 + 0) * 2 + k.val = b.val * 2 + k.val; omega)).trans ?_
  exact extractStridedSlice_apply _ _ _ (ix3 b (0 : Fin 1) k) (ix3 b 0 k) (fun a => by
    match a with
    | ⟨0, _⟩ => show b.val = 0 + b.val; omega
    | ⟨1, _⟩ => rfl
    | ⟨2, _⟩ => show k.val = 0 + k.val; omega)

theorem entry_v5 (c : Dev nD) (k : Fin 2) (b : Fin 1048576) :
    (V m c main_v5 : S2x1048576.Idx → EReal) (ix2 k b) = nodeFeat (m ((c : Thread nD τ).loc main_arg0)) b 1 k := by
  have e : (V m c main_v5 : S2x1048576.Idx → EReal)
      = transpose S2x1048576 [1, 0] (shapeCast S1048576x2 (extractStridedSlice S1048576x1x2 ![0, 1, 0]
          (m ((c : Thread nD τ).loc main_arg0)) slices_S1048576x2x2_S1048576x1x2_0_1_0) shapeCasts_S1048576x1x2_S1048576x2)
          transposes_S1048576x2_S2x1048576_1_0 := by
    show StableHlo.after hostOps0 (fun b => m (c, b)) (Proc.devRef .tc main_v5) = _
    after_results <;> rfl
  rw [e]
  refine (transpose_apply [1, 0] _ _ (ix2 k b) (ix2 b k) (fun a => by
    match a with
    | ⟨0, _⟩ => rfl
    | ⟨1, _⟩ => rfl)).trans ?_
  refine (shapeCast_apply _ _ (ix2 b k) (ix3 b (0 : Fin 1) k) (by
    rw [Shape.rowMajor_val_three, Shape.rowMajor_val_two]; show (b.val * 1 + 0) * 2 + k.val = b.val * 2 + k.val; omega)).trans ?_
  exact extractStridedSlice_apply _ _ _ (ix3 b (0 : Fin 1) k) (ix3 b 1 k) (fun a => by
    match a with
    | ⟨0, _⟩ => show b.val = 0 + b.val; omega
    | ⟨1, _⟩ => rfl
    | ⟨2, _⟩ => show k.val = 0 + k.val; omega)

theorem entry_v9 (c : Dev nD) (k : Fin 3) (b : Fin 1048576) :
    (V m c main_v9 : S3x1048576.Idx → EReal) (ix2 k b) = edgeFeat (m ((c : Thread nD τ).loc main_arg1)) (m ((c : Thread nD τ).loc main_arg2)) (m ((c : Thread nD τ).loc main_arg3)) b k := by
  have e : (V m c main_v9 : S3x1048576.Idx → EReal)
      = concatenate S3x1048576 0 [⟨S1x1048576, broadcastInDim S1x1048576 ![1] bcast_S1048576_S1x1048576_1 (m ((c : Thread nD τ).loc main_arg1))⟩,
          ⟨S1x1048576, broadcastInDim S1x1048576 ![1] bcast_S1048576_S1x1048576_1 (m ((c : Thread nD τ).loc main_arg2))⟩,
          ⟨S1x1048576, broadcastInDim S1x1048576 ![1] bcast_S1048576_S1x1048576_1 (m ((c : Thread nD τ).loc main_arg3))⟩]
          concatenates_S1x1048576_S1x1048576_S1x1048576_S3x1048576_d0 := by
    show StableHlo.after hostOps0 (fun b => m (c, b)) (Proc.devRef .tc main_v9) = _
    after_results <;> rfl
  rw [e]
  unfold edgeFeat
  match k with
  | ⟨0, hk⟩ =>
    refine (concatenate_apply_piece 0 [⟨S1x1048576, broadcastInDim S1x1048576 ![1] bcast_S1048576_S1x1048576_1 (m ((c : Thread nD τ).loc main_arg1))⟩,
          ⟨S1x1048576, broadcastInDim S1x1048576 ![1] bcast_S1048576_S1x1048576_1 (m ((c : Thread nD τ).loc main_arg2))⟩,
          ⟨S1x1048576, broadcastInDim S1x1048576 ![1] bcast_S1048576_S1x1048576_1 (m ((c : Thread nD τ).loc main_arg3))⟩]
      concatenates_S1x1048576_S1x1048576_S1x1048576_S3x1048576_d0 (ix2 ⟨0, hk⟩ b) 0 (by simp) S1x1048576 _ rfl rfl 0 rfl
      (ix2 (0 : Fin 1) b) (fun a ha => by
        match a with
        | ⟨0, _⟩ => exact absurd rfl ha
        | ⟨1, _⟩ => rfl) (by rfl)).trans ?_
    refine (broadcastInDim_apply ![1] _ _ (ix2 (0 : Fin 1) b) (ix1 b) (fun a => by
      match a with
      | ⟨0, _⟩ => first | (simp; done) | (simp; rfl))).trans ?_
    simp
  | ⟨1, hk⟩ =>
    refine (concatenate_apply_piece 0 [⟨S1x1048576, broadcastInDim S1x1048576 ![1] bcast_S1048576_S1x1048576_1 (m ((c : Thread nD τ).loc main_arg1))⟩,
          ⟨S1x1048576, broadcastInDim S1x1048576 ![1] bcast_S1048576_S1x1048576_1 (m ((c : Thread nD τ).loc main_arg2))⟩,
          ⟨S1x1048576, broadcastInDim S1x1048576 ![1] bcast_S1048576_S1x1048576_1 (m ((c : Thread nD τ).loc main_arg3))⟩]
      concatenates_S1x1048576_S1x1048576_S1x1048576_S3x1048576_d0 (ix2 ⟨1, hk⟩ b) 1 (by simp) S1x1048576 _ rfl rfl 1 rfl
      (ix2 (0 : Fin 1) b) (fun a ha => by
        match a with
        | ⟨0, _⟩ => exact absurd rfl ha
        | ⟨1, _⟩ => rfl) (by rfl)).trans ?_
    refine (broadcastInDim_apply ![1] _ _ (ix2 (0 : Fin 1) b) (ix1 b) (fun a => by
      match a with
      | ⟨0, _⟩ => first | (simp; done) | (simp; rfl))).trans ?_
    simp
  | ⟨2, hk⟩ =>
    refine (concatenate_apply_piece 0 [⟨S1x1048576, broadcastInDim S1x1048576 ![1] bcast_S1048576_S1x1048576_1 (m ((c : Thread nD τ).loc main_arg1))⟩,
          ⟨S1x1048576, broadcastInDim S1x1048576 ![1] bcast_S1048576_S1x1048576_1 (m ((c : Thread nD τ).loc main_arg2))⟩,
          ⟨S1x1048576, broadcastInDim S1x1048576 ![1] bcast_S1048576_S1x1048576_1 (m ((c : Thread nD τ).loc main_arg3))⟩]
      concatenates_S1x1048576_S1x1048576_S1x1048576_S3x1048576_d0 (ix2 ⟨2, hk⟩ b) 2 (by simp) S1x1048576 _ rfl rfl 2 rfl
      (ix2 (0 : Fin 1) b) (fun a ha => by
        match a with
        | ⟨0, _⟩ => exact absurd rfl ha
        | ⟨1, _⟩ => rfl) (by rfl)).trans ?_
    refine (broadcastInDim_apply ![1] _ _ (ix2 (0 : Fin 1) b) (ix1 b) (fun a => by
      match a with
      | ⟨0, _⟩ => first | (simp; done) | (simp; rfl))).trans ?_
    simp

/-! ## One layer of a stacked block -/

theorem ld0_S2x16x48 (X : Vec Ideal S2x16x48 .f32) (n : Fin 16) (k : Fin 48) :
    (View.ld X layer0_S2x16x48 : Vec Ideal S1x16x48 .f32) (ix3 0 n k) = X (ix3 0 n k) := by
  show X (layer0_S2x16x48.emb (ix3 0 n k)) = _
  refine congrArg X (funext fun a => Fin.ext ?_)
  match a with
  | ⟨0, _⟩ => first | rfl | (simp; done)
  | ⟨1, _⟩ => first | rfl | (simp; done)
  | ⟨2, _⟩ => first | rfl | (simp; done)

theorem ld1_S2x16x48 (X : Vec Ideal S2x16x48 .f32) (n : Fin 16) (k : Fin 48) :
    (View.ld X layer1_S2x16x48 : Vec Ideal S1x16x48 .f32) (ix3 0 n k) = X (ix3 1 n k) := by
  show X (layer1_S2x16x48.emb (ix3 0 n k)) = _
  refine congrArg X (funext fun a => Fin.ext ?_)
  match a with
  | ⟨0, _⟩ => first | rfl | (simp; done)
  | ⟨1, _⟩ => first | rfl | (simp; done)
  | ⟨2, _⟩ => first | rfl | (simp; done)

theorem ld0_S2x16x1 (X : Vec Ideal S2x16x1 .f32) (n : Fin 16) (k : Fin 1) :
    (View.ld X layer0_S2x16x1 : Vec Ideal S1x16x1 .f32) (ix3 0 n k) = X (ix3 0 n k) := by
  show X (layer0_S2x16x1.emb (ix3 0 n k)) = _
  refine congrArg X (funext fun a => Fin.ext ?_)
  match a with
  | ⟨0, _⟩ => first | rfl | (simp; done)
  | ⟨1, _⟩ => first | rfl | (simp; done)
  | ⟨2, _⟩ => first | rfl | (simp; done)

theorem ld1_S2x16x1 (X : Vec Ideal S2x16x1 .f32) (n : Fin 16) (k : Fin 1) :
    (View.ld X layer1_S2x16x1 : Vec Ideal S1x16x1 .f32) (ix3 0 n k) = X (ix3 1 n k) := by
  show X (layer1_S2x16x1.emb (ix3 0 n k)) = _
  refine congrArg X (funext fun a => Fin.ext ?_)
  match a with
  | ⟨0, _⟩ => first | rfl | (simp; done)
  | ⟨1, _⟩ => first | rfl | (simp; done)
  | ⟨2, _⟩ => first | rfl | (simp; done)

theorem ld0_S2x16x16 (X : Vec Ideal S2x16x16 .f32) (n : Fin 16) (k : Fin 16) :
    (View.ld X layer0_S2x16x16 : Vec Ideal S1x16x16 .f32) (ix3 0 n k) = X (ix3 0 n k) := by
  show X (layer0_S2x16x16.emb (ix3 0 n k)) = _
  refine congrArg X (funext fun a => Fin.ext ?_)
  match a with
  | ⟨0, _⟩ => first | rfl | (simp; done)
  | ⟨1, _⟩ => first | rfl | (simp; done)
  | ⟨2, _⟩ => first | rfl | (simp; done)

theorem ld1_S2x16x16 (X : Vec Ideal S2x16x16 .f32) (n : Fin 16) (k : Fin 16) :
    (View.ld X layer1_S2x16x16 : Vec Ideal S1x16x16 .f32) (ix3 0 n k) = X (ix3 1 n k) := by
  show X (layer1_S2x16x16.emb (ix3 0 n k)) = _
  refine congrArg X (funext fun a => Fin.ext ?_)
  match a with
  | ⟨0, _⟩ => first | rfl | (simp; done)
  | ⟨1, _⟩ => first | rfl | (simp; done)
  | ⟨2, _⟩ => first | rfl | (simp; done)

theorem ld0_S2x16x32 (X : Vec Ideal S2x16x32 .f32) (n : Fin 16) (k : Fin 32) :
    (View.ld X layer0_S2x16x32 : Vec Ideal S1x16x32 .f32) (ix3 0 n k) = X (ix3 0 n k) := by
  show X (layer0_S2x16x32.emb (ix3 0 n k)) = _
  refine congrArg X (funext fun a => Fin.ext ?_)
  match a with
  | ⟨0, _⟩ => first | rfl | (simp; done)
  | ⟨1, _⟩ => first | rfl | (simp; done)
  | ⟨2, _⟩ => first | rfl | (simp; done)

theorem ld1_S2x16x32 (X : Vec Ideal S2x16x32 .f32) (n : Fin 16) (k : Fin 32) :
    (View.ld X layer1_S2x16x32 : Vec Ideal S1x16x32 .f32) (ix3 0 n k) = X (ix3 1 n k) := by
  show X (layer1_S2x16x32.emb (ix3 0 n k)) = _
  refine congrArg X (funext fun a => Fin.ext ?_)
  match a with
  | ⟨0, _⟩ => first | rfl | (simp; done)
  | ⟨1, _⟩ => first | rfl | (simp; done)
  | ⟨2, _⟩ => first | rfl | (simp; done)

/-! ## The weights the body loads are the argument weights -/

/-- Two weight records with the same fields are the same record. -/
theorem params_ext {P Q : Params} (h0 : P.neW1 = Q.neW1) (h1 : P.neB1 = Q.neB1) (h2 : P.neW2 = Q.neW2) (h3 : P.neB2 = Q.neB2) (h4 : P.eeW1 = Q.eeW1) (h5 : P.eeB1 = Q.eeB1) (h6 : P.eeW2 = Q.eeW2) (h7 : P.eeB2 = Q.eeB2) (h8 : P.mW1 = Q.mW1) (h9 : P.mB1 = Q.mB1) (h10 : P.mW2 = Q.mW2) (h11 : P.mB2 = Q.mB2) (h12 : P.uW1 = Q.uW1) (h13 : P.uB1 = Q.uB1) (h14 : P.uW2 = Q.uW2) (h15 : P.uB2 = Q.uB2) (h16 : P.cW1 = Q.cW1) (h17 : P.cB1 = Q.cB1) (h18 : P.cW2 = Q.cW2) (h19 : P.cB2 = Q.cB2) : P = Q := by
  cases P; cases Q
  dsimp only at *
  subst_vars
  rfl

set_option maxHeartbeats 4000000 in
theorem params_eq (c : Dev nD) (t : Fin cfg0.N) :
    blockParams (iblk m c 3 t) (iblk m c 4 t) (iblk m c 5 t) (iblk m c 6 t) (iblk m c 7 t) (iblk m c 8 t) (iblk m c 9 t) (iblk m c 10 t)
      (View.ld (iblk m c 11 t : Vec Ideal S2x16x48 .f32) layer0_S2x16x48) (View.ld (iblk m c 12 t : Vec Ideal S2x16x1 .f32) layer0_S2x16x1) (View.ld (iblk m c 13 t : Vec Ideal S2x16x16 .f32) layer0_S2x16x16) (View.ld (iblk m c 14 t : Vec Ideal S2x16x1 .f32) layer0_S2x16x1)
      (View.ld (iblk m c 15 t : Vec Ideal S2x16x32 .f32) layer0_S2x16x32) (View.ld (iblk m c 16 t : Vec Ideal S2x16x1 .f32) layer0_S2x16x1) (View.ld (iblk m c 17 t : Vec Ideal S2x16x16 .f32) layer0_S2x16x16) (View.ld (iblk m c 18 t : Vec Ideal S2x16x1 .f32) layer0_S2x16x1)
      (View.ld (iblk m c 11 t : Vec Ideal S2x16x48 .f32) layer1_S2x16x48) (View.ld (iblk m c 12 t : Vec Ideal S2x16x1 .f32) layer1_S2x16x1) (View.ld (iblk m c 13 t : Vec Ideal S2x16x16 .f32) layer1_S2x16x16) (View.ld (iblk m c 14 t : Vec Ideal S2x16x1 .f32) layer1_S2x16x1)
      (View.ld (iblk m c 15 t : Vec Ideal S2x16x32 .f32) layer1_S2x16x32) (View.ld (iblk m c 16 t : Vec Ideal S2x16x1 .f32) layer1_S2x16x1) (View.ld (iblk m c 17 t : Vec Ideal S2x16x16 .f32) layer1_S2x16x16) (View.ld (iblk m c 18 t : Vec Ideal S2x16x1 .f32) layer1_S2x16x1)
      (iblk m c 19 t) (iblk m c 20 t) (iblk m c 21 t) (iblk m c 22 t)
      = paramsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine params_ext ?_ ?_ ?_ ?_ ?_ ?_ ?_ ?_ ?_ ?_ ?_ ?_ ?_ ?_ ?_ ?_ ?_ ?_ ?_ ?_
  · funext k n; exact (congrFun (blk3 m c t) (ix2 n k)).trans (entry_v10 m c n k)
  · funext n; exact (congrFun (blk4 m c t) (ix2 n 0)).trans (entry_v20 m c n)
  · funext k n; exact (congrFun (blk5 m c t) (ix2 n k)).trans (entry_v11 m c n k)
  · funext n; exact (congrFun (blk6 m c t) (ix2 n 0)).trans (entry_v21 m c n)
  · funext k n; exact (congrFun (blk7 m c t) (ix2 n k)).trans (entry_v12 m c n k)
  · funext n; exact (congrFun (blk8 m c t) (ix2 n 0)).trans (entry_v22 m c n)
  · funext k n; exact (congrFun (blk9 m c t) (ix2 n k)).trans (entry_v13 m c n k)
  · funext n; exact (congrFun (blk10 m c t) (ix2 n 0)).trans (entry_v23 m c n)
  · funext l k n
    match l with
    | ⟨0, _⟩ => exact (ld0_S2x16x48 (iblk m c 11 t) n k).trans ((congrFun (blk11 m c t) (ix3 0 n k)).trans (entry_v14 m c 0 n k))
    | ⟨1, _⟩ => exact (ld1_S2x16x48 (iblk m c 11 t) n k).trans ((congrFun (blk11 m c t) (ix3 1 n k)).trans (entry_v14 m c 1 n k))
  · funext l n
    match l with
    | ⟨0, _⟩ => exact (ld0_S2x16x1 (iblk m c 12 t) n 0).trans ((congrFun (blk12 m c t) (ix3 0 n 0)).trans (entry_v24 m c 0 n))
    | ⟨1, _⟩ => exact (ld1_S2x16x1 (iblk m c 12 t) n 0).trans ((congrFun (blk12 m c t) (ix3 1 n 0)).trans (entry_v24 m c 1 n))
  · funext l k n
    match l with
    | ⟨0, _⟩ => exact (ld0_S2x16x16 (iblk m c 13 t) n k).trans ((congrFun (blk13 m c t) (ix3 0 n k)).trans (entry_v15 m c 0 n k))
    | ⟨1, _⟩ => exact (ld1_S2x16x16 (iblk m c 13 t) n k).trans ((congrFun (blk13 m c t) (ix3 1 n k)).trans (entry_v15 m c 1 n k))
  · funext l n
    match l with
    | ⟨0, _⟩ => exact (ld0_S2x16x1 (iblk m c 14 t) n 0).trans ((congrFun (blk14 m c t) (ix3 0 n 0)).trans (entry_v25 m c 0 n))
    | ⟨1, _⟩ => exact (ld1_S2x16x1 (iblk m c 14 t) n 0).trans ((congrFun (blk14 m c t) (ix3 1 n 0)).trans (entry_v25 m c 1 n))
  · funext l k n
    match l with
    | ⟨0, _⟩ => exact (ld0_S2x16x32 (iblk m c 15 t) n k).trans ((congrFun (blk15 m c t) (ix3 0 n k)).trans (entry_v16 m c 0 n k))
    | ⟨1, _⟩ => exact (ld1_S2x16x32 (iblk m c 15 t) n k).trans ((congrFun (blk15 m c t) (ix3 1 n k)).trans (entry_v16 m c 1 n k))
  · funext l n
    match l with
    | ⟨0, _⟩ => exact (ld0_S2x16x1 (iblk m c 16 t) n 0).trans ((congrFun (blk16 m c t) (ix3 0 n 0)).trans (entry_v26 m c 0 n))
    | ⟨1, _⟩ => exact (ld1_S2x16x1 (iblk m c 16 t) n 0).trans ((congrFun (blk16 m c t) (ix3 1 n 0)).trans (entry_v26 m c 1 n))
  · funext l k n
    match l with
    | ⟨0, _⟩ => exact (ld0_S2x16x16 (iblk m c 17 t) n k).trans ((congrFun (blk17 m c t) (ix3 0 n k)).trans (entry_v17 m c 0 n k))
    | ⟨1, _⟩ => exact (ld1_S2x16x16 (iblk m c 17 t) n k).trans ((congrFun (blk17 m c t) (ix3 1 n k)).trans (entry_v17 m c 1 n k))
  · funext l n
    match l with
    | ⟨0, _⟩ => exact (ld0_S2x16x1 (iblk m c 18 t) n 0).trans ((congrFun (blk18 m c t) (ix3 0 n 0)).trans (entry_v27 m c 0 n))
    | ⟨1, _⟩ => exact (ld1_S2x16x1 (iblk m c 18 t) n 0).trans ((congrFun (blk18 m c t) (ix3 1 n 0)).trans (entry_v27 m c 1 n))
  · funext k n; exact (congrFun (blk19 m c t) (ix2 n k)).trans (entry_v18 m c n k)
  · funext n; exact (congrFun (blk20 m c t) (ix2 n 0)).trans (entry_v28 m c n)
  · funext k n; exact (congrFun (blk21 m c t) (ix2 n k)).trans (entry_v19 m c n k)
  · funext n; exact (congrFun (blk22 m c t) (ix2 n 0)).trans (entry_v29 m c n)

/-! ## The streamed blocks' columns are the graphs' features -/

theorem xcol0 (c : Dev nD) (t : Fin cfg0.N) (j : Fin 8192) :
    col (iblk m c 0 t : S2x8192.Idx → EReal) j = nodeFeat (m ((c : Thread nD τ).loc main_arg0)) (gidx t j) 0 := by
  funext k; exact (blk0 m c t k j).trans (entry_v2 m c k (gidx t j))

theorem xcol1 (c : Dev nD) (t : Fin cfg0.N) (j : Fin 8192) :
    col (iblk m c 1 t : S2x8192.Idx → EReal) j = nodeFeat (m ((c : Thread nD τ).loc main_arg0)) (gidx t j) 1 := by
  funext k; exact (blk1 m c t k j).trans (entry_v5 m c k (gidx t j))

theorem xcol2 (c : Dev nD) (t : Fin cfg0.N) (j : Fin 8192) :
    col (iblk m c 2 t : S3x8192.Idx → EReal) j = edgeFeat (m ((c : Thread nD τ).loc main_arg1)) (m ((c : Thread nD τ).loc main_arg2)) (m ((c : Thread nD τ).loc main_arg3)) (gidx t j) := by
  funext k; exact (blk2 m c t k j).trans (entry_v9 m c k (gidx t j))

/-! ## The output array after the run -/

/-- Column `b` of the `[1, B]` output holds the logit of graph `b`. -/
def G (c : Dev nD) : S1x1048576.Idx → EReal := fun i =>
  logitAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (i 1)

theorem hz2 : (![0, 0] : Fin 2 → Nat) = fun _ => 0 := funext fun a => by fin_cases a <;> rfl

set_option maxHeartbeats 1600000 in
/-- What point `t` writes back is block `t` of `G`. -/
theorem flushed_eq (c : Dev nD) (t : Fin cfg0.N) :
    (dats m 0 c).flushed 23 t = ((cfg0.win 23).blk t).view.read (Elt Ideal) (G m c) := by
  show (cfg0.win 23).cut (grid0.coords t) ((dats m 0 c).after 23 t) = _
  rw [after0_23]
  unfold out0_23
  rw [View.canon_unit_zero hz2]
  simp only [View.ld_unit_zero (S := S2x8192) hz2, View.ld_unit_zero (S := S3x8192) hz2, View.ld_unit_zero (S := S16x2) hz2,
    View.ld_unit_zero (S := S16x1) hz2, View.ld_unit_zero (S := S16x16) hz2, View.ld_unit_zero (S := S16x3) hz2,
    View.ld_unit_zero (S := S1x16) hz2, View.ld_unit_zero (S := S1x1) hz2]
  obtain ⟨e0, e1⟩ := idx23 t
  funext y
  obtain ⟨y0, j, rfl⟩ : ∃ (y0 : Fin 1) (j : Fin 8192), y = ix2 y0 j := ⟨y 0, y 1, eq_ix2 y⟩
  obtain rfl : y0 = 0 := Subsingleton.elim _ _
  refine (stored_apply _ _ _ _ _ _ _ _ _ _ _ _ _ _ _ _ _ _ _ _ _ _ _ _ _ _ _ _ _ _ _ j).trans ?_
  refine (congr (congr (congr (congrArg logitOf (params_eq m c t)) (xcol0 m c t j)) (xcol1 m c t j)) (xcol2 m c t j)).trans ?_
  have hb : ((cfg0.win 23).blk t).view.emb (ix2 (0 : Fin 1) j) = ix2 (0 : Fin 1) (gidx t j) := by
    funext a; apply Fin.ext
    match a with
    | ⟨0, _⟩ => show win0_23.index t (0 : Fin 2) * 1 + 1 * 0 = 0; omega
    | ⟨1, _⟩ => show win0_23.index t (1 : Fin 2) * 8192 + 1 * j.val = t.val * 8192 + j.val; omega
  show _ = G m c (((cfg0.win 23).blk t).view.emb (ix2 (0 : Fin 1) j))
  rw [hb]
  rfl

theorem mem_blk23 (t : Fin cfg0.N) (i : S1x1048576.Idx) :
    i ∈ ((cfg0.win 23).blk t).view.set ↔ ∀ a : Fin 2, win0_23.index t a * S1x8192.size a ≤ (i a).val
      ∧ (i a).val < win0_23.index t a * S1x8192.size a + S1x8192.size a := by
  show i ∈ ((View.whole main_v30).slice (win0_23.rect t)).set ↔ _
  rw [View.set_slice_whole, Rect.mem_set_unit]
  exact Iff.rfl

/-- Column `b` lies in the block of point `b / 8192`. -/
theorem cover23 (i : S1x1048576.Idx) :
    ∃ t : Fin cfg0.N, (cfg0.win 23).flush t = true ∧ i ∈ ((cfg0.win 23).blk t).view.set := by
  have hi0 : (i 0).val < 1 := (i 0).isLt
  have hi1 : (i 1).val < 1048576 := (i 1).isLt
  have ht : (i 1).val / 8192 < cfg0.N := Nat.lt_of_lt_of_eq (by omega : (i 1).val / 8192 < 128) N_0.symm
  obtain ⟨e0, e1⟩ := idx23 ⟨(i 1).val / 8192, ht⟩
  refine ⟨⟨(i 1).val / 8192, ht⟩, flush0_23 _, ?_⟩
  rw [mem_blk23]
  intro a
  match a with
  | ⟨0, _⟩ =>
    show win0_23.index ⟨(i 1).val / 8192, ht⟩ (0 : Fin 2) * 1 ≤ (i 0).val
      ∧ (i 0).val < win0_23.index ⟨(i 1).val / 8192, ht⟩ (0 : Fin 2) * 1 + 1
    omega
  | ⟨1, _⟩ =>
    show win0_23.index ⟨(i 1).val / 8192, ht⟩ (1 : Fin 2) * 8192 ≤ (i 1).val
      ∧ (i 1).val < win0_23.index ⟨(i 1).val / 8192, ht⟩ (1 : Fin 2) * 8192 + 8192
    have e1' : win0_23.index ⟨(i 1).val / 8192, ht⟩ (1 : Fin 2) = (i 1).val / 8192 := e1
    omega

/-- The output array ends holding `G`. -/
theorem final (c : Dev nD) : (dats m 0 c).arrAt 23 cfg0.N = G m c :=
  (dats m 0 c).arrAt_eq_of_cover 23 (G m c) (fun t _ => flushed_eq m c t) (cover23)

/-! ## The closing reshape, and the run -/

/-- The result of the entry function: entry `b` of the `[B]` result is column `b` of the output array. -/
theorem tail_result (c : Dev nD) :
    Pipeline.afterTail₀ cfgs (dats m) 0 (V0 m) [hostOps1] c main_v31
      = (fun i => logitAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (i 0) : S1048576.Idx → EReal) := by
  unfold Pipeline.afterTail₀
  show StableHlo.after hostOps1 _ (Proc.devRef .tc main_v31) = _
  after_results
  rw [(Pipeline.withArrays_arr spec0 launch0.win.arr_inj c _ _ 23).trans (final m c)]
  funext i
  obtain ⟨b, rfl⟩ : ∃ b : Fin 1048576, i = ix1 b := ⟨i 0, eq_ix1 i⟩
  exact shapeCast_apply _ _ (ix1 b) (ix2 (0 : Fin 1) b) (by
    rw [Shape.rowMajor_val_one, Shape.rowMajor_val_two]; show 0 * 1048576 + b.val = b.val; omega)

/-- Every weakly fair execution of the entry function terminates without a fault, with entry `b` of the result the
    specification's logit of graph `b` and every argument array as launched. -/
theorem run : θ_run defs (onTc (τ := τ) (main (F := Ideal))) ⟨m, fun _ => 0, ρ⟩ (fun r => ∀ c : Dev nD,
      r.2.mem ((c.tc : Thread nD τ).loc main_v31)
        = (fun i => logitAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (i 0) : S1048576.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨((h c).2 main_v31 (Pipeline.mem_restRefs_of main_v31 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c)⟩) (run_main m ρ)

end Cert.KernelIdeal.KValue

end
-- ==== Proof.LibRows.lean ====
import Idealize.ShloMosaic.PureOps.Ideal
import Idealize.ShloMosaic.PureOps.Ideal.Laws
import Idealize.ShloMosaic.Lib.ValueIdx
import Idealize.ShloMosaic.Lib.Pipeline.Value
import proofs.«176915_j43782896615991_2_alg».proof.Proof.LibMatmulRows
import proofs.«176915_j43782896615991_2_alg».proof.Proof.Spec

/-!
# Row-major arrays read row by row

An array `[R, C]` holds one vector of `EReal^C` per row. Every operation of a row-wise perceptron acts on rows
independently; this file reads each at an entry `(r, c)`:
* a bias vector `[N]` made a row `[1, N]` and repeated down the rows is the bias at `n` (`biasRows_apply`); the zero
  scalar spread over the array is `0` (`zeroRows_apply`);
* a product with a weight matrix `[K, H]` on the right, a bias, a positive part, a second product and bias — the
  printed form of a two-layer perceptron — is the perceptron of the row (`mlpRows_apply`);
* two or three arrays of 16 columns side by side read the concatenated row (`catRows2_apply`, `catRows3_apply`); three
  single columns side by side read the three entries (`catCols3_apply`, `colOf_apply`);
* the reshapes between `[B, 2, C]` and `[2B, C]` pair row `2b + i` with node `i` of graph `b` (`flattenNodes_apply`,
  `unflattenNodes_apply`); the slice of node `i` with its unit axis dropped is that node's row (`nodeOf_apply`); a row
  array given a unit node axis and two such stacked read back the two arrays (`unsqueeze_apply`, `stackNodes_apply`);
* layer `l` of a stack of matrices or of bias vectors, its unit axis dropped (`sliceMat_apply`, `sliceVec_apply`);
* the sum over the two nodes from the initial value `0`, divided by two, is the mean (`meanNodes_apply`);
* a single column with its unit axis dropped (`squeezeCol_apply`);
* the printed perceptron whose weights are one layer of stacked weights, at a row whose entries are known
  (`slicedMlpRows_apply`).
No proof enumerates an extent.
-/

noncomputable section

open scoped BigOperators

namespace Cert.LibRows

open Idealize.ShloMosaic Idealize.ShloMosaic.ValueIdx Cert.LibMatmulRows Cert.Egnn

/-- Row `r` of a `[R, C]` array. -/
def row {R C : Nat} (X : (⟨2, ![R, C]⟩ : Shape).Idx → EReal) (r : Fin R) : Fin C → EReal := fun c => X (ix2 r c)

theorem row_apply {R C : Nat} (X : (⟨2, ![R, C]⟩ : Shape).Idx → EReal) (r : Fin R) (c : Fin C) :
    row X r c = X (ix2 r c) := rfl

/-- A perceptron of equal weights at equal inputs. -/
theorem mlp_congr {K H N : Nat} {W1 W1' : Fin K → Fin H → EReal} {β1 β1' : Fin H → EReal}
    {W2 W2' : Fin H → Fin N → EReal} {β2 β2' : Fin N → EReal} {x x' : Fin K → EReal}
    (h1 : ∀ k h, W1 k h = W1' k h) (hb1 : ∀ h, β1 h = β1' h) (h2 : ∀ h n, W2 h n = W2' h n)
    (hb2 : ∀ n, β2 n = β2' n) (hx : ∀ k, x k = x' k) (n : Fin N) :
    mlp W1 β1 W2 β2 x n = mlp W1' β1' W2' β2' x' n := by
  have e1 : W1 = W1' := funext fun k => funext fun h => h1 k h
  have e2 : β1 = β1' := funext hb1
  have e3 : W2 = W2' := funext fun h => funext fun n => h2 h n
  have e4 : β2 = β2' := funext hb2
  have e5 : x = x' := funext hx
  rw [e1, e2, e3, e4, e5]

/-- A bias vector `[N]`, made a row `[1, N]` and repeated down `R` rows. -/
theorem biasRows_apply {α : Type} {R N : Nat} (v : (⟨1, ![N]⟩ : Shape).Idx → α)
    (h' : (⟨1, ![N]⟩ : Shape).BroadcastsInDim ⟨2, ![1, N]⟩ (![1] : Fin 1 → Fin 2))
    (h : (⟨2, ![1, N]⟩ : Shape).BroadcastsInDim ⟨2, ![R, N]⟩ (![0, 1] : Fin 2 → Fin 2)) (r : Fin R) (n : Fin N) :
    broadcastInDim ⟨2, ![R, N]⟩ (![0, 1] : Fin 2 → Fin 2) h (broadcastInDim ⟨2, ![1, N]⟩ (![1] : Fin 1 → Fin 2) h' v) (ix2 r n)
      = v (ix1 n) := by
  refine (broadcastInDim_apply (![0, 1] : Fin 2 → Fin 2) h _ (ix2 r n) (ix2 (0 : Fin 1) n) fun a => ?_).trans
    (broadcastInDim_apply (![1] : Fin 1 → Fin 2) h' v (ix2 (0 : Fin 1) n) (ix1 n) fun a => ?_)
  · match a with
    | ⟨0, _⟩ => rfl
    | ⟨1, _⟩ =>
      show n.val = if N = 1 then 0 else n.val
      split
      · have := n.isLt; omega
      · rfl
  · match a with
    | ⟨0, _⟩ =>
      show n.val = if N = 1 then 0 else n.val
      split
      · have := n.isLt; omega
      · rfl

/-- The zero scalar spread over a `[R, N]` array. -/
theorem zeroRows_apply {R N : Nat}
    (h0 : (⟨0, ![]⟩ : Shape).BroadcastsInDim ⟨2, ![R, N]⟩ (![] : Fin 0 → Fin 2)) (r : Fin R) (n : Fin N) :
    broadcastInDim ⟨2, ![R, N]⟩ (![] : Fin 0 → Fin 2) h0 (constant (F := Ideal) ⟨0, ![]⟩ .f32 0x00000000#32) (ix2 r n)
      = (0 : EReal) := by
  refine (broadcastInDim_apply (![] : Fin 0 → Fin 2) h0 _ (ix2 r n) ix0 fun a => a.elim0).trans ?_
  exact Ideal.ofBits_zero_f32

/-- The printed form of a row-wise two-layer perceptron, read at output `n` of row `r`. -/
theorem mlpRows_apply {R K H N : Nat}
    (wf1 : DotDims.WF ⟨2, ![R, K]⟩ ⟨2, ![K, H]⟩ ⟨2, ![R, H]⟩ [1] [0] [0] [1] [] [])
    (wf2 : DotDims.WF ⟨2, ![R, H]⟩ ⟨2, ![H, N]⟩ ⟨2, ![R, N]⟩ [1] [0] [0] [1] [] [])
    (hb1' : (⟨1, ![H]⟩ : Shape).BroadcastsInDim ⟨2, ![1, H]⟩ (![1] : Fin 1 → Fin 2))
    (hb1 : (⟨2, ![1, H]⟩ : Shape).BroadcastsInDim ⟨2, ![R, H]⟩ (![0, 1] : Fin 2 → Fin 2))
    (h0 : (⟨0, ![]⟩ : Shape).BroadcastsInDim ⟨2, ![R, H]⟩ (![] : Fin 0 → Fin 2))
    (hb2' : (⟨1, ![N]⟩ : Shape).BroadcastsInDim ⟨2, ![1, N]⟩ (![1] : Fin 1 → Fin 2))
    (hb2 : (⟨2, ![1, N]⟩ : Shape).BroadcastsInDim ⟨2, ![R, N]⟩ (![0, 1] : Fin 2 → Fin 2))
    (X : FVec Ideal ⟨2, ![R, K]⟩ .f32) (W1 : FVec Ideal ⟨2, ![K, H]⟩ .f32) (b1 : FVec Ideal ⟨1, ![H]⟩ .f32)
    (W2 : FVec Ideal ⟨2, ![H, N]⟩ .f32) (b2 : FVec Ideal ⟨1, ![N]⟩ .f32) (r : Fin R) (n : Fin N) :
    addf (Host.dotGeneral (dotRows R H N wf2) none
        (maximumf (addf (Host.dotGeneral (dotRows R K H wf1) none X W1)
            (broadcastInDim ⟨2, ![R, H]⟩ (![0, 1] : Fin 2 → Fin 2) hb1
              (broadcastInDim ⟨2, ![1, H]⟩ (![1] : Fin 1 → Fin 2) hb1' b1)))
          (broadcastInDim ⟨2, ![R, H]⟩ (![] : Fin 0 → Fin 2) h0 (constant ⟨0, ![]⟩ .f32 0x00000000#32))) W2)
      (broadcastInDim ⟨2, ![R, N]⟩ (![0, 1] : Fin 2 → Fin 2) hb2
        (broadcastInDim ⟨2, ![1, N]⟩ (![1] : Fin 1 → Fin 2) hb2' b2)) (ix2 r n)
      = mlp (fun k h => W1 (ix2 k h)) (fun h => b1 (ix1 h)) (fun h n => W2 (ix2 h n)) (fun n => b2 (ix1 n))
          (row X r) n := by
  rw [addf_apply, biasRows_apply]
  show FloatOps.dotGeneral (dotRows R H N wf2) none .single _ W2 (ix2 r n) + _ = _
  rw [dotGeneralRows_eq, mmRows_apply]
  unfold mlp lin relu
  congr 1
  refine Finset.sum_congr rfl fun h _ => ?_
  congr 1
  rw [maximumf_apply, addf_apply, biasRows_apply, zeroRows_apply]
  show max (FloatOps.dotGeneral (dotRows R K H wf1) none .single X W1 (ix2 r h) + _) _ = _
  rw [dotGeneralRows_eq, mmRows_apply]
  rfl

/-- Two arrays of 16 columns side by side. -/
theorem catRows2_apply {R : Nat} (A B : (⟨2, ![R, 16]⟩ : Shape).Idx → EReal)
    (h : Shape.Concatenates [(⟨2, ![R, 16]⟩ : Shape), ⟨2, ![R, 16]⟩] ⟨2, ![R, 32]⟩ 1) (r : Fin R) (k : Fin 32) :
    concatenate ⟨2, ![R, 32]⟩ 1 [⟨⟨2, ![R, 16]⟩, A⟩, ⟨⟨2, ![R, 16]⟩, B⟩] h (ix2 r k) = cat2 (row A r) (row B r) k := by
  unfold cat2
  split
  · next hk =>
    exact concatenate_pair_apply_left 1 A B h _ rfl (ix2 r ⟨k.val, hk⟩) (fun b => by
      match b with
      | ⟨0, _⟩ => rfl
      | ⟨1, _⟩ => rfl)
  · next hk =>
    exact concatenate_pair_apply_right 1 A B h _ rfl rfl (ix2 r ⟨k.val - 16, by omega⟩) (fun b hb => by
      match b with
      | ⟨0, _⟩ => rfl
      | ⟨1, _⟩ => exact absurd rfl hb) (by show (k.val - 16) + 16 = k.val; omega)

/-- Three arrays of 16 columns side by side. -/
theorem catRows3_apply {R : Nat} (A B C : (⟨2, ![R, 16]⟩ : Shape).Idx → EReal)
    (h : Shape.Concatenates [(⟨2, ![R, 16]⟩ : Shape), ⟨2, ![R, 16]⟩, ⟨2, ![R, 16]⟩] ⟨2, ![R, 48]⟩ 1) (r : Fin R)
    (k : Fin 48) :
    concatenate ⟨2, ![R, 48]⟩ 1 [⟨⟨2, ![R, 16]⟩, A⟩, ⟨⟨2, ![R, 16]⟩, B⟩, ⟨⟨2, ![R, 16]⟩, C⟩] h (ix2 r k)
      = cat3 (row A r) (row B r) (row C r) k := by
  unfold cat3
  split
  · next hk =>
    exact concatenate_apply_piece 1 [⟨⟨2, ![R, 16]⟩, A⟩, ⟨⟨2, ![R, 16]⟩, B⟩, ⟨⟨2, ![R, 16]⟩, C⟩] h (ix2 r k) 0 (by simp) _ A rfl rfl 0 rfl (ix2 r ⟨k.val, hk⟩) (fun b hb => by
      match b with
      | ⟨0, _⟩ => rfl
      | ⟨1, _⟩ => exact absurd rfl hb) (by show 0 + k.val = k.val; omega)
  · next hk =>
    split
    · next hk2 =>
      exact concatenate_apply_piece 1 [⟨⟨2, ![R, 16]⟩, A⟩, ⟨⟨2, ![R, 16]⟩, B⟩, ⟨⟨2, ![R, 16]⟩, C⟩] h (ix2 r k) 1 (by simp) _ B rfl rfl 16 rfl (ix2 r ⟨k.val - 16, by omega⟩) (fun b hb => by
        match b with
        | ⟨0, _⟩ => rfl
        | ⟨1, _⟩ => exact absurd rfl hb) (by show 16 + (k.val - 16) = k.val; omega)
    · next hk2 =>
      exact concatenate_apply_piece 1 [⟨⟨2, ![R, 16]⟩, A⟩, ⟨⟨2, ![R, 16]⟩, B⟩, ⟨⟨2, ![R, 16]⟩, C⟩] h (ix2 r k) 2 (by simp) _ C rfl rfl 32 rfl (ix2 r ⟨k.val - 32, by omega⟩) (fun b hb => by
        match b with
        | ⟨0, _⟩ => rfl
        | ⟨1, _⟩ => exact absurd rfl hb) (by show 32 + (k.val - 32) = k.val; omega)

/-- A vector `[R]` made a single column `[R, 1]`. -/
theorem colOf_apply {α : Type} {R : Nat} (v : (⟨1, ![R]⟩ : Shape).Idx → α)
    (h : (⟨1, ![R]⟩ : Shape).BroadcastsInDim ⟨2, ![R, 1]⟩ (![0] : Fin 1 → Fin 2)) (r : Fin R) :
    broadcastInDim ⟨2, ![R, 1]⟩ (![0] : Fin 1 → Fin 2) h v (ix2 r (0 : Fin 1)) = v (ix1 r) := by
  refine broadcastInDim_apply (s := ⟨1, ![R]⟩) (t := ⟨2, ![R, 1]⟩) (![0] : Fin 1 → Fin 2) h v (ix2 r (0 : Fin 1)) (ix1 r) fun a => ?_
  match a with
  | ⟨0, _⟩ =>
    show r.val = if R = 1 then 0 else r.val
    split
    · have := r.isLt; omega
    · rfl

/-- Three single columns side by side. -/
theorem catCols3_apply {α : Type} {R : Nat} (A B C : (⟨2, ![R, 1]⟩ : Shape).Idx → α)
    (h : Shape.Concatenates [(⟨2, ![R, 1]⟩ : Shape), ⟨2, ![R, 1]⟩, ⟨2, ![R, 1]⟩] ⟨2, ![R, 3]⟩ 1) (r : Fin R) (k : Fin 3) :
    concatenate ⟨2, ![R, 3]⟩ 1 [⟨⟨2, ![R, 1]⟩, A⟩, ⟨⟨2, ![R, 1]⟩, B⟩, ⟨⟨2, ![R, 1]⟩, C⟩] h (ix2 r k)
      = if k.val = 0 then A (ix2 r (0 : Fin 1)) else if k.val = 1 then B (ix2 r (0 : Fin 1)) else C (ix2 r (0 : Fin 1)) := by
  split
  · next hk =>
    exact concatenate_apply_piece 1 [⟨⟨2, ![R, 1]⟩, A⟩, ⟨⟨2, ![R, 1]⟩, B⟩, ⟨⟨2, ![R, 1]⟩, C⟩] h (ix2 r k) 0 (by simp) _ A rfl rfl 0 rfl (ix2 r (0 : Fin 1)) (fun b hb => by
      match b with
      | ⟨0, _⟩ => rfl
      | ⟨1, _⟩ => exact absurd rfl hb) (by show 0 + 0 = k.val; omega)
  · next hk =>
    split
    · next hk2 =>
      exact concatenate_apply_piece 1 [⟨⟨2, ![R, 1]⟩, A⟩, ⟨⟨2, ![R, 1]⟩, B⟩, ⟨⟨2, ![R, 1]⟩, C⟩] h (ix2 r k) 1 (by simp) _ B rfl rfl 1 rfl (ix2 r (0 : Fin 1)) (fun b hb => by
        match b with
        | ⟨0, _⟩ => rfl
        | ⟨1, _⟩ => exact absurd rfl hb) (by show 1 + 0 = k.val; omega)
    · next hk2 =>
      exact concatenate_apply_piece 1 [⟨⟨2, ![R, 1]⟩, A⟩, ⟨⟨2, ![R, 1]⟩, B⟩, ⟨⟨2, ![R, 1]⟩, C⟩] h (ix2 r k) 2 (by simp) _ C rfl rfl 2 rfl (ix2 r (0 : Fin 1)) (fun b hb => by
        match b with
        | ⟨0, _⟩ => rfl
        | ⟨1, _⟩ => exact absurd rfl hb) (by show 2 + 0 = k.val; have := k.isLt; omega)

/-- `[B, 2, C]` flattened to `[2B, C]`: row `2b + i` is node `i` of graph `b`. -/
theorem flattenNodes_apply {α : Type} {B R2 C : Nat} (hR : R2 = 2 * B) (X : (⟨3, ![B, 2, C]⟩ : Shape).Idx → α)
    (h : (⟨3, ![B, 2, C]⟩ : Shape).ShapeCasts ⟨2, ![R2, C]⟩) (b : Fin B) (i : Fin 2) (c : Fin C) :
    shapeCast ⟨2, ![R2, C]⟩ X h (ix2 ⟨2 * b.val + i.val, by have := b.isLt; have := i.isLt; omega⟩ c) = X (ix3 b i c) := by
  refine shapeCast_apply X h _ (ix3 b i c) ?_
  rw [Shape.rowMajor_val_three, Shape.rowMajor_val_two]
  show (b.val * 2 + i.val) * C + c.val = (2 * b.val + i.val) * C + c.val
  rw [Nat.mul_comm b.val 2]

/-- `[2B, C]` folded to `[B, 2, C]`: node `i` of graph `b` is row `2b + i`. -/
theorem unflattenNodes_apply {α : Type} {B R2 C : Nat} (hR : R2 = 2 * B) (Y : (⟨2, ![R2, C]⟩ : Shape).Idx → α)
    (h : (⟨2, ![R2, C]⟩ : Shape).ShapeCasts ⟨3, ![B, 2, C]⟩) (b : Fin B) (i : Fin 2) (c : Fin C) :
    shapeCast ⟨3, ![B, 2, C]⟩ Y h (ix3 b i c) = Y (ix2 ⟨2 * b.val + i.val, by have := b.isLt; have := i.isLt; omega⟩ c) := by
  refine shapeCast_apply Y h _ (ix2 ⟨2 * b.val + i.val, by have := b.isLt; have := i.isLt; omega⟩ c) ?_
  rw [Shape.rowMajor_val_three, Shape.rowMajor_val_two]
  show (2 * b.val + i.val) * C + c.val = (b.val * 2 + i.val) * C + c.val
  rw [Nat.mul_comm b.val 2]

/-- The slice of node `i` of a `[B, 2, C]` array, its unit axis dropped. -/
theorem nodeOf_apply {α : Type} {B C : Nat} (i : Fin 2) (X : (⟨3, ![B, 2, C]⟩ : Shape).Idx → α)
    (hs : (⟨3, ![B, 2, C]⟩ : Shape).Slices ![0, i.val, 0] ⟨3, ![B, 1, C]⟩)
    (hc : (⟨3, ![B, 1, C]⟩ : Shape).ShapeCasts ⟨2, ![B, C]⟩) (b : Fin B) (c : Fin C) :
    shapeCast ⟨2, ![B, C]⟩ (extractStridedSlice ⟨3, ![B, 1, C]⟩ ![0, i.val, 0] X hs) hc (ix2 b c) = X (ix3 b i c) := by
  refine (shapeCast_apply _ hc (ix2 b c) (ix3 b (0 : Fin 1) c) ?_).trans
    (extractStridedSlice_apply _ X hs (ix3 b (0 : Fin 1) c) (ix3 b i c) fun a => ?_)
  · rw [Shape.rowMajor_val_three, Shape.rowMajor_val_two]
    show (b.val * 1 + 0) * C + c.val = b.val * C + c.val
    rw [Nat.mul_one, Nat.add_zero]
  · match a with
    | ⟨0, _⟩ => show b.val = 0 + b.val; omega
    | ⟨1, _⟩ => show i.val = i.val + 0; omega
    | ⟨2, _⟩ => show c.val = 0 + c.val; omega

/-- A row array given a unit node axis. -/
theorem unsqueeze_apply {α : Type} {B C : Nat} (X : (⟨2, ![B, C]⟩ : Shape).Idx → α)
    (h : (⟨2, ![B, C]⟩ : Shape).BroadcastsInDim ⟨3, ![B, 1, C]⟩ (![0, 2] : Fin 2 → Fin 3)) (b : Fin B) (c : Fin C) :
    broadcastInDim ⟨3, ![B, 1, C]⟩ (![0, 2] : Fin 2 → Fin 3) h X (ix3 b (0 : Fin 1) c) = X (ix2 b c) := by
  refine broadcastInDim_apply (s := ⟨2, ![B, C]⟩) (t := ⟨3, ![B, 1, C]⟩) (![0, 2] : Fin 2 → Fin 3) h X (ix3 b (0 : Fin 1) c) (ix2 b c) fun a => ?_
  match a with
  | ⟨0, _⟩ =>
    show b.val = if B = 1 then 0 else b.val
    split
    · have := b.isLt; omega
    · rfl
  | ⟨1, _⟩ =>
    show c.val = if C = 1 then 0 else c.val
    split
    · have := c.isLt; omega
    · rfl

/-- Two `[B, 1, C]` arrays stacked along the node axis. -/
theorem stackNodes_apply {α : Type} {B C : Nat} (X0 X1 : (⟨3, ![B, 1, C]⟩ : Shape).Idx → α)
    (h : Shape.Concatenates [(⟨3, ![B, 1, C]⟩ : Shape), ⟨3, ![B, 1, C]⟩] ⟨3, ![B, 2, C]⟩ 1) (b : Fin B) (i : Fin 2)
    (c : Fin C) :
    concatenate ⟨3, ![B, 2, C]⟩ 1 [⟨⟨3, ![B, 1, C]⟩, X0⟩, ⟨⟨3, ![B, 1, C]⟩, X1⟩] h (ix3 b i c)
      = if i.val = 0 then X0 (ix3 b (0 : Fin 1) c) else X1 (ix3 b (0 : Fin 1) c) := by
  split
  · next hi =>
    exact concatenate_pair_apply_left 1 X0 X1 h _ rfl (ix3 b (0 : Fin 1) c) (fun a => by
      match a with
      | ⟨0, _⟩ => rfl
      | ⟨1, _⟩ => show 0 = i.val; omega
      | ⟨2, _⟩ => rfl)
  · next hi =>
    exact concatenate_pair_apply_right 1 X0 X1 h _ rfl rfl (ix3 b (0 : Fin 1) c) (fun a ha => by
      match a with
      | ⟨0, _⟩ => rfl
      | ⟨1, _⟩ => exact absurd rfl ha
      | ⟨2, _⟩ => rfl) (by show 0 + 1 = i.val; have := i.isLt; omega)

/-- Layer `l` of a stack of two matrices, its unit axis dropped. -/
theorem sliceMat_apply {α : Type} {K N : Nat} (l : Fin 2) (W : (⟨3, ![2, K, N]⟩ : Shape).Idx → α)
    (hs : (⟨3, ![2, K, N]⟩ : Shape).Slices ![l.val, 0, 0] ⟨3, ![1, K, N]⟩)
    (hc : (⟨3, ![1, K, N]⟩ : Shape).ShapeCasts ⟨2, ![K, N]⟩) (k : Fin K) (n : Fin N) :
    shapeCast ⟨2, ![K, N]⟩ (extractStridedSlice ⟨3, ![1, K, N]⟩ ![l.val, 0, 0] W hs) hc (ix2 k n) = W (ix3 l k n) := by
  refine (shapeCast_apply _ hc (ix2 k n) (ix3 (0 : Fin 1) k n) ?_).trans
    (extractStridedSlice_apply _ W hs (ix3 (0 : Fin 1) k n) (ix3 l k n) fun a => ?_)
  · rw [Shape.rowMajor_val_three, Shape.rowMajor_val_two]
    show (0 * K + k.val) * N + n.val = k.val * N + n.val
    rw [Nat.zero_mul, Nat.zero_add]
  · match a with
    | ⟨0, _⟩ => show l.val = l.val + 0; omega
    | ⟨1, _⟩ => show k.val = 0 + k.val; omega
    | ⟨2, _⟩ => show n.val = 0 + n.val; omega

/-- Layer `l` of a stack of two bias vectors, its unit axis dropped. -/
theorem sliceVec_apply {α : Type} {N : Nat} (l : Fin 2) (v : (⟨2, ![2, N]⟩ : Shape).Idx → α)
    (hs : (⟨2, ![2, N]⟩ : Shape).Slices ![l.val, 0] ⟨2, ![1, N]⟩)
    (hc : (⟨2, ![1, N]⟩ : Shape).ShapeCasts ⟨1, ![N]⟩) (n : Fin N) :
    shapeCast ⟨1, ![N]⟩ (extractStridedSlice ⟨2, ![1, N]⟩ ![l.val, 0] v hs) hc (ix1 n) = v (ix2 l n) := by
  refine (shapeCast_apply _ hc (ix1 n) (ix2 (0 : Fin 1) n) ?_).trans
    (extractStridedSlice_apply _ v hs (ix2 (0 : Fin 1) n) (ix2 l n) fun a => ?_)
  · rw [Shape.rowMajor_val_two, Shape.rowMajor_val_one]
    show 0 * N + n.val = n.val
    rw [Nat.zero_mul, Nat.zero_add]
  · match a with
    | ⟨0, _⟩ => show l.val = l.val + 0; omega
    | ⟨1, _⟩ => show n.val = 0 + n.val; omega

/-- The sum over the two nodes from the initial value `0`, divided by two: the mean of the two nodes. -/
theorem meanNodes_apply {B C : Nat} (X : FVec Ideal ⟨3, ![B, 2, C]⟩ .f32)
    (h' : (⟨3, ![B, 2, C]⟩ : Shape).ReducesTo [1] ⟨2, ![B, C]⟩) (hr : (⟨3, ![B, 2, C]⟩ : Shape).Reduces [1] ⟨2, ![B, C]⟩)
    (hu : 0 < (⟨0, ![]⟩ : Shape).numel)
    (h0 : (⟨0, ![]⟩ : Shape).BroadcastsInDim ⟨2, ![B, C]⟩ (![] : Fin 0 → Fin 2)) (b : Fin B) (c : Fin C) :
    Host.divf (Host.reduceAdd X (constant (F := Ideal) ⟨0, ![]⟩ .f32 0x00000000#32) h' hu)
        (broadcastInDim ⟨2, ![B, C]⟩ (![] : Fin 0 → Fin 2) h0 (constant (F := Ideal) ⟨0, ![]⟩ .f32 0x40000000#32)) (ix2 b c)
      = (X (ix3 b 0 c) + X (ix3 b 1 c)) * half := by
  show Ideal.div (Ideal.hostReduceAdd h' X (Ideal.ofBits .f32 0x00000000#32) (ix2 b c))
      (broadcastInDim ⟨2, ![B, C]⟩ (![] : Fin 0 → Fin 2) h0 (constant (F := Ideal) ⟨0, ![]⟩ .f32 0x40000000#32) (ix2 b c)) = _
  rw [Ideal.hostReduceAdd_single h' hr,
    broadcastInDim_apply (![] : Fin 0 → Fin 2) h0 _ (ix2 b c) ix0 (fun a => a.elim0)]
  show Ideal.div (Ideal.ofBits .f32 0x00000000#32 + ∑ k : Fin 2, X (hr.lift (ix2 b c) k)) (Ideal.ofBits .f32 0x40000000#32) = _
  rw [ofBits_two, div_two, Ideal.ofBits_zero_f32, zero_add, Fin.sum_univ_two]
  have e0 : hr.lift (ix2 b c) (0 : Fin 2) = ix3 b 0 c := funext fun a => Fin.ext (by
    match a with
    | ⟨0, _⟩ => rfl
    | ⟨1, _⟩ => rfl
    | ⟨2, _⟩ => rfl)
  have e1 : hr.lift (ix2 b c) (1 : Fin 2) = ix3 b 1 c := funext fun a => Fin.ext (by
    match a with
    | ⟨0, _⟩ => rfl
    | ⟨1, _⟩ => rfl
    | ⟨2, _⟩ => rfl)
  rw [e0, e1]

/-- A single column with its unit axis dropped. -/
theorem squeezeCol_apply {α : Type} {B : Nat} (Y : (⟨2, ![B, 1]⟩ : Shape).Idx → α)
    (h : (⟨2, ![B, 1]⟩ : Shape).ShapeCasts ⟨1, ![B]⟩) (b : Fin B) :
    shapeCast ⟨1, ![B]⟩ Y h (ix1 b) = Y (ix2 b (0 : Fin 1)) := by
  refine shapeCast_apply Y h _ (ix2 b (0 : Fin 1)) ?_
  rw [Shape.rowMajor_val_two, Shape.rowMajor_val_one]
  show b.val * 1 + 0 = b.val
  rw [Nat.mul_one, Nat.add_zero]

/-- Concatenations of equal pieces. -/
theorem cat2_congr {u u' v v' : Fin 16 → EReal} (hu : ∀ j, u j = u' j) (hv : ∀ j, v j = v' j) (k : Fin 32) :
    cat2 u v k = cat2 u' v' k := by
  rw [show u = u' from funext hu, show v = v' from funext hv]

theorem cat3_congr {u u' v v' w w' : Fin 16 → EReal} (hu : ∀ j, u j = u' j) (hv : ∀ j, v j = v' j)
    (hw : ∀ j, w j = w' j) (k : Fin 48) : cat3 u v w k = cat3 u' v' w' k := by
  rw [show u = u' from funext hu, show v = v' from funext hv, show w = w' from funext hw]

/-- The printed row-wise perceptron whose weights are layer `l` of stacked matrices and bias vectors, at a row whose
    entries are known (`hx`): the perceptron of that row with the layer's weights. -/
theorem slicedMlpRows_apply {R K H N : Nat} (l : Fin 2)
    (wf1 : DotDims.WF ⟨2, ![R, K]⟩ ⟨2, ![K, H]⟩ ⟨2, ![R, H]⟩ [1] [0] [0] [1] [] [])
    (wf2 : DotDims.WF ⟨2, ![R, H]⟩ ⟨2, ![H, N]⟩ ⟨2, ![R, N]⟩ [1] [0] [0] [1] [] [])
    (hb1' : (⟨1, ![H]⟩ : Shape).BroadcastsInDim ⟨2, ![1, H]⟩ (![1] : Fin 1 → Fin 2))
    (hb1 : (⟨2, ![1, H]⟩ : Shape).BroadcastsInDim ⟨2, ![R, H]⟩ (![0, 1] : Fin 2 → Fin 2))
    (h0 : (⟨0, ![]⟩ : Shape).BroadcastsInDim ⟨2, ![R, H]⟩ (![] : Fin 0 → Fin 2))
    (hb2' : (⟨1, ![N]⟩ : Shape).BroadcastsInDim ⟨2, ![1, N]⟩ (![1] : Fin 1 → Fin 2))
    (hb2 : (⟨2, ![1, N]⟩ : Shape).BroadcastsInDim ⟨2, ![R, N]⟩ (![0, 1] : Fin 2 → Fin 2))
    (hsW1 : (⟨3, ![2, K, H]⟩ : Shape).Slices ![l.val, 0, 0] ⟨3, ![1, K, H]⟩)
    (hcW1 : (⟨3, ![1, K, H]⟩ : Shape).ShapeCasts ⟨2, ![K, H]⟩)
    (hsb1 : (⟨2, ![2, H]⟩ : Shape).Slices ![l.val, 0] ⟨2, ![1, H]⟩)
    (hcb1 : (⟨2, ![1, H]⟩ : Shape).ShapeCasts ⟨1, ![H]⟩)
    (hsW2 : (⟨3, ![2, H, N]⟩ : Shape).Slices ![l.val, 0, 0] ⟨3, ![1, H, N]⟩)
    (hcW2 : (⟨3, ![1, H, N]⟩ : Shape).ShapeCasts ⟨2, ![H, N]⟩)
    (hsb2 : (⟨2, ![2, N]⟩ : Shape).Slices ![l.val, 0] ⟨2, ![1, N]⟩)
    (hcb2 : (⟨2, ![1, N]⟩ : Shape).ShapeCasts ⟨1, ![N]⟩)
    (X : FVec Ideal ⟨2, ![R, K]⟩ .f32) (W1 : FVec Ideal ⟨3, ![2, K, H]⟩ .f32) (b1 : FVec Ideal ⟨2, ![2, H]⟩ .f32)
    (W2 : FVec Ideal ⟨3, ![2, H, N]⟩ .f32) (b2 : FVec Ideal ⟨2, ![2, N]⟩ .f32) (r : Fin R) (n : Fin N)
    (x : Fin K → EReal) (hx : ∀ k, X (ix2 r k) = x k) :
    addf (Host.dotGeneral (dotRows R H N wf2) none
        (maximumf (addf (Host.dotGeneral (dotRows R K H wf1) none X
              (shapeCast ⟨2, ![K, H]⟩ (extractStridedSlice ⟨3, ![1, K, H]⟩ ![l.val, 0, 0] W1 hsW1) hcW1))
            (broadcastInDim ⟨2, ![R, H]⟩ (![0, 1] : Fin 2 → Fin 2) hb1
              (broadcastInDim ⟨2, ![1, H]⟩ (![1] : Fin 1 → Fin 2) hb1'
                (shapeCast ⟨1, ![H]⟩ (extractStridedSlice ⟨2, ![1, H]⟩ ![l.val, 0] b1 hsb1) hcb1))))
          (broadcastInDim ⟨2, ![R, H]⟩ (![] : Fin 0 → Fin 2) h0 (constant ⟨0, ![]⟩ .f32 0x00000000#32)))
        (shapeCast ⟨2, ![H, N]⟩ (extractStridedSlice ⟨3, ![1, H, N]⟩ ![l.val, 0, 0] W2 hsW2) hcW2))
      (broadcastInDim ⟨2, ![R, N]⟩ (![0, 1] : Fin 2 → Fin 2) hb2
        (broadcastInDim ⟨2, ![1, N]⟩ (![1] : Fin 1 → Fin 2) hb2'
          (shapeCast ⟨1, ![N]⟩ (extractStridedSlice ⟨2, ![1, N]⟩ ![l.val, 0] b2 hsb2) hcb2))) (ix2 r n)
      = mlp (fun k h => W1 (ix3 l k h)) (fun h => b1 (ix2 l h)) (fun h n => W2 (ix3 l h n)) (fun n => b2 (ix2 l n))
          x n :=
  (mlpRows_apply wf1 wf2 hb1' hb1 h0 hb2' hb2 X _ _ _ _ r n).trans
    (mlp_congr (fun k h => sliceMat_apply l W1 hsW1 hcW1 k h) (fun h => sliceVec_apply l b1 hsb1 hcb1 h)
      (fun h n => sliceMat_apply l W2 hsW2 hcW2 h n) (fun n => sliceVec_apply l b2 hsb2 hcb2 n) hx n)

end Cert.LibRows

end
-- ==== Proof.RefRead.lean ====
import proofs.«176915_j43782896615991_2_alg».proof.Proof.Gen.ReferenceIdeal.Run
import proofs.«176915_j43782896615991_2_alg».proof.Proof.LibRows

/-!
# The reference's result, graph by graph, is the network's logit

The reference computes on whole arrays, one row per graph (two rows per graph while the nodes are embedded). Read at
graph `b`, each named intermediate of its run is a quantity of the one-graph network of the specification:
* the node embeddings at `(b, i)` are `nodeEmb` of node `i`'s features (`v11_apply`), their two node rows likewise
  (`v27_apply`, `v29_apply`); the edge embedding at `b` is `edgeEmb` of the edge's features (`v25_apply`);
* the stacked layer-0 updates at `(b, i)` are the update perceptron of (node `i`, the message from node `i` and the other
  node) (`v108_apply0`, `v108_apply1`), so the states after layer 0 are `upd … 0` (`v109_apply0`, `v109_apply1`, and
  their rows `v111_apply`, `v113_apply`); the layer-1 updates likewise (`v192_apply0`, `v192_apply1`);
* the result at `b` is the classifier perceptron of the mean of the two final states: `logitAt … b` (`result_apply`).
-/

noncomputable section

open scoped BigOperators

namespace Cert.ReferenceIdeal.RefRead

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.LibMatmulRows Cert.LibRows Cert.Egnn

section Intermediates

variable (V0 : Valuation τ sig (Elt Ideal))

/-- The network's weights, read off the run's argument arrays. -/
def pars : Params :=
  paramsOf (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19))
    (V0 (Proc.devRef .tc main_arg20)) (V0 (Proc.devRef .tc main_arg21)) (V0 (Proc.devRef .tc main_arg22)) (V0 (Proc.devRef .tc main_arg23))

/-- The embedded edge of graph `b`. -/
def ev (b : Fin 1048576) : Fin 16 → EReal :=
  edgeEmb (pars V0) (edgeFeat (V0 (Proc.devRef .tc main_arg1)) (V0 (Proc.devRef .tc main_arg2)) (V0 (Proc.devRef .tc main_arg3)) b)

/-- The embedded node `i` of graph `b`. -/
def s0 (b : Fin 1048576) (i : Fin 2) : Fin 16 → EReal := nodeEmb (pars V0) (nodeFeat (V0 (Proc.devRef .tc main_arg0)) b i)

/-- The two nodes of graph `b` after layer 0. -/
def s1a (b : Fin 1048576) : Fin 16 → EReal := upd (pars V0) 0 (s0 V0 b 0) (s0 V0 b 1) (ev V0 b)
def s1b (b : Fin 1048576) : Fin 16 → EReal := upd (pars V0) 0 (s0 V0 b 1) (s0 V0 b 0) (ev V0 b)

/-- The two nodes of graph `b` after layer 1. -/
def s2a (b : Fin 1048576) : Fin 16 → EReal := upd (pars V0) 1 (s1a V0 b) (s1b V0 b) (ev V0 b)
def s2b (b : Fin 1048576) : Fin 16 → EReal := upd (pars V0) 1 (s1b V0 b) (s1a V0 b) (ev V0 b)

/-- The node embeddings: the rows of the flattened features through the embedding perceptron, folded back. -/
theorem v11_apply (b : Fin 1048576) (i : Fin 2) (n : Fin 16) :
    res_main_v11 V0 (ix3 b i n) = s0 V0 b i n := by
  unfold res_main_v11
  refine (unflattenNodes_apply (B := 1048576) (R2 := 2097152) (C := 16) rfl _ _ b i n).trans ?_
  refine (mlpRows_apply (R := 2097152) (K := 2) (H := 16) (N := 16) _ _ _ _ _ _ _ _ _ _ _ _ _ n).trans ?_
  refine mlp_congr (fun _ _ => rfl) (fun _ => rfl) (fun _ _ => rfl) (fun _ => rfl) (fun k => ?_) n
  exact flattenNodes_apply (B := 1048576) (R2 := 2097152) (C := 2) rfl _ _ b i k

/-- The edge embedding: the three edge arrays side by side through the embedding perceptron. -/
theorem v25_apply (b : Fin 1048576) (n : Fin 16) : res_main_v25 V0 (ix2 b n) = ev V0 b n := by
  unfold res_main_v25
  refine (mlpRows_apply (R := 1048576) (K := 3) (H := 16) (N := 16) _ _ _ _ _ _ _ _ _ _ _ _ b n).trans ?_
  refine mlp_congr (fun _ _ => rfl) (fun _ => rfl) (fun _ _ => rfl) (fun _ => rfl) (fun k => ?_) n
  refine (catCols3_apply _ _ _ _ b k).trans ?_
  rw [colOf_apply, colOf_apply, colOf_apply]
  rfl

/-- Node 0's embedding row. -/
theorem v27_apply (b : Fin 1048576) (n : Fin 16) : res_main_v27 V0 (ix2 b n) = s0 V0 b 0 n := by
  unfold res_main_v27
  exact (nodeOf_apply (B := 1048576) (C := 16) 0 _ _ _ b n).trans (v11_apply V0 b 0 n)

/-- Node 1's embedding row. -/
theorem v29_apply (b : Fin 1048576) (n : Fin 16) : res_main_v29 V0 (ix2 b n) = s0 V0 b 1 n := by
  unfold res_main_v29
  exact (nodeOf_apply (B := 1048576) (C := 16) 1 _ _ _ b n).trans (v11_apply V0 b 1 n)

/-- The layer-0 update of node 0: the update perceptron of (node 0, the message from nodes 0 and 1). -/
theorem v108_apply0 (b : Fin 1048576) (n : Fin 16) :
    res_main_v108 V0 (ix3 b 0 n)
      = mlp ((pars V0).uW1 0) ((pars V0).uB1 0) ((pars V0).uW2 0) ((pars V0).uB2 0)
          (cat2 (s0 V0 b 0) (msg (pars V0) 0 (s0 V0 b 0) (s0 V0 b 1) (ev V0 b))) n := by
  unfold res_main_v108
  refine (stackNodes_apply (B := 1048576) (C := 16) _ _ _ b 0 n).trans ?_
  refine (if_pos rfl).trans ?_
  refine (unsqueeze_apply (B := 1048576) (C := 16) _ _ b n).trans ?_
  refine slicedMlpRows_apply (R := 1048576) (K := 32) (H := 16) (N := 16) 0 _ _ _ _ _ _ _ _ _ _ _ _ _ _ _ _ _ _ _ _ b n _ (fun k => ?_)
  refine (catRows2_apply (R := 1048576) _ _ _ b k).trans ?_
  refine cat2_congr (fun j => v27_apply V0 b j) (fun j => ?_) k
  refine slicedMlpRows_apply (R := 1048576) (K := 48) (H := 16) (N := 16) 0 _ _ _ _ _ _ _ _ _ _ _ _ _ _ _ _ _ _ _ _ b j _ (fun k' => ?_)
  refine (catRows3_apply (R := 1048576) _ _ _ _ b k').trans ?_
  exact cat3_congr (fun j' => v27_apply V0 b j') (fun j' => v29_apply V0 b j') (fun j' => v25_apply V0 b j') k'

/-- The layer-0 update of node 1: the update perceptron of (node 1, the message from nodes 1 and 0). -/
theorem v108_apply1 (b : Fin 1048576) (n : Fin 16) :
    res_main_v108 V0 (ix3 b 1 n)
      = mlp ((pars V0).uW1 0) ((pars V0).uB1 0) ((pars V0).uW2 0) ((pars V0).uB2 0)
          (cat2 (s0 V0 b 1) (msg (pars V0) 0 (s0 V0 b 1) (s0 V0 b 0) (ev V0 b))) n := by
  unfold res_main_v108
  refine (stackNodes_apply (B := 1048576) (C := 16) _ _ _ b 1 n).trans ?_
  refine (if_neg (by decide)).trans ?_
  refine (unsqueeze_apply (B := 1048576) (C := 16) _ _ b n).trans ?_
  refine slicedMlpRows_apply (R := 1048576) (K := 32) (H := 16) (N := 16) 0 _ _ _ _ _ _ _ _ _ _ _ _ _ _ _ _ _ _ _ _ b n _ (fun k => ?_)
  refine (catRows2_apply (R := 1048576) _ _ _ b k).trans ?_
  refine cat2_congr (fun j => v29_apply V0 b j) (fun j => ?_) k
  refine slicedMlpRows_apply (R := 1048576) (K := 48) (H := 16) (N := 16) 0 _ _ _ _ _ _ _ _ _ _ _ _ _ _ _ _ _ _ _ _ b j _ (fun k' => ?_)
  refine (catRows3_apply (R := 1048576) _ _ _ _ b k').trans ?_
  exact cat3_congr (fun j' => v29_apply V0 b j') (fun j' => v27_apply V0 b j') (fun j' => v25_apply V0 b j') k'

/-- Node 0 after layer 0. -/
theorem v109_apply0 (b : Fin 1048576) (n : Fin 16) : res_main_v109 V0 (ix3 b 0 n) = s1a V0 b n := by
  unfold res_main_v109
  exact (addf_apply _ _ _).trans (congrArg₂ (· + ·) (v11_apply V0 b 0 n) (v108_apply0 V0 b n))

/-- Node 1 after layer 0. -/
theorem v109_apply1 (b : Fin 1048576) (n : Fin 16) : res_main_v109 V0 (ix3 b 1 n) = s1b V0 b n := by
  unfold res_main_v109
  exact (addf_apply _ _ _).trans (congrArg₂ (· + ·) (v11_apply V0 b 1 n) (v108_apply1 V0 b n))

/-- Node 0's row after layer 0. -/
theorem v111_apply (b : Fin 1048576) (n : Fin 16) : res_main_v111 V0 (ix2 b n) = s1a V0 b n := by
  unfold res_main_v111
  exact (nodeOf_apply (B := 1048576) (C := 16) 0 _ _ _ b n).trans (v109_apply0 V0 b n)

/-- Node 1's row after layer 0. -/
theorem v113_apply (b : Fin 1048576) (n : Fin 16) : res_main_v113 V0 (ix2 b n) = s1b V0 b n := by
  unfold res_main_v113
  exact (nodeOf_apply (B := 1048576) (C := 16) 1 _ _ _ b n).trans (v109_apply1 V0 b n)

/-- The layer-1 update of node 0. -/
theorem v192_apply0 (b : Fin 1048576) (n : Fin 16) :
    res_main_v192 V0 (ix3 b 0 n)
      = mlp ((pars V0).uW1 1) ((pars V0).uB1 1) ((pars V0).uW2 1) ((pars V0).uB2 1)
          (cat2 (s1a V0 b) (msg (pars V0) 1 (s1a V0 b) (s1b V0 b) (ev V0 b))) n := by
  unfold res_main_v192
  refine (stackNodes_apply (B := 1048576) (C := 16) _ _ _ b 0 n).trans ?_
  refine (if_pos rfl).trans ?_
  refine (unsqueeze_apply (B := 1048576) (C := 16) _ _ b n).trans ?_
  refine slicedMlpRows_apply (R := 1048576) (K := 32) (H := 16) (N := 16) 1 _ _ _ _ _ _ _ _ _ _ _ _ _ _ _ _ _ _ _ _ b n _ (fun k => ?_)
  refine (catRows2_apply (R := 1048576) _ _ _ b k).trans ?_
  refine cat2_congr (fun j => v111_apply V0 b j) (fun j => ?_) k
  refine slicedMlpRows_apply (R := 1048576) (K := 48) (H := 16) (N := 16) 1 _ _ _ _ _ _ _ _ _ _ _ _ _ _ _ _ _ _ _ _ b j _ (fun k' => ?_)
  refine (catRows3_apply (R := 1048576) _ _ _ _ b k').trans ?_
  exact cat3_congr (fun j' => v111_apply V0 b j') (fun j' => v113_apply V0 b j') (fun j' => v25_apply V0 b j') k'

/-- The layer-1 update of node 1. -/
theorem v192_apply1 (b : Fin 1048576) (n : Fin 16) :
    res_main_v192 V0 (ix3 b 1 n)
      = mlp ((pars V0).uW1 1) ((pars V0).uB1 1) ((pars V0).uW2 1) ((pars V0).uB2 1)
          (cat2 (s1b V0 b) (msg (pars V0) 1 (s1b V0 b) (s1a V0 b) (ev V0 b))) n := by
  unfold res_main_v192
  refine (stackNodes_apply (B := 1048576) (C := 16) _ _ _ b 1 n).trans ?_
  refine (if_neg (by decide)).trans ?_
  refine (unsqueeze_apply (B := 1048576) (C := 16) _ _ b n).trans ?_
  refine slicedMlpRows_apply (R := 1048576) (K := 32) (H := 16) (N := 16) 1 _ _ _ _ _ _ _ _ _ _ _ _ _ _ _ _ _ _ _ _ b n _ (fun k => ?_)
  refine (catRows2_apply (R := 1048576) _ _ _ b k).trans ?_
  refine cat2_congr (fun j => v113_apply V0 b j) (fun j => ?_) k
  refine slicedMlpRows_apply (R := 1048576) (K := 48) (H := 16) (N := 16) 1 _ _ _ _ _ _ _ _ _ _ _ _ _ _ _ _ _ _ _ _ b j _ (fun k' => ?_)
  refine (catRows3_apply (R := 1048576) _ _ _ _ b k').trans ?_
  exact cat3_congr (fun j' => v113_apply V0 b j') (fun j' => v111_apply V0 b j') (fun j' => v25_apply V0 b j') k'

end Intermediates

/-- The node axis of the stacked states is summed by dropping it. -/
theorem reduces_nodes : S1048576x2x16.Reduces [1] S1048576x16 := by decide

/-- THE REFERENCE'S RESULT AT GRAPH `b` is the network's logit of that graph. -/
theorem result_apply (V0 : Valuation τ sig (Elt Ideal)) (b : Fin 1048576) :
    val4 V0 (Proc.devRef .tc main_v207) (ValueIdx.ix1 b)
      = Cert.Egnn.logitAt (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))
          (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))
          (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) b := by
  refine (congrFun (val4_main_v207 V0) (ix1 b)).trans ?_
  refine (squeezeCol_apply (B := 1048576) _ _ b).trans ?_
  refine (mlpRows_apply (R := 1048576) (K := 16) (H := 16) (N := 1) _ _ _ _ _ _ _ _ _ _ _ _ b 0).trans ?_
  refine mlp_congr (fun _ _ => rfl) (fun _ => rfl) (fun _ _ => rfl) (fun _ => rfl) (fun k => ?_) 0
  refine (meanNodes_apply (B := 1048576) (C := 16) _ _ reduces_nodes _ _ b k).trans ?_
  refine (congrArg (· * half) (congrArg₂ (· + ·) ((addf_apply _ _ _).trans (congrArg₂ (· + ·) (v109_apply0 V0 b k) (v192_apply0 V0 b k)))
    ((addf_apply _ _ _).trans (congrArg₂ (· + ·) (v109_apply1 V0 b k) (v192_apply1 V0 b k))))).trans ?_
  rfl

end Cert.ReferenceIdeal.RefRead

end
-- ==== Proof.lean ====
/-
  A fixed two-node graph network — node and edge embeddings, two rounds of messages and updates, the mean of the two
  nodes, a classifier, every learned map a two-layer perceptron — computed by one fused kernel over tiles of 8192 graphs
  laid out channel-major, against the same network written row by row over all 1048576 graphs.

  At the ideal instance both are ONE function of the argument arrays (`Cert.Egnn.logitAt`, Proof/Spec.lean): the logit of
  graph `b`. The kernel multiplies weight by activation with the weights transposed where the reference multiplies
  activation by weight — the same finite sum with the two factors of each product exchanged; it merges the two nodes'
  batches along the graph axis before each shared perceptron and splits them after, which changes nothing because a
  perceptron acts on each graph's column by itself; and it halves the sum of the two nodes where the reference adds them
  to zero and divides by two — equal on every extended real. None of this needs the inputs to be finite.

  The kernel's result array: Proof/FrameKI.lean (the run of the entry function around its one region, what the body
  leaves in the output block), Proof/ColsKI.lean (the body's stored row read graph by graph), Proof/ValueKI.lean (the
  blocks tile the output array; the closing reshape). The reference's result: its run term read row by row
  (Proof/RefRead.lean over Proof/LibRows.lean). Proof/FrameK.lean is the same run for the program as printed.
-/
import proofs.«176915_j43782896615991_2_alg».proof.Defs
import proofs.«176915_j43782896615991_2_alg».proof.Proof.Gen.Kernel
import proofs.«176915_j43782896615991_2_alg».proof.Proof.Gen.Kernel.Skeleton
import proofs.«176915_j43782896615991_2_alg».proof.Proof.Gen.Kernel.Launch
import proofs.«176915_j43782896615991_2_alg».proof.Proof.Gen.Kernel.Points
import proofs.«176915_j43782896615991_2_alg».proof.Proof.Gen.KernelIdeal
import proofs.«176915_j43782896615991_2_alg».proof.Proof.Gen.KernelIdeal.Skeleton
import proofs.«176915_j43782896615991_2_alg».proof.Proof.Gen.KernelIdeal.Launch
import proofs.«176915_j43782896615991_2_alg».proof.Proof.Gen.KernelIdeal.Points
import proofs.«176915_j43782896615991_2_alg».proof.Proof.Gen.ReferenceIdeal
import proofs.«176915_j43782896615991_2_alg».proof.Proof.Gen.Pre_finite_inputs
import proofs.«176915_j43782896615991_2_alg».proof.Proof.Gen.ReferenceIdeal.Run
import proofs.«176915_j43782896615991_2_alg».proof.Proof.FrameK
import proofs.«176915_j43782896615991_2_alg».proof.Proof.FrameKI
import proofs.«176915_j43782896615991_2_alg».proof.Proof.ValueKI
import proofs.«176915_j43782896615991_2_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

/-- The program as printed runs to the end, faults nowhere and leaves its arguments as launched. -/
theorem frame_k [Cert.Kernel.Facts] [Cert.Pre_finite_inputs.Facts] : Cert.frame_Kernel :=
  fun m ρ _ => Cert.Kernel.Hand.frame (F := Bits) m ρ

/-- So does its idealization. -/
theorem frame_ki [Cert.KernelIdeal.Facts] [Cert.Pre_finite_inputs.Facts] : Cert.frame_KernelIdeal :=
  fun m ρ _ => Cert.KernelIdeal.Hand.frame (F := Ideal) m ρ

/-- The reference has no region: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

set_option maxHeartbeats 4000000 in
/-- Both programs end with entry `b` of their result at the logit of graph `b` of the (agreeing) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => (fun i => Cert.Egnn.logitAt
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23)) (i 0)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Value.val4_main_v207 (launchContents m' c)).symm.trans ?_
  funext i
  obtain ⟨b, rfl⟩ : ∃ b : Fin 1048576, i = ValueIdx.ix1 b := ⟨i 0, ValueIdx.eq_ix1 i⟩
  refine (Cert.ReferenceIdeal.RefRead.result_apply (launchContents m' c) b).trans ?_
  obtain ⟨h0, h1, h2, h3, h4, h5, h6, h7, h8, h9, h10, h11, h12, h13, h14, h15, h16, h17, h18, h19, h20, h21, h22, h23⟩ := hagree c
  show Cert.Egnn.logitAt
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21))
      (m' ((c.tc : Thread Cert.ReferenceIdeal.nD Cert.ReferenceIdeal.τ).loc Cert.ReferenceIdeal.main_arg22))
      (m' ((c.tc : Thread Cert.ReferenceIdeal.nD Cert.ReferenceIdeal.τ).loc Cert.ReferenceIdeal.main_arg23)) b = _
  rw [h0, h1, h2, h3, h4, h5, h6, h7, h8, h9, h10, h11, h12, h13, h14, h15, h16, h17, h18, h19, h20, h21, h22, h23]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
